-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩
abbrev S4096 : Shape := ⟨1, ![4096]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  reducesTo_S4096x512_S4096_d1 : S4096x512.ReducesTo [1] S4096
  bcast_S_S4096 : S_.BroadcastsInDim S4096 (![] : Fin 0 → Fin S4096.rank)
  reducesTo_S4096_S_d0 : S4096.ReducesTo [0] S_

variable [Facts]

def fn_part1 {F : FTy → Type} [FloatOps F] (main_v14 : IVec S_ 1) (main_v15 : FVec F S4096x512 .f32) (main_cst_5 : FVec F S_ .f32) : IVec S_ 1 :=
  let main_v16 : FVec F S4096 .f32 := (fun x v => Host.reduceAdd x v reducesTo_S4096x512_S4096_d1 h_S_) main_v15 main_cst_5
  let main_cst_6 : FVec F S_ .f32 := constant S_ .f32 0x00000000#32
  let main_v17 : FVec F S4096 .f32 := broadcastInDim S4096 ![] bcast_S_S4096 main_cst_6
  let main_v18 : IVec S4096 1 := cmpf .ogt main_v16 main_v17
  let main_c_7 : IVec S_ 1 := constantI S_ 1 1#1
  let main_v19 : IVec S_ 1 := (fun x v => Host.reduce IntOp.andi x v reducesTo_S4096_S_d0 h_S_) main_v18 main_c_7
  let main_v20 : IVec S_ 1 := andi main_v14 main_v19
  main_v20

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := mulf main_arg0 main_arg0
  let main_cst_2 : FVec F S_ .f32 := constant S_ .f32 0x00000000#32
  let main_v10 : FVec F S4096 .f32 := (fun x v => Host.reduceAdd x v reducesTo_S4096x512_S4096_d1 h_S_) main_v9 main_cst_2
  let main_cst_3 : FVec F S_ .f32 := constant S_ .f32 0x00000000#32
  let main_v11 : FVec F S4096 .f32 := broadcastInDim S4096 ![] bcast_S_S4096 main_cst_3
  let main_v12 : IVec S4096 1 := cmpf .ogt main_v10 main_v11
  let main_c_4 : IVec S_ 1 := constantI S_ 1 1#1
  let main_v13 : IVec S_ 1 := (fun x v => Host.reduce IntOp.andi x v reducesTo_S4096_S_d0 h_S_) main_v12 main_c_4
  let main_v14 : IVec S_ 1 := andi main_v8 main_v13
  let main_v15 : FVec F S4096x512 .f32 := mulf main_arg1 main_arg1
  let main_cst_5 : FVec F S_ .f32 := constant S_ .f32 0x00000000#32
  fn_part1 (F := F) main_v14 main_v15 main_cst_5
-- ==== Kernel.lean ====
abbrev S4096x512 : Shape := ⟨2, ![4096, 512]⟩
abbrev S512x512 : Shape := ⟨2, ![512, 512]⟩
abbrev S512 : Shape := ⟨1, ![512]⟩
abbrev S512x1 : Shape := ⟨2, ![512, 1]⟩
abbrev S8192x512 : Shape := ⟨2, ![8192, 512]⟩
abbrev S1x1 : Shape := ⟨2, ![1, 1]⟩
abbrev S1024x512 : Shape := ⟨2, ![1024, 512]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S_ : Shape := ⟨0, ![]⟩

abbrev nBuf : Space → Nat
  | .hbm => 10
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S8192x512, .bf16⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x1, .f32⟩
  | .local _ .vmem, ⟨13, _⟩ => ⟨S1x1, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x1, .f32⟩
  | .local _ .vmem, ⟨19, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond4 (i : grid1.Coords) : BitVec 1 :=
  let arg0 : BitVec 32 := BitVec.ofNat 32 (i 0).val
  let c7_i32 : BitVec 32 := 7#32
  let v25 : BitVec 1 := Scalar.cmpi .eq arg0 c7_i32
  let arg1 : BitVec 32 := BitVec.ofNat 32 (i 1).val
  let c7_i32_10 : BitVec 32 := 7#32
  let v26 : BitVec 1 := Scalar.cmpi .eq arg1 c7_i32_10
  let v27 : BitVec 1 := Scalar.andi v25 v26
  let v28 : BitVec 32 := Scalar.extui v27
  let c0_i32_11 : BitVec 32 := 0#32
  let v29 : BitVec 1 := Scalar.cmpi .ne v28 c0_i32_11
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_13 : BitVec 32 := 0#32
  let v35 : BitVec 1 := Scalar.cmpi .ne v34 c0_i32_13
  v35

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  concatenates_S4096x512_S4096x512_S8192x512_d0 : Shape.Concatenates [S4096x512, S4096x512] S8192x512 0
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  shapeCasts_S1x1_S_ : S1x1.ShapeCasts S_
  reduces_S512x1_S1 : S512x1.Reduces [0] S1
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .bf16 = 32 ∨ (Rect.block (s := S4096x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .f32 = 32 ∨ (Rect.block (s := S4096x512) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S4096x512.size a
  hwx2_1 : ∀ i : grid2.Coords, EltTy.bits .f32 = 32 ∨ (Rect.block (s := S4096x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

abbrev win2_0 : Pipeline.Window sig grid2 :=
  Pipeline.Window.ofSpec (Memref.whole main_arg0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S512x8192 : Shape := ⟨2, ![512, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 94
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S4096x512, .f32⟩
  | .hbm, ⟨15, _⟩ => ⟨S4096x512, .f32⟩
  | .hbm, ⟨16, _⟩ => ⟨S8192x512, .f32⟩
  | .hbm, ⟨17, _⟩ => ⟨S512x8192, .f32⟩
  | .hbm, ⟨18, _⟩ => ⟨S8192x8192, .f32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S4096x1, .i32⟩
  | .hbm, ⟨39, _⟩ => ⟨S4096x2, .i32⟩
  | .hbm, ⟨40, _⟩ => ⟨S4096, .f32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x1, .i32⟩
  | .hbm, ⟨60, _⟩ => ⟨S4096x2, .i32⟩
  | .hbm, ⟨61, _⟩ => ⟨S4096, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S8192x8192, .i32⟩
  | .hbm, ⟨70, _⟩ => ⟨S8192x8192, .i32⟩
  | .hbm, ⟨71, _⟩ => ⟨S_, .i32⟩
  | .hbm, ⟨72, _⟩ => ⟨S8192x8192, .i32⟩
  | .hbm, ⟨73, _⟩ => ⟨S8192x8192, .i32⟩
  | .hbm, ⟨74, _⟩ => ⟨S8192x8192, .i1⟩
  | .hbm, ⟨75, _⟩ => ⟨S8192x8192, .f32⟩
  | .hbm, ⟨76, _⟩ => ⟨S_, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  transposes_S8192x512_S512x8192_1_0 : S8192x512.Transposes [1, 0] S512x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192_S_d0 : S8192.ReducesTo [0] S_
  reducesTo_S8192x8192_S_d0_1 : S8192x8192.ReducesTo [0, 1] S_
  dot_S8192x512_S512x8192_S8192x8192_1_0_0_1_n_n_wf : DotDims.WF S8192x512 S512x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.BitsRegion0.lean ====
/-
  The first kernel of the program, row normalisation, as the pipeline runs it: at each of its 8 grid points the body reads
  a block of 512 rows of each argument and stores, into each of the two results' staging buffers, the block divided row by
  row by the row's Euclidean norm. What each result's buffer holds after the body is one whole-block store of that
  quotient; the inputs' buffers are left as found. Stated at any contents `V` of the unscoped buffers at the region's entry
  and at any float instance.
-/
import proofs.«157362_j60473139528480_1_alg».proof.Proof.Gen.Kernel.Launch
import proofs.«157362_j60473139528480_1_alg».proof.Proof.Gen.Kernel.Skeleton
import proofs.«157362_j60473139528480_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512 x 512 block. -/
abbrev r0_0 : Rect S512x512 := Rect.unit (s := S512x512) ![0, 0] S512x512.size inb_S512x512_S512x512_0_0

/-- What the body leaves in each result's staging buffer: its one store, of the normalised block. -/
def out0_2 (x0 : Vec F S512x512 .f32) : Vec F S512x512 .bf16 :=
  View.canon [⟨r0_0, k0_pay1 (View.ld x0 r0_0)⟩]
def out0_3 (x1 : Vec F S512x512 .f32) : Vec F S512x512 .bf16 :=
  View.canon [⟨r0_0, k0_pay2 (View.ld x1 r0_0)⟩]

theorem cover0 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

set_option maxHeartbeats 1000000 in
/-- The body on whole staging memrefs: the inputs' at read contents, the results' at anything; it ends with the inputs' as
    they were and each result's at its stored block. -/
theorem sound_kernel0 (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .bf16) (harg3 : arg3.IsWhole) (arg4 : Memref sig .tc .vmem S512x512 .bf16) (harg4 : arg4.IsWhole)
    (x0 x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Runs.lean ====
/-
  The second kernel of the program, the negative pairs' term, as the pipeline runs it over its 8 x 8 grid of 1024 x 1024
  tiles of the similarity matrix: what its runs share. The body keeps a 1 x 1 accumulator in a scratch buffer across the
  points: cleared at the first point; at a tile on the diagonal it adds the tile's sum less the sum of the tile's own diagonal,
  at any other tile the tile's sum; at the last point it stores the accumulator divided by 49152 into the result's buffer,
  which it leaves alone at every other point. Both input windows read the same array of stacked normalised rows: window 0 the
  tile's rows (fetched when the tile row changes), window 1 its columns' rows. Here: the windows' blocks, the four branch
  conditions decided over the grid, where the result's window is idle, and the invariant with the scratch buffer taken out.
-/
import proofs.«157362_j60473139528480_1_alg».proof.Proof.Gen.Kernel.Launch
import proofs.«157362_j60473139528480_1_alg».proof.Proof.Gen.Kernel.Skeleton
import proofs.«157362_j60473139528480_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The point is the first. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_0 : ∀ t : Fin cfg1.N, cond1_0 (grid1.coords t) ↔ t.val = 0 :=
  (by decide +kernel : ∀ t : Fin grid1.N, cond1_0 (grid1.coords t) ↔ t.val = 0)
/-- The tile is on the diagonal. -/
abbrev cond1_1 (i : grid1.Coords) : Prop := (Scalar.cmpi .ne (Scalar.extui (Scalar.cmpi .eq (BitVec.ofNat 32 (i 0).val) (BitVec.ofNat 32 (i 1).val))) 0#32) = 1#1
theorem hcond1_1 : ∀ t : Fin cfg1.N, cond1_1 (grid1.coords t) ↔ t.val / 8 = t.val % 8 :=
  (by decide +kernel : ∀ t : Fin grid1.N, cond1_1 (grid1.coords t) ↔ t.val / 8 = t.val % 8)
/-- The tile is off the diagonal. -/
abbrev cond1_2 (i : grid1.Coords) : Prop := (Scalar.cmpi .ne (Scalar.extui (Scalar.cmpi .ne (BitVec.ofNat 32 (i 0).val) (BitVec.ofNat 32 (i 1).val))) 0#32) = 1#1
theorem hcond1_2 : ∀ t : Fin cfg1.N, cond1_2 (grid1.coords t) ↔ ¬(t.val / 8 = t.val % 8) :=
  (by decide +kernel : ∀ t : Fin grid1.N, cond1_2 (grid1.coords t) ↔ ¬(t.val / 8 = t.val % 8))
/-- The point is the last. -/
abbrev cond1_3 (i : grid1.Coords) : Prop := k1_cond4 i = 1#1
theorem hcond1_3 : ∀ t : Fin cfg1.N, cond1_3 (grid1.coords t) ↔ t.val = 63 :=
  (by decide +kernel : ∀ t : Fin grid1.N, cond1_3 (grid1.coords t) ↔ t.val = 63)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_3 (grid1.coords t) → cfg1.idle 2 (grid1.coords t) = true := by decide +kernel
theorem noFlush1_2 : ∀ t : Fin cfg1.N, ¬cond1_3 (grid1.coords t) → (cfg1.win 2).flush t = false := by decide +kernel
theorem liveAt1_2 : ∀ t : Fin cfg1.N, cond1_3 (grid1.coords t) → cfg1.idle 2 (grid1.coords t) = false := by decide +kernel

abbrev VO1_2 : View sig .tc .vmem S1x1 .f32 := (Memref.whole cc1_stg2_0 : Memref sig .tc .vmem S1x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1_0 : Memref sig .tc .vmem S1x1 .f32 := Memref.whole cc1_scratch0
abbrev VS1_0 : View sig .tc .vmem S1x1 .f32 := scM1_0.view

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA; rw [scopedRest1_split]; simp only [scM1_0, owns_whole]; try rfl

end Cert.Kernel.Hand

end
-- ==== Proof.BitsRegion1RunA.lean ====
/-
  The negative pairs' kernel body at its FIRST grid point (a diagonal tile): the accumulator cleared, then the tile's sum less its
  diagonal's added. The result's buffer is handed back untouched.
-/
import proofs.«157362_j60473139528480_1_alg».proof.Proof.BitsRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (hc2 : ¬cond1_2 i) (hc3 : ¬cond1_3 i)
    (x0 x1 : Vec F S1024x512 .bf16) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BitsRegion1RunB.lean ====
/-
  The negative pairs' kernel body at a tile OFF the diagonal: the tile's sum added to what the point before left in the accumulator.
  The result's buffer is handed back untouched.
-/
import proofs.«157362_j60473139528480_1_alg».proof.Proof.BitsRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (hc2 : cond1_2 i) (hc3 : ¬cond1_3 i)
    (x0 x1 : Vec F S1024x512 .bf16) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BitsRegion1RunC.lean ====
/-
  The negative pairs' kernel body at a DIAGONAL tile that is neither the first point nor the last: the tile's sum less its
  diagonal's added to what the point before left. The result's buffer is handed back untouched.
-/
import proofs.«157362_j60473139528480_1_alg».proof.Proof.BitsRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_C (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (hc2 : ¬cond1_2 i) (hc3 : ¬cond1_3 i)
    (x0 x1 : Vec F S1024x512 .bf16) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BitsRegion1RunD.lean ====
/-
  The negative pairs' kernel body at its LAST grid point (a diagonal tile): the tile's sum less its diagonal's added, then the
  accumulator divided by 49152 stored into the result's buffer.
-/
import proofs.«157362_j60473139528480_1_alg».proof.Proof.BitsRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_D (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (hc2 : ¬cond1_2 i) (hc3 : cond1_3 i)
    (x0 x1 : Vec F S1024x512 .bf16) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Hand

end
-- ==== Proof.BitsRegion1.lean ====
/-
  The negative pairs' kernel over its grid: what the accumulator and the result's buffer hold after each point, by recursion
  on the point (the first point starts from a cleared accumulator, every later one from what the point before left, a diagonal
  tile adding its sum less its diagonal's, another tile its sum); the region's invariant carrying the accumulator's buffer at
  that named value; the pipeline's proof data; and the body's obligation at every point, by cases on the point (first;
  off the diagonal; on it; last).
-/
import proofs.«157362_j60473139528480_1_alg».proof.Proof.BitsRegion1RunA
import proofs.«157362_j60473139528480_1_alg».proof.Proof.BitsRegion1RunB
import proofs.«157362_j60473139528480_1_alg».proof.Proof.BitsRegion1RunC
import proofs.«157362_j60473139528480_1_alg».proof.Proof.BitsRegion1RunD
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole)

def out1_A_2 (hc0 : cond1_0 i) (hc1 : cond1_1 i) (hc2 : ¬cond1_2 i) (hc3 : ¬cond1_3 i) (x0 x1 : Vec F S1024x512 .bf16) : Vec F S1x1 .f32 :=
  VO1_2.read (Elt F) (VO1_2.writes (Elt F) VO1_2.junk (kernelRun1_A c i arg2 harg2 arg3 harg3 arg4 harg4 arg5 harg5 hc0 hc1 hc2 hc3 x0 x1).1)
theorem scover1_A_0 (hc0 : cond1_0 i) (hc1 : cond1_1 i) (hc2 : ¬cond1_2 i) (hc3 : ¬cond1_3 i) (x0 x1 : Vec F S1024x512 .bf16) (y : S1x1.Idx) :
    ∃ pc ∈ (kernelRun1_A c i arg2 harg2 arg3 harg3 arg4 harg4 arg5 harg5 hc0 hc1 hc2 hc3 x0 x1).2.1, y ∈ pc.1.set :=
  View.cover_of_tiledL (kernelRun1_A c i arg2 harg2 arg3 harg3 arg4 harg4 arg5 harg5 hc0 hc1 hc2 hc3 x0 x1).2.1 S1x1.size (by sl_kernel_rfl) y
def sout1_A_0 (hc0 : cond1_0 i) (hc1 : cond1_1 i) (hc2 : ¬cond1_2 i) (hc3 : ¬cond1_3 i) (x0 x1 : Vec F S1024x512 .bf16) : Vec F S1x1 .f32 :=
  VS1_0.read (Elt F) (VS1_0.writes (Elt F) VS1_0.junk (kernelRun1_A c i arg2 harg2 arg3 harg3 arg4 harg4 arg5 harg5 hc0 hc1 hc2 hc3 x0 x1).2.1)

def out1_B_2 (hc0 : ¬cond1_0 i) (hc1 : ¬cond1_1 i) (hc2 : cond1_2 i) (hc3 : ¬cond1_3 i) (x0 x1 : Vec F S1024x512 .bf16) (xs0 : Vec F S1x1 .f32) : Vec F S1x1 .f32 :=
  VO1_2.read (Elt F) (VO1_2.writes (Elt F) VO1_2.junk (kernelRun1_B c i arg2 harg2 arg3 harg3 arg4 harg4 arg5 harg5 hc0 hc1 hc2 hc3 x0 x1 xs0).1)
theorem scover1_B_0 (hc0 : ¬cond1_0 i) (hc1 : ¬cond1_1 i) (hc2 : cond1_2 i) (hc3 : ¬cond1_3 i) (x0 x1 : Vec F S1024x512 .bf16) (xs0 : Vec F S1x1 .f32) (y : S1x1.Idx) :
    ∃ pc ∈ (kernelRun1_B c i arg2 harg2 arg3 harg3 arg4 harg4 arg5 harg5 hc0 hc1 hc2 hc3 x0 x1 xs0).2.1, y ∈ pc.1.set :=
  View.cover_of_tiledL (kernelRun1_B c i arg2 harg2 arg3 harg3 arg4 harg4 arg5 harg5 hc0 hc1 hc2 hc3 x0 x1 xs0).2.1 S1x1.size (by sl_kernel_rfl) y
def sout1_B_0 (hc0 : ¬cond1_0 i) (hc1 : ¬cond1_1 i) (hc2 : cond1_2 i) (hc3 : ¬cond1_3 i) (x0 x1 : Vec F S1024x512 .bf16) (xs0 : Vec F S1x1 .f32) : Vec F S1x1 .f32 :=
  VS1_0.read (Elt F) (VS1_0.writes (Elt F) VS1_0.junk (kernelRun1_B c i arg2 harg2 arg3 harg3 arg4 harg4 arg5 harg5 hc0 hc1 hc2 hc3 x0 x1 xs0).2.1)

def out1_C_2 (hc0 : ¬cond1_0 i) (hc1 : cond1_1 i) (hc2 : ¬cond1_2 i) (hc3 : ¬cond1_3 i) (x0 x1 : Vec F S1024x512 .bf16) (xs0 : Vec F S1x1 .f32) : Vec F S1x1 .f32 :=
  VO1_2.read (Elt F) (VO1_2.writes (Elt F) VO1_2.junk (kernelRun1_C c i arg2 harg2 arg3 harg3 arg4 harg4 arg5 harg5 hc0 hc1 hc2 hc3 x0 x1 xs0).1)
theorem scover1_C_0 (hc0 : ¬cond1_0 i) (hc1 : cond1_1 i) (hc2 : ¬cond1_2 i) (hc3 : ¬cond1_3 i) (x0 x1 : Vec F S1024x512 .bf16) (xs0 : Vec F S1x1 .f32) (y : S1x1.Idx) :
    ∃ pc ∈ (kernelRun1_C c i arg2 harg2 arg3 harg3 arg4 harg4 arg5 harg5 hc0 hc1 hc2 hc3 x0 x1 xs0).2.1, y ∈ pc.1.set :=
  View.cover_of_tiledL (kernelRun1_C c i arg2 harg2 arg3 harg3 arg4 harg4 arg5 harg5 hc0 hc1 hc2 hc3 x0 x1 xs0).2.1 S1x1.size (by sl_kernel_rfl) y
def sout1_C_0 (hc0 : ¬cond1_0 i) (hc1 : cond1_1 i) (hc2 : ¬cond1_2 i) (hc3 : ¬cond1_3 i) (x0 x1 : Vec F S1024x512 .bf16) (xs0 : Vec F S1x1 .f32) : Vec F S1x1 .f32 :=
  VS1_0.read (Elt F) (VS1_0.writes (Elt F) VS1_0.junk (kernelRun1_C c i arg2 harg2 arg3 harg3 arg4 harg4 arg5 harg5 hc0 hc1 hc2 hc3 x0 x1 xs0).2.1)

theorem cover1_D_2 (hc0 : ¬cond1_0 i) (hc1 : cond1_1 i) (hc2 : ¬cond1_2 i) (hc3 : cond1_3 i) (x0 x1 : Vec F S1024x512 .bf16) (xs0 : Vec F S1x1 .f32) (y : S1x1.Idx) :
    ∃ pc ∈ (kernelRun1_D c i arg2 harg2 arg3 harg3 arg4 harg4 arg5 harg5 hc0 hc1 hc2 hc3 x0 x1 xs0).1, y ∈ pc.1.set :=
  View.cover_of_tiledL (kernelRun1_D c i arg2 harg2 arg3 harg3 arg4 harg4 arg5 harg5 hc0 hc1 hc2 hc3 x0 x1 xs0).1 S1x1.size (by sl_kernel_rfl) y
def out1_D_2 (hc0 : ¬cond1_0 i) (hc1 : cond1_1 i) (hc2 : ¬cond1_2 i) (hc3 : cond1_3 i) (x0 x1 : Vec F S1024x512 .bf16) (xs0 : Vec F S1x1 .f32) : Vec F S1x1 .f32 :=
  VO1_2.read (Elt F) (VO1_2.writes (Elt F) VO1_2.junk (kernelRun1_D c i arg2 harg2 arg3 harg3 arg4 harg4 arg5 harg5 hc0 hc1 hc2 hc3 x0 x1 xs0).1)
theorem scover1_D_0 (hc0 : ¬cond1_0 i) (hc1 : cond1_1 i) (hc2 : ¬cond1_2 i) (hc3 : cond1_3 i) (x0 x1 : Vec F S1024x512 .bf16) (xs0 : Vec F S1x1 .f32) (y : S1x1.Idx) :
    ∃ pc ∈ (kernelRun1_D c i arg2 harg2 arg3 harg3 arg4 harg4 arg5 harg5 hc0 hc1 hc2 hc3 x0 x1 xs0).2.1, y ∈ pc.1.set :=
  View.cover_of_tiledL (kernelRun1_D c i arg2 harg2 arg3 harg3 arg4 harg4 arg5 harg5 hc0 hc1 hc2 hc3 x0 x1 xs0).2.1 S1x1.size (by sl_kernel_rfl) y
def sout1_D_0 (hc0 : ¬cond1_0 i) (hc1 : cond1_1 i) (hc2 : ¬cond1_2 i) (hc3 : cond1_3 i) (x0 x1 : Vec F S1024x512 .bf16) (xs0 : Vec F S1x1 .f32) : Vec F S1x1 .f32 :=
  VS1_0.read (Elt F) (VS1_0.writes (Elt F) VS1_0.junk (kernelRun1_D c i arg2 harg2 arg3 harg3 arg4 harg4 arg5 harg5 hc0 hc1 hc2 hc3 x0 x1 xs0).2.1)

end Cases

/-- THE ACCUMULATION: the result's buffer and the accumulator after the body at position `n`. -/
def outsAt1 (c : Dev nD) : (n : ℕ) → n < cfg1.N → Vec F S1x1 .f32 × Vec F S1x1 .f32
  | 0, hn =>
    have hz : (⟨0, hn⟩ : Fin cfg1.N).val = 0 := rfl
    have hd : (⟨0, hn⟩ : Fin cfg1.N).val / 8 = (⟨0, hn⟩ : Fin cfg1.N).val % 8 := show (0 : ℕ) / 8 = 0 % 8 from rfl
    have hl : ¬(⟨0, hn⟩ : Fin cfg1.N).val = 63 := fun h => absurd (show (0 : ℕ) = 63 from h) (by omega)
    (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr hz) ((hcond1_1 ⟨0, hn⟩).mpr hd) (fun h => ((hcond1_2 ⟨0, hn⟩).mp h) hd) (fun h => hl ((hcond1_3 ⟨0, hn⟩).mp h)) (iblk1 V c 0 ⟨0, hn⟩) (iblk1 V c 1 ⟨0, hn⟩),
          sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr hz) ((hcond1_1 ⟨0, hn⟩).mpr hd) (fun h => ((hcond1_2 ⟨0, hn⟩).mp h) hd) (fun h => hl ((hcond1_3 ⟨0, hn⟩).mp h)) (iblk1 V c 0 ⟨0, hn⟩) (iblk1 V c 1 ⟨0, hn⟩))
  | n + 1, hn =>
    have hz : ¬(⟨n + 1, hn⟩ : Fin cfg1.N).val = 0 := Nat.succ_ne_zero n
    if hd : (⟨n + 1, hn⟩ : Fin cfg1.N).val / 8 = (⟨n + 1, hn⟩ : Fin cfg1.N).val % 8 then
      if hl : (⟨n + 1, hn⟩ : Fin cfg1.N).val = 63 then
        (out1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) ((hcond1_1 ⟨n + 1, hn⟩).mpr hd) (fun h => ((hcond1_2 ⟨n + 1, hn⟩).mp h) hd) ((hcond1_3 ⟨n + 1, hn⟩).mpr hl) (iblk1 V c 0 ⟨n + 1, hn⟩) (iblk1 V c 1 ⟨n + 1, hn⟩) (outsAt1 c n (Nat.lt_of_succ_lt hn)).2,
          sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) ((hcond1_1 ⟨n + 1, hn⟩).mpr hd) (fun h => ((hcond1_2 ⟨n + 1, hn⟩).mp h) hd) ((hcond1_3 ⟨n + 1, hn⟩).mpr hl) (iblk1 V c 0 ⟨n + 1, hn⟩) (iblk1 V c 1 ⟨n + 1, hn⟩) (outsAt1 c n (Nat.lt_of_succ_lt hn)).2)
      else
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) ((hcond1_1 ⟨n + 1, hn⟩).mpr hd) (fun h => ((hcond1_2 ⟨n + 1, hn⟩).mp h) hd) (fun h => hl ((hcond1_3 ⟨n + 1, hn⟩).mp h)) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) ((hcond1_1 ⟨n + 1, hn⟩).mpr hd) (fun h => ((hcond1_2 ⟨n + 1, hn⟩).mp h) hd) (fun h => hl ((hcond1_3 ⟨n + 1, hn⟩).mp h)) (iblk1 V c 0 ⟨n + 1, hn⟩) (iblk1 V c 1 ⟨n + 1, hn⟩) (outsAt1 c n (Nat.lt_of_succ_lt hn)).2)
    else
      have hl : ¬(⟨n + 1, hn⟩ : Fin cfg1.N).val = 63 := fun h => hd (by rw [h])
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) (fun h => hd ((hcond1_1 ⟨n + 1, hn⟩).mp h)) ((hcond1_2 ⟨n + 1, hn⟩).mpr hd) (fun h => hl ((hcond1_3 ⟨n + 1, hn⟩).mp h)) (iblk1 V c 0 ⟨n + 1, hn⟩) (iblk1 V c 1 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) (fun h => hd ((hcond1_1 ⟨n + 1, hn⟩).mp h)) ((hcond1_2 ⟨n + 1, hn⟩).mpr hd) (fun h => hl ((hcond1_3 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (hz : t.val = 0) (hd : t.val / 8 = t.val % 8) (hl : ¬t.val = 63) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr hz) ((hcond1_1 t).mpr hd) (fun h => ((hcond1_2 t).mp h) hd) (fun h => hl ((hcond1_3 t).mp h)) (iblk1 V c 0 t) (iblk1 V c 1 t),
          sout1_A_0 c (grid1.coords t) (ms1_0 t) (hs1_0 t) (ms1_1 t) (hs1_1 t) (ms1_2 t) (hs1_2 t) scM1_0 (Memref.isWhole_whole _) ((hcond1_0 t).mpr hz) ((hcond1_1 t).mpr hd) (fun h => ((hcond1_2 t).mp h) hd) (fun h => hl ((hcond1_3 t).mp h)) (iblk1 V c 0 t) (iblk1 V c 1 t)) := by
  obtain ⟨n, hn⟩ := t
  cases n with
  | zero => exact rfl
  | succ n => exact absurd hz (Nat.succ_ne_zero n)

theorem outsAt1_B (c : Dev nD) (t : Fin cfg1.N) (hz : ¬t.val = 0) (hd : ¬(t.val / 8 = t.val % 8)) (hl : ¬t.val = 63) :
    outsAt1 V c t.val t.isLt = (out1_B_2 c (grid1.coords t) (ms1_0 t) (hs1_0 t) (ms1_1 t) (hs1_1 t) (ms1_2 t) (hs1_2 t) scM1_0 (Memref.isWhole_whole _) (fun h => hz ((hcond1_0 t).mp h)) (fun h => hd ((hcond1_1 t).mp h)) ((hcond1_2 t).mpr hd) (fun h => hl ((hcond1_3 t).mp h)) (iblk1 V c 0 t) (iblk1 V c 1 t) (outsAt1 V c (t.val - 1) (Nat.lt_of_le_of_lt (Nat.sub_le _ _) t.isLt)).2,
          sout1_B_0 c (grid1.coords t) (ms1_0 t) (hs1_0 t) (ms1_1 t) (hs1_1 t) (ms1_2 t) (hs1_2 t) scM1_0 (Memref.isWhole_whole _) (fun h => hz ((hcond1_0 t).mp h)) (fun h => hd ((hcond1_1 t).mp h)) ((hcond1_2 t).mpr hd) (fun h => hl ((hcond1_3 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl hz
  | succ n => exact (dif_neg hd).trans rfl

theorem outsAt1_C (c : Dev nD) (t : Fin cfg1.N) (hz : ¬t.val = 0) (hd : t.val / 8 = t.val % 8) (hl : ¬t.val = 63) :
    outsAt1 V c t.val t.isLt = (out1_C_2 c (grid1.coords t) (ms1_0 t) (hs1_0 t) (ms1_1 t) (hs1_1 t) (ms1_2 t) (hs1_2 t) scM1_0 (Memref.isWhole_whole _) (fun h => hz ((hcond1_0 t).mp h)) ((hcond1_1 t).mpr hd) (fun h => ((hcond1_2 t).mp h) hd) (fun h => hl ((hcond1_3 t).mp h)) (iblk1 V c 0 t) (iblk1 V c 1 t) (outsAt1 V c (t.val - 1) (Nat.lt_of_le_of_lt (Nat.sub_le _ _) t.isLt)).2,
          sout1_C_0 c (grid1.coords t) (ms1_0 t) (hs1_0 t) (ms1_1 t) (hs1_1 t) (ms1_2 t) (hs1_2 t) scM1_0 (Memref.isWhole_whole _) (fun h => hz ((hcond1_0 t).mp h)) ((hcond1_1 t).mpr hd) (fun h => ((hcond1_2 t).mp h) hd) (fun h => hl ((hcond1_3 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl hz
  | succ n => exact (dif_pos hd).trans ((dif_neg hl).trans rfl)

theorem outsAt1_D (c : Dev nD) (t : Fin cfg1.N) (hz : ¬t.val = 0) (hd : t.val / 8 = t.val % 8) (hl : t.val = 63) :
    outsAt1 V c t.val t.isLt = (out1_D_2 c (grid1.coords t) (ms1_0 t) (hs1_0 t) (ms1_1 t) (hs1_1 t) (ms1_2 t) (hs1_2 t) scM1_0 (Memref.isWhole_whole _) (fun h => hz ((hcond1_0 t).mp h)) ((hcond1_1 t).mpr hd) (fun h => ((hcond1_2 t).mp h) hd) ((hcond1_3 t).mpr hl) (iblk1 V c 0 t) (iblk1 V c 1 t) (outsAt1 V c (t.val - 1) (Nat.lt_of_le_of_lt (Nat.sub_le _ _) t.isLt)).2,
          sout1_D_0 c (grid1.coords t) (ms1_0 t) (hs1_0 t) (ms1_1 t) (hs1_1 t) (ms1_2 t) (hs1_2 t) scM1_0 (Memref.isWhole_whole _) (fun h => hz ((hcond1_0 t).mp h)) ((hcond1_1 t).mpr hd) (fun h => ((hcond1_2 t).mp h) hd) ((hcond1_3 t).mpr hl) (iblk1 V c 0 t) (iblk1 V c 1 t) (outsAt1 V c (t.val - 1) (Nat.lt_of_le_of_lt (Nat.sub_le _ _) t.isLt)).2) := by
  obtain ⟨n, hn⟩ := t
  cases n with
  | zero => exact absurd rfl hz
  | succ n => exact (dif_pos hd).trans ((dif_pos hl).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases hz : t.val = 0
  · have hd : t.val / 8 = t.val % 8 := by omega
    have hl : ¬t.val = 63 := by omega
    rw [Dat.leavesExact_idle (dat1 V c) 2 t (idleAt1_2 t (fun h => hl ((hcond1_3 t).mp h))) (noFlush1_2 t (fun h => hl ((hcond1_3 t).mp h)))]
    rw [outsAt1_A V c t hz hd hl]
    unfold sout1_A_0; (try dsimp only)
    rw [PhiS1_castSucc V c t, PhiS1_zero V c _ _ hz, PhiA1_eq]
    iintro ⟨⟨⟨HS0, Hr⟩, Hg⟩, Ho, ⟨%d0, H0⟩, ⟨%d1, H1⟩, ⟨%d2, H2⟩⟩
    iapply ((kernelRun1_A c (grid1.coords t) _ _ _ _ _ _ _ _ ((hcond1_0 t).mpr hz) ((hcond1_1 t).mpr hd) (fun h => ((hcond1_2 t).mp h) hd) (fun h => hl ((hcond1_3 t).mp h)) (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg Hr]
    · isplitl [HS0 Hr]
      · isplitl [HS0]
        · unfold owns; iexists _; isplitr
          swap; · iexact HS0
          ipureintro; exact View.read_writes_of_cover _ _ _ _ _ (scover1_A_0 c _ _ _ _ _ _ _ _ _ _ _ _ _ _ _)
        iexact Hr
      iexact Hg
    isplitl [Ho]; · iexact Ho
    isplitl [H0]; · iexact H0
    isplitl [H1]; · iexact H1
    iexists _; iexact H2
  · by_cases hd : t.val / 8 = t.val % 8
    · by_cases hl : t.val = 63
      · rw [show (dat1 V c).leavesExact 2 t = owns (c : Thread nD τ) (ms1_2 t) fullShare ((dat1 V c).after 2 t) from by
          unfold Dat.leavesExact; rw [liveAt1_2 t ((hcond1_3 t).mpr hl)], after1_2]
        rw [outsAt1_D V c t hz hd hl]
        unfold out1_D_2 sout1_D_0; (try dsimp only)
        rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_D c (grid1.coords t) _ _ _ _ _ _ _ _ (fun h => hz ((hcond1_0 t).mp h)) ((hcond1_1 t).mpr hd) (fun h => ((hcond1_2 t).mp h) hd) ((hcond1_3 t).mpr hl) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg Hr]
        · isplitl [HS0 Hr]
          · isplitl [HS0]
            · unfold owns; iexists _; isplitr
              swap; · iexact HS0
              ipureintro; exact View.read_writes_of_cover _ _ _ _ _ (scover1_D_0 c _ _ _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_D_2 c _ _ _ _ _ _ _ _ _ _ _ _ _ _ _ _)
      · rw [Dat.leavesExact_idle (dat1 V c) 2 t (idleAt1_2 t (fun h => hl ((hcond1_3 t).mp h))) (noFlush1_2 t (fun h => hl ((hcond1_3 t).mp h)))]
        rw [outsAt1_C V c t hz hd hl]
        unfold sout1_C_0; (try dsimp only)
        rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_C c (grid1.coords t) _ _ _ _ _ _ _ _ (fun h => hz ((hcond1_0 t).mp h)) ((hcond1_1 t).mpr hd) (fun h => ((hcond1_2 t).mp h) hd) (fun h => hl ((hcond1_3 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg Hr]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _)
            iexact Hr
          iexact Hg
        isplitl [Ho]; · iexact Ho
        isplitl [H0]; · iexact H0
        isplitl [H1]; · iexact H1
        iexists _; iexact H2
    · have hl : ¬t.val = 63 := by omega
      rw [Dat.leavesExact_idle (dat1 V c) 2 t (idleAt1_2 t (fun h => hl ((hcond1_3 t).mp h))) (noFlush1_2 t (fun h => hl ((hcond1_3 t).mp h)))]
      rw [outsAt1_B V c t hz hd hl]
      unfold sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_B c (grid1.coords t) _ _ _ _ _ _ _ _ (fun h => hz ((hcond1_0 t).mp h)) (fun h => hd ((hcond1_1 t).mp h)) ((hcond1_2 t).mpr hd) (fun h => hl ((hcond1_3 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hr]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _)
          iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hr⟩, Hg⟩
  isplitl [HS0 Hr]
  · isplitl [HS0]
    · iexists _; iexact HS0
    iexact Hr
  iexact Hg

end Cert.Kernel.Hand

end
-- ==== Proof.BitsRegion1Arrays.lean ====
/-
  The negative pairs' kernel reads ONE array, the stacked normalised rows, through both of its input windows. At the region's
  entry the core's hold on that array is therefore dealt in two halves, one per window, and joined again at the exit; the
  result's array is held outright. Here: the region's arrays spelt out buffer by buffer, how they come out of the core's
  unscoped buffers at the entry, and how they go back, at the result's new contents, at the exit.
-/
import proofs.«157362_j60473139528480_1_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, buffer by buffer: the stacked rows' array at the left half for the row window and at the right half
    for the column window, the result's array whole. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W1, (arr_whole1 0).set_eq_univ, (arr_whole1 2).set_eq_univ]
  rfl

/-- The distinct buffers behind the region's arrays. -/
theorem arrBufs1_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v1) ↦{fullShare} U main_v1) ∗ (((c : Thread nD τ).loc main_v2) ↦{fullShare} U main_v2)) := by
  unfold Pipeline.arrBufs
  rw [show (Finset.univ.image (Pipeline.arrRef spec1)) = {main_v1, main_v2} from by decide,
    bigSep_insert (by decide : (main_v1 : Ref sig .tc) ∉ ({main_v2} : Finset (Ref sig .tc))), bigSep_singleton]
  rfl

/-- ENTRY: the unscoped buffers at `U` give the region's arrays at `U`'s contents and the unscoped rest. -/
theorem arrays1_of_unscopedBufs (c : Dev nD) (U : (b : Ref sig .tc) → Buf (Elt F) ((c : Thread nD τ).loc b))
    (G : (w : Fin cfg1.W) → Buf (Elt F) ((cfg1.win w).arr.view.loc (c.tc : Thread nD τ)))
    (h0 : G 0 = U main_v1) (h1 : G 1 = U main_v1) (h2 : G 2 = U main_v2) :
    (unscopedBufs c U : sProp 𝕄) ⊢ iprop((dat1 V c).arrays G ∗ Pipeline.unscopedRest (Ix := Unit) (Name := ℕ) (U := UR sig nD τ) (Lvl := ℕ) spec1 c U) := by
  have hs : (unscopedBufs c U : sProp 𝕄) = iprop(Pipeline.arrBufs (Ix := Unit) (Name := ℕ) (U := UR sig nD τ) (Lvl := ℕ) spec1 c U
      ∗ Pipeline.unscopedRest (Ix := Unit) (Name := ℕ) (U := UR sig nD τ) (Lvl := ℕ) spec1 c U) :=
    Pipeline.unscopedBufs_split₀ cfgs 1 winFacts₀1.arr_unscoped c U
  rw [hs, arrBufs1_eq, arrays1_eq, h0, h1, h2]
  iintro ⟨⟨H1, H2⟩, Hr⟩
  ihave H1 := (pointsTo_share (PosShare.mem_left_op_right fullShare)).1 $$ H1
  icases H1 with ⟨Ha, Hb⟩
  isplitr [Hr]
  · isplitl [Ha]; · iexact Ha
    isplitl [Hb]; · iexact Hb
    iexact H2
  iexact Hr

/-- EXIT: the region's arrays — the stacked rows' at `U`'s contents in both halves, the result's at `x` — and the unscoped
    rest at `U` are the unscoped buffers at any `U'` that has the result's array at `x` and agrees with `U` elsewhere. -/
theorem unscopedBufs_of_arrays1 (c : Dev nD) (U U' : (b : Ref sig .tc) → Buf (Elt F) ((c : Thread nD τ).loc b))
    (G : (w : Fin cfg1.W) → Buf (Elt F) ((cfg1.win w).arr.view.loc (c.tc : Thread nD τ)))
    (h0 : G 0 = U' main_v1) (h1 : G 1 = U' main_v1) (h2 : G 2 = U' main_v2)
    (hrest : ∀ b, b ∉ Finset.univ.image (Pipeline.arrRef spec1) → U' b = U b) :
    iprop((dat1 V c).arrays G ∗ Pipeline.unscopedRest (Ix := Unit) (Name := ℕ) (U := UR sig nD τ) (Lvl := ℕ) spec1 c U) ⊢ (unscopedBufs c U' : sProp 𝕄) := by
  have hs : (unscopedBufs c U' : sProp 𝕄) = iprop(Pipeline.arrBufs (Ix := Unit) (Name := ℕ) (U := UR sig nD τ) (Lvl := ℕ) spec1 c U'
      ∗ Pipeline.unscopedRest (Ix := Unit) (Name := ℕ) (U := UR sig nD τ) (Lvl := ℕ) spec1 c U') :=
    Pipeline.unscopedBufs_split₀ cfgs 1 winFacts₀1.arr_unscoped c U'
  rw [hs, arrBufs1_eq, arrays1_eq, h0, h1, h2]
  have hr : (Pipeline.unscopedRest (Ix := Unit) (Name := ℕ) (U := UR sig nD τ) (Lvl := ℕ) spec1 c U : sProp 𝕄)
      = Pipeline.unscopedRest (Ix := Unit) (Name := ℕ) (U := UR sig nD τ) (Lvl := ℕ) spec1 c U' := by
    unfold Pipeline.unscopedRest
    exact bigSep_congr fun b hb => by rw [hrest b (Finset.mem_sdiff.mp hb).2]
  rw [hr]
  iintro ⟨⟨Ha, Hb, H2⟩, Hr⟩
  ihave H1 := (pointsTo_share (PosShare.mem_left_op_right fullShare)).2 $$ [Ha Hb]
  · isplitl [Ha] <;> iassumption
  isplitr [Hr]
  · isplitl [H1]; · iexact H1
    iexact H2
  iexact Hr

end Cert.Kernel.Hand

end
-- ==== Proof.BitsRegion2Runs.lean ====
/-
  The third kernel of the program, the positive pairs' term, as the pipeline runs it over its 8 grid points: what its runs
  share. The body keeps a 1 x 1 accumulator in a scratch buffer across the points: it clears it at the first point, adds the
  block's sum at every point, and at the last point stores the accumulator divided by 4096 into the result's buffer, which
  it leaves alone (and the pipeline does not write back) at every other point. Here: the blocks of the windows, the
  conditions of the body's two branches decided over the grid, where the result's window is idle, and the region's
  invariant with the scratch buffer taken out of the scoped rest.
-/
import proofs.«157362_j60473139528480_1_alg».proof.Proof.Gen.Kernel.Launch
import proofs.«157362_j60473139528480_1_alg».proof.Proof.Gen.Kernel.Skeleton
import proofs.«157362_j60473139528480_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first branch's condition (the point is the first), from the grid coordinates. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The second branch's condition (the point is the last). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- One staging buffer of the result's window, through which its contents are stated. -/
abbrev VO2_2 : View sig .tc .vmem S1x1 .f32 := (Memref.whole cc2_stg2_0 : Memref sig .tc .vmem S1x1 .f32).view
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- The scratch accumulator. -/
abbrev scM2_0 : Memref sig .tc .vmem S1x1 .f32 := Memref.whole cc2_scratch0
abbrev VS2_0 : View sig .tc .vmem S1x1 .f32 := scM2_0.view

/-- The scoped rest with the accumulator's buffer taken out. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The rest of the scoped buffers, unopened. -/
abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_split]; simp only [scM2_0, owns_whole]; try rfl

end Cert.Kernel.Hand

end
-- ==== Proof.BitsRegion2RunA.lean ====
/-
  The positive pairs' kernel body at its FIRST grid point: the first branch taken (the accumulator cleared), the last not. The
  result's buffer is handed back untouched; what the accumulator's buffer ends with is found by running the body.
-/
import proofs.«157362_j60473139528480_1_alg».proof.Proof.BitsRegion2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_A (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 x1 : Vec F S512x512 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__positives_kernel i arg1 harg1 arg2 harg2 arg3 harg3 arg4 harg4) K } := by
  refine ⟨[], ?_, fun xi2 E K => ?run⟩
  case run =>
    simp only [cc2__positives_kernel_eq_skeleton]; unfold cc2__positives_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.BitsRegion2RunB.lean ====
/-
  The positive pairs' kernel body at a MIDDLE grid point: neither branch taken. The accumulator's buffer comes with what the
  point before left; the result's buffer is handed back untouched.
-/
import proofs.«157362_j60473139528480_1_alg».proof.Proof.BitsRegion2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_B (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 x1 : Vec F S512x512 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__positives_kernel i arg1 harg1 arg2 harg2 arg3 harg3 arg4 harg4) K } := by
  refine ⟨[], ?_, fun xi2 E K => ?run⟩
  case run =>
    simp only [cc2__positives_kernel_eq_skeleton]; unfold cc2__positives_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.BitsRegion2RunC.lean ====
/-
  The positive pairs' kernel body at its LAST grid point: the first branch not taken, the last taken (the accumulator divided
  by 4096 stored into the result's buffer). The accumulator's buffer comes with what the point before left.
-/
import proofs.«157362_j60473139528480_1_alg».proof.Proof.BitsRegion2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_C (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 x1 : Vec F S512x512 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__positives_kernel i arg1 harg1 arg2 harg2 arg3 harg3 arg4 harg4) K } := by
  refine ⟨?_, ?_, fun E K => ?run⟩
  case run =>
    simp only [cc2__positives_kernel_eq_skeleton]; unfold cc2__positives_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.BitsRegion2.lean ====
/-
  The positive pairs' kernel over its grid: what the accumulator and the result's buffer hold after each point, by recursion
  on the point (the first point starts from a cleared accumulator, every later one from what the point before left); the
  region's invariant carrying the accumulator's buffer at that named value; the pipeline's proof data; and the body's
  obligation at every point, by cases on the point (first, middle, last).
-/
import proofs.«157362_j60473139528480_1_alg».proof.Proof.BitsRegion2RunA
import proofs.«157362_j60473139528480_1_alg».proof.Proof.BitsRegion2RunB
import proofs.«157362_j60473139528480_1_alg».proof.Proof.BitsRegion2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole)

/-- The first point leaves the result's buffer alone: a placeholder nothing consults. -/
def out2_A_2 (hc0 : cond2_0 i) (hc1 : ¬cond2_1 i) (x0 x1 : Vec F S512x512 .f32) : Vec F S1x1 .f32 :=
  VO2_2.read (Elt F) (VO2_2.writes (Elt F) VO2_2.junk (kernelRun2_A c i arg1 harg1 arg2 harg2 arg3 harg3 arg4 harg4 hc0 hc1 x0 x1).1)
theorem scover2_A_0 (hc0 : cond2_0 i) (hc1 : ¬cond2_1 i) (x0 x1 : Vec F S512x512 .f32) (y : S1x1.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S1x1.size (by sl_kernel_rfl) y
/-- What the first point leaves in the accumulator. -/
def sout2_A_0 (hc0 : cond2_0 i) (hc1 : ¬cond2_1 i) (x0 x1 : Vec F S512x512 .f32) : Vec F S1x1 .f32 :=
  VS2_0.read (Elt F) (VS2_0.writes (Elt F) VS2_0.junk (kernelRun2_A c i arg1 harg1 arg2 harg2 arg3 harg3 arg4 harg4 hc0 hc1 x0 x1).2.1)

def out2_B_2 (hc0 : ¬cond2_0 i) (hc1 : ¬cond2_1 i) (x0 x1 : Vec F S512x512 .f32) (xs0 : Vec F S1x1 .f32) : Vec F S1x1 .f32 :=
  VO2_2.read (Elt F) (VO2_2.writes (Elt F) VO2_2.junk (kernelRun2_B c i arg1 harg1 arg2 harg2 arg3 harg3 arg4 harg4 hc0 hc1 x0 x1 xs0).1)
theorem scover2_B_0 (hc0 : ¬cond2_0 i) (hc1 : ¬cond2_1 i) (x0 x1 : Vec F S512x512 .f32) (xs0 : Vec F S1x1 .f32) (y : S1x1.Idx) :
    ∃ pc ∈ (kernelRun2_B c i arg1 harg1 arg2 harg2 arg3 harg3 arg4 harg4 hc0 hc1 x0 x1 xs0).2.1, y ∈ pc.1.set :=
  View.cover_of_tiledL (kernelRun2_B c i arg1 harg1 arg2 harg2 arg3 harg3 arg4 harg4 hc0 hc1 x0 x1 xs0).2.1 S1x1.size (by sl_kernel_rfl) y
/-- What a middle point leaves in the accumulator, from what the point before left. -/
def sout2_B_0 (hc0 : ¬cond2_0 i) (hc1 : ¬cond2_1 i) (x0 x1 : Vec F S512x512 .f32) (xs0 : Vec F S1x1 .f32) : Vec F S1x1 .f32 :=
  VS2_0.read (Elt F) (VS2_0.writes (Elt F) VS2_0.junk (kernelRun2_B c i arg1 harg1 arg2 harg2 arg3 harg3 arg4 harg4 hc0 hc1 x0 x1 xs0).2.1)

theorem cover2_C_2 (hc0 : ¬cond2_0 i) (hc1 : cond2_1 i) (x0 x1 : Vec F S512x512 .f32) (xs0 : Vec F S1x1 .f32) (y : S1x1.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x1.size (by sl_kernel_rfl) y
/-- What the last point stores into the result's buffer. -/
def out2_C_2 (hc0 : ¬cond2_0 i) (hc1 : cond2_1 i) (x0 x1 : Vec F S512x512 .f32) (xs0 : Vec F S1x1 .f32) : Vec F S1x1 .f32 :=
  VO2_2.read (Elt F) (VO2_2.writes (Elt F) VO2_2.junk (kernelRun2_C c i arg1 harg1 arg2 harg2 arg3 harg3 arg4 harg4 hc0 hc1 x0 x1 xs0).1)
theorem scover2_C_0 (hc0 : ¬cond2_0 i) (hc1 : cond2_1 i) (x0 x1 : Vec F S512x512 .f32) (xs0 : Vec F S1x1 .f32) (y : S1x1.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x1.size (by sl_kernel_rfl) y
def sout2_C_0 (hc0 : ¬cond2_0 i) (hc1 : cond2_1 i) (x0 x1 : Vec F S512x512 .f32) (xs0 : Vec F S1x1 .f32) : Vec F S1x1 .f32 :=
  VS2_0.read (Elt F) (VS2_0.writes (Elt F) VS2_0.junk (kernelRun2_C c i arg1 harg1 arg2 harg2 arg3 harg3 arg4 harg4 hc0 hc1 x0 x1 xs0).2.1)

end Cases

/-- THE ACCUMULATION: the result's buffer and the accumulator after the body at position `n`. -/
def outsAt2 (c : Dev nD) : (n : ℕ) → n < cfg2.N → Vec F S1x1 .f32 × Vec F S1x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      False.elim (by have hN : n + 1 < 8 := lt_of_lt_of_eq hn (show cfg2.N = 8 from N_2); omega)
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t),
      sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (by exfalso; have hN : n + 1 < 8 := lt_of_lt_of_eq hn (show cfg2.N = 8 from N_2); (try dsimp only at h0); omega)

theorem outsAt2_B (c : Dev nD) (t : Fin cfg2.N) (h0 : ¬t.val % 8 = 0) (h1 : ¬t.val % 8 = 7) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest at anything; afterwards the
    accumulator's buffer at what the point before left, the other scoped buffers at anything. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

/-- The proof data of the pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 8 = 0
  · have h1 : ¬t.val % 8 = 7 := by omega
    have hz : t.val = 0 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0; (try dsimp only)
    rw [PhiS2_castSucc V c t, PhiS2_zero V c _ _ hz, PhiA2_eq]
    iintro ⟨⟨⟨HS0, Hr⟩, Hg⟩, Ho, ⟨%d0, H0⟩, ⟨%d1, H1⟩, ⟨%d2, H2⟩⟩
    iapply ((kernelRun2_A c (grid2.coords t) _ _ _ _ _ _ _ _ ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg Hr]
    · isplitl [HS0 Hr]
      · isplitl [HS0]
        · unfold owns; iexists _; isplitr
          swap; · iexact HS0
          ipureintro; exact View.read_writes_of_cover _ _ _ _ _ (scover2_A_0 c _ _ _ _ _ _ _ _ _ _ _ _ _)
        iexact Hr
      iexact Hg
    isplitl [Ho]; · iexact Ho
    isplitl [H0]; · iexact H0
    isplitl [H1]; · iexact H1
    iexists _; iexact H2
  · have hz : t.val ≠ 0 := by omega
    by_cases h1 : t.val % 8 = 7
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hr]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hr]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _)
          iexact Hr
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  iintro ⟨⟨HS0, Hr⟩, Hg⟩
  isplitl [HS0 Hr]
  · isplitl [HS0]
    · iexists _; iexact HS0
    iexact Hr
  iexact Hg

end Cert.Kernel.Hand

end
-- ==== Proof.BitsKernelRun.lean ====
/-
  The whole program's run: @main is the row-normalisation region, the concatenation of its two results, the negative pairs'
  region, a reshape of its 1 x 1 result, the positive pairs' region, a reshape and the final addition. The contents of the
  core's unscoped buffers at each boundary are a fold from the launch memory: a host stretch's operations applied, a region's
  result arrays at what its write-backs leave. Every weakly fair execution terminates with every unscoped buffer at the end
  of that fold; in particular the two arguments as launched, and the program's result at the fold's last value.
-/
import proofs.«157362_j60473139528480_1_alg».proof.Proof.BitsRegion0
import proofs.«157362_j60473139528480_1_alg».proof.Proof.BitsRegion1Arrays
import proofs.«157362_j60473139528480_1_alg».proof.Proof.BitsRegion2
import proofs.«157362_j60473139528480_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first region's entry). -/
abbrev W0 : Dev nD → Valuation τ sig (Elt F) := fun c b => (s₀ m ρ).mem ((c : Dev nD), b)
abbrev Vr0 : (c : Dev nD) → (b : Ref sig .tc) → Buf (Elt F) ((c : Thread nD τ).loc b) := fun c b => W0 m ρ c b
/-- After the normalisation region: its two result arrays at what the write-backs leave. -/
def W1 (c : Dev nD) : Valuation τ sig (Elt F) :=
  Pipeline.withArrays spec0 c (W0 m ρ c) fun w => (dat0 (Vr0 m ρ) c).arrAt w cfg0.N
theorem W1_arr (c : Dev nD) (w : Fin cfg0.W) :
    W1 m ρ c (Proc.devRef .tc (Pipeline.arrRef spec0 w)) = (dat0 (Vr0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vr1 : (c : Dev nD) → (b : Ref sig .tc) → Buf (Elt F) ((c : Thread nD τ).loc b) := fun c b => W1 m ρ c b
theorem hF0 (c : Dev nD) (w : Fin cfg0.W) : (dat0 (Vr0 m ρ) c).arrAt w cfg0.N = Vr1 m ρ c (Pipeline.arrRef spec0 w) :=
  (W1_arr m ρ c w).symm
theorem hrest0 (c : Dev nD) : ∀ b, b ∉ Finset.univ.image (Pipeline.arrRef spec0) → Vr1 m ρ c b = Vr0 m ρ c b :=
  fun b hb => W1_of_ne m ρ c b fun w e => hb (Finset.mem_image.mpr ⟨w, Finset.mem_univ _, e⟩)

/-- After the concatenation (the negatives region's entry). -/
abbrev W2 : Dev nD → Valuation τ sig (Elt F) := fun c => StableHlo.after hostOps1 (W1 m ρ c)
abbrev Vr2 : (c : Dev nD) → (b : Ref sig .tc) → Buf (Elt F) ((c : Thread nD τ).loc b) := fun c b => W2 m ρ c b
/-- After the negatives region: its one result array at what the last write-back leaves. -/
def W3 (c : Dev nD) : Valuation τ sig (Elt F) :=
  Function.update (W2 m ρ c) (Proc.devRef .tc main_v2) ((dat1 (Vr2 m ρ) c).arrAt 2 cfg1.N : Buf (Elt F) ((c : Thread nD τ).loc main_v2))
abbrev Vr3 : (c : Dev nD) → (b : Ref sig .tc) → Buf (Elt F) ((c : Thread nD τ).loc b) := fun c b => W3 m ρ c b
theorem W3_v2 (c : Dev nD) : Vr3 m ρ c main_v2 = (dat1 (Vr2 m ρ) c).arrAt 2 cfg1.N := by
  unfold Vr3 W3; exact Function.update_self ..
theorem W3_of_ne (c : Dev nD) (b : Ref sig .tc) (hb : b ≠ main_v2) : Vr3 m ρ c b = Vr2 m ρ c b := by
  unfold Vr3 W3; exact Function.update_of_ne (StableHlo.devRef_ne_of_ne hb) ..

/-- After the first reshape (the positives region's entry). -/
abbrev W4 : Dev nD → Valuation τ sig (Elt F) := fun c => StableHlo.after hostOps2 (W3 m ρ c)
abbrev Vr4 : (c : Dev nD) → (b : Ref sig .tc) → Buf (Elt F) ((c : Thread nD τ).loc b) := fun c b => W4 m ρ c b
/-- After the positives region. -/
def W5 (c : Dev nD) : Valuation τ sig (Elt F) :=
  Pipeline.withArrays spec2 c (W4 m ρ c) fun w => (dat2 (Vr4 m ρ) c).arrAt w cfg2.N
theorem W5_arr (c : Dev nD) (w : Fin cfg2.W) :
    W5 m ρ c (Proc.devRef .tc (Pipeline.arrRef spec2 w)) = (dat2 (Vr4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev Vr5 : (c : Dev nD) → (b : Ref sig .tc) → Buf (Elt F) ((c : Thread nD τ).loc b) := fun c b => W5 m ρ c b
theorem hF2 (c : Dev nD) (w : Fin cfg2.W) : (dat2 (Vr4 m ρ) c).arrAt w cfg2.N = Vr5 m ρ c (Pipeline.arrRef spec2 w) :=
  (W5_arr m ρ c w).symm
theorem hrest2 (c : Dev nD) : ∀ b, b ∉ Finset.univ.image (Pipeline.arrRef spec2) → Vr5 m ρ c b = Vr4 m ρ c b :=
  fun b hb => W5_of_ne m ρ c b fun w e => hb (Finset.mem_image.mpr ⟨w, Finset.mem_univ _, e⟩)
/-- After the second reshape and the addition: the end. -/
abbrev W6 : Dev nD → Valuation τ sig (Elt F) := fun c => StableHlo.after hostOps3 (W5 m ρ c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr2 m ρ) c
  | ⟨2, _⟩ => fun c => dat2 (Vr4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (show (Pipeline.ΦA spec0 c : sProp 𝕄) ⊢ (pdats m ρ 0 c).Φ 0 from .rfl)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Vr1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (Vr4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (Vr4 m ρ) c)
    unfold Pipeline.ΦA
    iintro ⟨Hp, -, Hr⟩
    isplitl [Hr]; · iexact Hr
    iexact Hp
  hout c := by
    rw [Pipeline.ownSems0_none]
    refine (hout2 (Vr4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr4 m ρ c) (Vr5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The negatives region: the stacked rows' array is dealt in halves to its two windows at the entry and joined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := arrays1_of_unscopedBufs (Vr2 m ρ) c (Vr2 m ρ c) ((dat1 (Vr2 m ρ) c).arrAt · 0) rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (Vr2 m ρ) c)
    unfold Pipeline.ΦA
    iintro ⟨Hp, -, Hr⟩
    isplitl [Hr]; · iexact Hr
    iexact Hp
  hout c := by
    rw [Pipeline.ownSems0_none]
    refine (hout1 (Vr2 m ρ) c).trans ?_
    unfold Pipeline.ΦA
    iintro ⟨Hr, Hp⟩
    isplitl [Hp]; · iexact Hp
    isplitr; · iempintro
    iexact Hr
  hexit c := by
    have hjoin := unscopedBufs_of_arrays1 (Vr2 m ρ) c (Vr2 m ρ c) (Vr3 m ρ c) ((dat1 (Vr2 m ρ) c).arrAt · cfg1.N)
      (((dat1 (Vr2 m ρ) c).arrAt_in 0 rfl _).trans ((A_eq1 (Vr2 m ρ) c 0).trans (W3_of_ne m ρ c main_v1 (by decide)).symm))
      (((dat1 (Vr2 m ρ) c).arrAt_in 1 rfl _).trans ((A_eq1 (Vr2 m ρ) c 1).trans (W3_of_ne m ρ c main_v1 (by decide)).symm))
      (W3_v2 m ρ c).symm
      (fun b hb => W3_of_ne m ρ c b fun e => hb (e ▸ (by decide : (main_v2 : Ref sig .tc) ∈ Finset.univ.image (Pipeline.arrRef spec1))))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, with
    every unscoped buffer of every core at the end of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun c => by
      refine (show (iprop(StableHlo.held (c : Thread nD τ) (Pipeline.ucRefs τ sig) (W6 m ρ c) ∗ R c) : sProp 𝕄) ⊢ _ from ?_)
      iintro ⟨H, Hp, Ho⟩
      isplitl [H Hp]
      · isplitl [H] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.BitsKernelFrame.lean ====
/-
  No part of the program writes an argument: a host stretch writes only its own results, a region only its result arrays, and
  an argument a region reads through an input window ends the region as it entered. So at every boundary of the fold each
  argument's buffer holds its launch contents; with the run, that is the frame: the program terminates, nothing faulting,
  with its arguments unchanged.
-/
import proofs.«157362_j60473139528480_1_alg».proof.Proof.BitsKernelRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_writes_sub hostOps1 _ hostOps1_writes (by decide)
    _ = W0 m ρ c (Proc.devRef .tc main_arg0) := (W1_arr m ρ c 0).trans (((dat0 (Vr0 m ρ) c).arrAt_in 0 rfl _).trans (A_eq0 (Vr0 m ρ) c 0))
    _ = m ((c : Thread nD τ).loc main_arg0) := rfl
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = m ((c : Thread nD τ).loc main_arg0) := W2_main_arg0 m ρ c
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := (W5_arr m ρ c 0).trans (((dat2 (Vr4 m ρ) c).arrAt_in 0 rfl _).trans (A_eq2 (Vr4 m ρ) c 0))
    _ = m ((c : Thread nD τ).loc main_arg0) := W4_main_arg0 m ρ c

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_writes_sub hostOps1 _ hostOps1_writes (by decide)
    _ = W0 m ρ c (Proc.devRef .tc main_arg1) := (W1_arr m ρ c 1).trans (((dat0 (Vr0 m ρ) c).arrAt_in 1 rfl _).trans (A_eq0 (Vr0 m ρ) c 1))
    _ = m ((c : Thread nD τ).loc main_arg1) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = m ((c : Thread nD τ).loc main_arg1) := W2_main_arg1 m ρ c
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := (W5_arr m ρ c 1).trans (((dat2 (Vr4 m ρ) c).arrAt_in 1 rfl _).trans (A_eq2 (Vr4 m ρ) c 1))
    _ = m ((c : Thread nD τ).loc main_arg1) := W4_main_arg1 m ρ c

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_main_arg0 m ρ c),
     (h c _ (mem_uc main_arg1 (by decide))).trans (W6_main_arg1 m ρ c)⟩) (run_all m ρ)

end Cert.Kernel.Hand

end
-- ==== Proof.Region0.lean ====
/-
  The first kernel of the program, row normalisation, as the pipeline runs it: at each of its 8 grid points the body reads
  a block of 512 rows of each argument and stores, into each of the two results' staging buffers, the block divided row by
  row by the row's Euclidean norm. What each result's buffer holds after the body is one whole-block store of that
  quotient; the inputs' buffers are left as found. Stated at any contents `V` of the unscoped buffers at the region's entry
  and at any float instance.
-/
import proofs.«157362_j60473139528480_1_alg».proof.Proof.Gen.KernelIdeal.Launch
import proofs.«157362_j60473139528480_1_alg».proof.Proof.Gen.KernelIdeal.Skeleton
import proofs.«157362_j60473139528480_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512 x 512 block. -/
abbrev r0_0 : Rect S512x512 := Rect.unit (s := S512x512) ![0, 0] S512x512.size inb_S512x512_S512x512_0_0

/-- What the body leaves in each result's staging buffer: its one store, of the normalised block. -/
def out0_2 (x0 : Vec F S512x512 .f32) : Vec F S512x512 .bf16 :=
  View.canon [⟨r0_0, k0_pay1 (View.ld x0 r0_0)⟩]
def out0_3 (x1 : Vec F S512x512 .f32) : Vec F S512x512 .bf16 :=
  View.canon [⟨r0_0, k0_pay2 (View.ld x1 r0_0)⟩]

theorem cover0 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

set_option maxHeartbeats 1000000 in
/-- The body on whole staging memrefs: the inputs' at read contents, the results' at anything; it ends with the inputs' as
    they were and each result's at its stored block. -/
theorem sound_kernel0 (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .bf16) (harg3 : arg3.IsWhole) (arg4 : Memref sig .tc .vmem S512x512 .bf16) (harg4 : arg4.IsWhole)
    (x0 x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Runs.lean ====
/-
  The second kernel of the program, the negative pairs' term, as the pipeline runs it over its 8 x 8 grid of 1024 x 1024
  tiles of the similarity matrix: what its runs share. The body keeps a 1 x 1 accumulator in a scratch buffer across the
  points: cleared at the first point; at a tile on the diagonal it adds the tile's sum less the sum of the tile's own diagonal,
  at any other tile the tile's sum; at the last point it stores the accumulator divided by 49152 into the result's buffer,
  which it leaves alone at every other point. Both input windows read the same array of stacked normalised rows: window 0 the
  tile's rows (fetched when the tile row changes), window 1 its columns' rows. Here: the windows' blocks, the four branch
  conditions decided over the grid, where the result's window is idle, and the invariant with the scratch buffer taken out.
-/
import proofs.«157362_j60473139528480_1_alg».proof.Proof.Gen.KernelIdeal.Launch
import proofs.«157362_j60473139528480_1_alg».proof.Proof.Gen.KernelIdeal.Skeleton
import proofs.«157362_j60473139528480_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The point is the first. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_0 : ∀ t : Fin cfg1.N, cond1_0 (grid1.coords t) ↔ t.val = 0 :=
  (by decide +kernel : ∀ t : Fin grid1.N, cond1_0 (grid1.coords t) ↔ t.val = 0)
/-- The tile is on the diagonal. -/
abbrev cond1_1 (i : grid1.Coords) : Prop := (Scalar.cmpi .ne (Scalar.extui (Scalar.cmpi .eq (BitVec.ofNat 32 (i 0).val) (BitVec.ofNat 32 (i 1).val))) 0#32) = 1#1
theorem hcond1_1 : ∀ t : Fin cfg1.N, cond1_1 (grid1.coords t) ↔ t.val / 8 = t.val % 8 :=
  (by decide +kernel : ∀ t : Fin grid1.N, cond1_1 (grid1.coords t) ↔ t.val / 8 = t.val % 8)
/-- The tile is off the diagonal. -/
abbrev cond1_2 (i : grid1.Coords) : Prop := (Scalar.cmpi .ne (Scalar.extui (Scalar.cmpi .ne (BitVec.ofNat 32 (i 0).val) (BitVec.ofNat 32 (i 1).val))) 0#32) = 1#1
theorem hcond1_2 : ∀ t : Fin cfg1.N, cond1_2 (grid1.coords t) ↔ ¬(t.val / 8 = t.val % 8) :=
  (by decide +kernel : ∀ t : Fin grid1.N, cond1_2 (grid1.coords t) ↔ ¬(t.val / 8 = t.val % 8))
/-- The point is the last. -/
abbrev cond1_3 (i : grid1.Coords) : Prop := k1_cond4 i = 1#1
theorem hcond1_3 : ∀ t : Fin cfg1.N, cond1_3 (grid1.coords t) ↔ t.val = 63 :=
  (by decide +kernel : ∀ t : Fin grid1.N, cond1_3 (grid1.coords t) ↔ t.val = 63)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_3 (grid1.coords t) → cfg1.idle 2 (grid1.coords t) = true := by decide +kernel
theorem noFlush1_2 : ∀ t : Fin cfg1.N, ¬cond1_3 (grid1.coords t) → (cfg1.win 2).flush t = false := by decide +kernel
theorem liveAt1_2 : ∀ t : Fin cfg1.N, cond1_3 (grid1.coords t) → cfg1.idle 2 (grid1.coords t) = false := by decide +kernel

abbrev VO1_2 : View sig .tc .vmem S1x1 .f32 := (Memref.whole cc1_stg2_0 : Memref sig .tc .vmem S1x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1_0 : Memref sig .tc .vmem S1x1 .f32 := Memref.whole cc1_scratch0
abbrev VS1_0 : View sig .tc .vmem S1x1 .f32 := scM1_0.view

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA; rw [scopedRest1_split]; simp only [scM1_0, owns_whole]; try rfl

end Cert.KernelIdeal.Hand

end
-- ==== Proof.Region1RunA.lean ====
/-
  The negative pairs' kernel body at its FIRST grid point (a diagonal tile): the accumulator cleared, then the tile's sum less its
  diagonal's added. The result's buffer is handed back untouched.
-/
import proofs.«157362_j60473139528480_1_alg».proof.Proof.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (hc2 : ¬cond1_2 i) (hc3 : ¬cond1_3 i)
    (x0 x1 : Vec F S1024x512 .bf16) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region1RunB.lean ====
/-
  The negative pairs' kernel body at a tile OFF the diagonal: the tile's sum added to what the point before left in the accumulator.
  The result's buffer is handed back untouched.
-/
import proofs.«157362_j60473139528480_1_alg».proof.Proof.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (hc2 : cond1_2 i) (hc3 : ¬cond1_3 i)
    (x0 x1 : Vec F S1024x512 .bf16) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region1RunC.lean ====
/-
  The negative pairs' kernel body at a DIAGONAL tile that is neither the first point nor the last: the tile's sum less its
  diagonal's added to what the point before left. The result's buffer is handed back untouched.
-/
import proofs.«157362_j60473139528480_1_alg».proof.Proof.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_C (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (hc2 : ¬cond1_2 i) (hc3 : ¬cond1_3 i)
    (x0 x1 : Vec F S1024x512 .bf16) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region1RunD.lean ====
/-
  The negative pairs' kernel body at its LAST grid point (a diagonal tile): the tile's sum less its diagonal's added, then the
  accumulator divided by 49152 stored into the result's buffer.
-/
import proofs.«157362_j60473139528480_1_alg».proof.Proof.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun1_D (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (hc2 : ¬cond1_2 i) (hc3 : cond1_3 i)
    (x0 x1 : Vec F S1024x512 .bf16) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Hand

end
-- ==== Proof.Region1.lean ====
/-
  The negative pairs' kernel over its grid: what the accumulator and the result's buffer hold after each point, by recursion
  on the point (the first point starts from a cleared accumulator, every later one from what the point before left, a diagonal
  tile adding its sum less its diagonal's, another tile its sum); the region's invariant carrying the accumulator's buffer at
  that named value; the pipeline's proof data; and the body's obligation at every point, by cases on the point (first;
  off the diagonal; on it; last).
-/
import proofs.«157362_j60473139528480_1_alg».proof.Proof.Region1RunA
import proofs.«157362_j60473139528480_1_alg».proof.Proof.Region1RunB
import proofs.«157362_j60473139528480_1_alg».proof.Proof.Region1RunC
import proofs.«157362_j60473139528480_1_alg».proof.Proof.Region1RunD
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole)

def out1_A_2 (hc0 : cond1_0 i) (hc1 : cond1_1 i) (hc2 : ¬cond1_2 i) (hc3 : ¬cond1_3 i) (x0 x1 : Vec F S1024x512 .bf16) : Vec F S1x1 .f32 :=
  VO1_2.read (Elt F) (VO1_2.writes (Elt F) VO1_2.junk (kernelRun1_A c i arg2 harg2 arg3 harg3 arg4 harg4 arg5 harg5 hc0 hc1 hc2 hc3 x0 x1).1)
theorem scover1_A_0 (hc0 : cond1_0 i) (hc1 : cond1_1 i) (hc2 : ¬cond1_2 i) (hc3 : ¬cond1_3 i) (x0 x1 : Vec F S1024x512 .bf16) (y : S1x1.Idx) :
    ∃ pc ∈ (kernelRun1_A c i arg2 harg2 arg3 harg3 arg4 harg4 arg5 harg5 hc0 hc1 hc2 hc3 x0 x1).2.1, y ∈ pc.1.set :=
  View.cover_of_tiledL (kernelRun1_A c i arg2 harg2 arg3 harg3 arg4 harg4 arg5 harg5 hc0 hc1 hc2 hc3 x0 x1).2.1 S1x1.size (by sl_kernel_rfl) y
def sout1_A_0 (hc0 : cond1_0 i) (hc1 : cond1_1 i) (hc2 : ¬cond1_2 i) (hc3 : ¬cond1_3 i) (x0 x1 : Vec F S1024x512 .bf16) : Vec F S1x1 .f32 :=
  VS1_0.read (Elt F) (VS1_0.writes (Elt F) VS1_0.junk (kernelRun1_A c i arg2 harg2 arg3 harg3 arg4 harg4 arg5 harg5 hc0 hc1 hc2 hc3 x0 x1).2.1)

def out1_B_2 (hc0 : ¬cond1_0 i) (hc1 : ¬cond1_1 i) (hc2 : cond1_2 i) (hc3 : ¬cond1_3 i) (x0 x1 : Vec F S1024x512 .bf16) (xs0 : Vec F S1x1 .f32) : Vec F S1x1 .f32 :=
  VO1_2.read (Elt F) (VO1_2.writes (Elt F) VO1_2.junk (kernelRun1_B c i arg2 harg2 arg3 harg3 arg4 harg4 arg5 harg5 hc0 hc1 hc2 hc3 x0 x1 xs0).1)
theorem scover1_B_0 (hc0 : ¬cond1_0 i) (hc1 : ¬cond1_1 i) (hc2 : cond1_2 i) (hc3 : ¬cond1_3 i) (x0 x1 : Vec F S1024x512 .bf16) (xs0 : Vec F S1x1 .f32) (y : S1x1.Idx) :
    ∃ pc ∈ (kernelRun1_B c i arg2 harg2 arg3 harg3 arg4 harg4 arg5 harg5 hc0 hc1 hc2 hc3 x0 x1 xs0).2.1, y ∈ pc.1.set :=
  View.cover_of_tiledL (kernelRun1_B c i arg2 harg2 arg3 harg3 arg4 harg4 arg5 harg5 hc0 hc1 hc2 hc3 x0 x1 xs0).2.1 S1x1.size (by sl_kernel_rfl) y
def sout1_B_0 (hc0 : ¬cond1_0 i) (hc1 : ¬cond1_1 i) (hc2 : cond1_2 i) (hc3 : ¬cond1_3 i) (x0 x1 : Vec F S1024x512 .bf16) (xs0 : Vec F S1x1 .f32) : Vec F S1x1 .f32 :=
  VS1_0.read (Elt F) (VS1_0.writes (Elt F) VS1_0.junk (kernelRun1_B c i arg2 harg2 arg3 harg3 arg4 harg4 arg5 harg5 hc0 hc1 hc2 hc3 x0 x1 xs0).2.1)

def out1_C_2 (hc0 : ¬cond1_0 i) (hc1 : cond1_1 i) (hc2 : ¬cond1_2 i) (hc3 : ¬cond1_3 i) (x0 x1 : Vec F S1024x512 .bf16) (xs0 : Vec F S1x1 .f32) : Vec F S1x1 .f32 :=
  VO1_2.read (Elt F) (VO1_2.writes (Elt F) VO1_2.junk (kernelRun1_C c i arg2 harg2 arg3 harg3 arg4 harg4 arg5 harg5 hc0 hc1 hc2 hc3 x0 x1 xs0).1)
theorem scover1_C_0 (hc0 : ¬cond1_0 i) (hc1 : cond1_1 i) (hc2 : ¬cond1_2 i) (hc3 : ¬cond1_3 i) (x0 x1 : Vec F S1024x512 .bf16) (xs0 : Vec F S1x1 .f32) (y : S1x1.Idx) :
    ∃ pc ∈ (kernelRun1_C c i arg2 harg2 arg3 harg3 arg4 harg4 arg5 harg5 hc0 hc1 hc2 hc3 x0 x1 xs0).2.1, y ∈ pc.1.set :=
  View.cover_of_tiledL (kernelRun1_C c i arg2 harg2 arg3 harg3 arg4 harg4 arg5 harg5 hc0 hc1 hc2 hc3 x0 x1 xs0).2.1 S1x1.size (by sl_kernel_rfl) y
def sout1_C_0 (hc0 : ¬cond1_0 i) (hc1 : cond1_1 i) (hc2 : ¬cond1_2 i) (hc3 : ¬cond1_3 i) (x0 x1 : Vec F S1024x512 .bf16) (xs0 : Vec F S1x1 .f32) : Vec F S1x1 .f32 :=
  VS1_0.read (Elt F) (VS1_0.writes (Elt F) VS1_0.junk (kernelRun1_C c i arg2 harg2 arg3 harg3 arg4 harg4 arg5 harg5 hc0 hc1 hc2 hc3 x0 x1 xs0).2.1)

theorem cover1_D_2 (hc0 : ¬cond1_0 i) (hc1 : cond1_1 i) (hc2 : ¬cond1_2 i) (hc3 : cond1_3 i) (x0 x1 : Vec F S1024x512 .bf16) (xs0 : Vec F S1x1 .f32) (y : S1x1.Idx) :
    ∃ pc ∈ (kernelRun1_D c i arg2 harg2 arg3 harg3 arg4 harg4 arg5 harg5 hc0 hc1 hc2 hc3 x0 x1 xs0).1, y ∈ pc.1.set :=
  View.cover_of_tiledL (kernelRun1_D c i arg2 harg2 arg3 harg3 arg4 harg4 arg5 harg5 hc0 hc1 hc2 hc3 x0 x1 xs0).1 S1x1.size (by sl_kernel_rfl) y
def out1_D_2 (hc0 : ¬cond1_0 i) (hc1 : cond1_1 i) (hc2 : ¬cond1_2 i) (hc3 : cond1_3 i) (x0 x1 : Vec F S1024x512 .bf16) (xs0 : Vec F S1x1 .f32) : Vec F S1x1 .f32 :=
  VO1_2.read (Elt F) (VO1_2.writes (Elt F) VO1_2.junk (kernelRun1_D c i arg2 harg2 arg3 harg3 arg4 harg4 arg5 harg5 hc0 hc1 hc2 hc3 x0 x1 xs0).1)
theorem scover1_D_0 (hc0 : ¬cond1_0 i) (hc1 : cond1_1 i) (hc2 : ¬cond1_2 i) (hc3 : cond1_3 i) (x0 x1 : Vec F S1024x512 .bf16) (xs0 : Vec F S1x1 .f32) (y : S1x1.Idx) :
    ∃ pc ∈ (kernelRun1_D c i arg2 harg2 arg3 harg3 arg4 harg4 arg5 harg5 hc0 hc1 hc2 hc3 x0 x1 xs0).2.1, y ∈ pc.1.set :=
  View.cover_of_tiledL (kernelRun1_D c i arg2 harg2 arg3 harg3 arg4 harg4 arg5 harg5 hc0 hc1 hc2 hc3 x0 x1 xs0).2.1 S1x1.size (by sl_kernel_rfl) y
def sout1_D_0 (hc0 : ¬cond1_0 i) (hc1 : cond1_1 i) (hc2 : ¬cond1_2 i) (hc3 : cond1_3 i) (x0 x1 : Vec F S1024x512 .bf16) (xs0 : Vec F S1x1 .f32) : Vec F S1x1 .f32 :=
  VS1_0.read (Elt F) (VS1_0.writes (Elt F) VS1_0.junk (kernelRun1_D c i arg2 harg2 arg3 harg3 arg4 harg4 arg5 harg5 hc0 hc1 hc2 hc3 x0 x1 xs0).2.1)

end Cases

/-- THE ACCUMULATION: the result's buffer and the accumulator after the body at position `n`. -/
def outsAt1 (c : Dev nD) : (n : ℕ) → n < cfg1.N → Vec F S1x1 .f32 × Vec F S1x1 .f32
  | 0, hn =>
    have hz : (⟨0, hn⟩ : Fin cfg1.N).val = 0 := rfl
    have hd : (⟨0, hn⟩ : Fin cfg1.N).val / 8 = (⟨0, hn⟩ : Fin cfg1.N).val % 8 := show (0 : ℕ) / 8 = 0 % 8 from rfl
    have hl : ¬(⟨0, hn⟩ : Fin cfg1.N).val = 63 := fun h => absurd (show (0 : ℕ) = 63 from h) (by omega)
    (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr hz) ((hcond1_1 ⟨0, hn⟩).mpr hd) (fun h => ((hcond1_2 ⟨0, hn⟩).mp h) hd) (fun h => hl ((hcond1_3 ⟨0, hn⟩).mp h)) (iblk1 V c 0 ⟨0, hn⟩) (iblk1 V c 1 ⟨0, hn⟩),
          sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr hz) ((hcond1_1 ⟨0, hn⟩).mpr hd) (fun h => ((hcond1_2 ⟨0, hn⟩).mp h) hd) (fun h => hl ((hcond1_3 ⟨0, hn⟩).mp h)) (iblk1 V c 0 ⟨0, hn⟩) (iblk1 V c 1 ⟨0, hn⟩))
  | n + 1, hn =>
    have hz : ¬(⟨n + 1, hn⟩ : Fin cfg1.N).val = 0 := Nat.succ_ne_zero n
    if hd : (⟨n + 1, hn⟩ : Fin cfg1.N).val / 8 = (⟨n + 1, hn⟩ : Fin cfg1.N).val % 8 then
      if hl : (⟨n + 1, hn⟩ : Fin cfg1.N).val = 63 then
        (out1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) ((hcond1_1 ⟨n + 1, hn⟩).mpr hd) (fun h => ((hcond1_2 ⟨n + 1, hn⟩).mp h) hd) ((hcond1_3 ⟨n + 1, hn⟩).mpr hl) (iblk1 V c 0 ⟨n + 1, hn⟩) (iblk1 V c 1 ⟨n + 1, hn⟩) (outsAt1 c n (Nat.lt_of_succ_lt hn)).2,
          sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) ((hcond1_1 ⟨n + 1, hn⟩).mpr hd) (fun h => ((hcond1_2 ⟨n + 1, hn⟩).mp h) hd) ((hcond1_3 ⟨n + 1, hn⟩).mpr hl) (iblk1 V c 0 ⟨n + 1, hn⟩) (iblk1 V c 1 ⟨n + 1, hn⟩) (outsAt1 c n (Nat.lt_of_succ_lt hn)).2)
      else
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) ((hcond1_1 ⟨n + 1, hn⟩).mpr hd) (fun h => ((hcond1_2 ⟨n + 1, hn⟩).mp h) hd) (fun h => hl ((hcond1_3 ⟨n + 1, hn⟩).mp h)) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) ((hcond1_1 ⟨n + 1, hn⟩).mpr hd) (fun h => ((hcond1_2 ⟨n + 1, hn⟩).mp h) hd) (fun h => hl ((hcond1_3 ⟨n + 1, hn⟩).mp h)) (iblk1 V c 0 ⟨n + 1, hn⟩) (iblk1 V c 1 ⟨n + 1, hn⟩) (outsAt1 c n (Nat.lt_of_succ_lt hn)).2)
    else
      have hl : ¬(⟨n + 1, hn⟩ : Fin cfg1.N).val = 63 := fun h => hd (by rw [h])
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) (fun h => hd ((hcond1_1 ⟨n + 1, hn⟩).mp h)) ((hcond1_2 ⟨n + 1, hn⟩).mpr hd) (fun h => hl ((hcond1_3 ⟨n + 1, hn⟩).mp h)) (iblk1 V c 0 ⟨n + 1, hn⟩) (iblk1 V c 1 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => hz ((hcond1_0 ⟨n + 1, hn⟩).mp h)) (fun h => hd ((hcond1_1 ⟨n + 1, hn⟩).mp h)) ((hcond1_2 ⟨n + 1, hn⟩).mpr hd) (fun h => hl ((hcond1_3 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (hz : t.val = 0) (hd : t.val / 8 = t.val % 8) (hl : ¬t.val = 63) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr hz) ((hcond1_1 t).mpr hd) (fun h => ((hcond1_2 t).mp h) hd) (fun h => hl ((hcond1_3 t).mp h)) (iblk1 V c 0 t) (iblk1 V c 1 t),
          sout1_A_0 c (grid1.coords t) (ms1_0 t) (hs1_0 t) (ms1_1 t) (hs1_1 t) (ms1_2 t) (hs1_2 t) scM1_0 (Memref.isWhole_whole _) ((hcond1_0 t).mpr hz) ((hcond1_1 t).mpr hd) (fun h => ((hcond1_2 t).mp h) hd) (fun h => hl ((hcond1_3 t).mp h)) (iblk1 V c 0 t) (iblk1 V c 1 t)) := by
  obtain ⟨n, hn⟩ := t
  cases n with
  | zero => exact rfl
  | succ n => exact absurd hz (Nat.succ_ne_zero n)

theorem outsAt1_B (c : Dev nD) (t : Fin cfg1.N) (hz : ¬t.val = 0) (hd : ¬(t.val / 8 = t.val % 8)) (hl : ¬t.val = 63) :
    outsAt1 V c t.val t.isLt = (out1_B_2 c (grid1.coords t) (ms1_0 t) (hs1_0 t) (ms1_1 t) (hs1_1 t) (ms1_2 t) (hs1_2 t) scM1_0 (Memref.isWhole_whole _) (fun h => hz ((hcond1_0 t).mp h)) (fun h => hd ((hcond1_1 t).mp h)) ((hcond1_2 t).mpr hd) (fun h => hl ((hcond1_3 t).mp h)) (iblk1 V c 0 t) (iblk1 V c 1 t) (outsAt1 V c (t.val - 1) (Nat.lt_of_le_of_lt (Nat.sub_le _ _) t.isLt)).2,
          sout1_B_0 c (grid1.coords t) (ms1_0 t) (hs1_0 t) (ms1_1 t) (hs1_1 t) (ms1_2 t) (hs1_2 t) scM1_0 (Memref.isWhole_whole _) (fun h => hz ((hcond1_0 t).mp h)) (fun h => hd ((hcond1_1 t).mp h)) ((hcond1_2 t).mpr hd) (fun h => hl ((hcond1_3 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl hz
  | succ n => exact (dif_neg hd).trans rfl

theorem outsAt1_C (c : Dev nD) (t : Fin cfg1.N) (hz : ¬t.val = 0) (hd : t.val / 8 = t.val % 8) (hl : ¬t.val = 63) :
    outsAt1 V c t.val t.isLt = (out1_C_2 c (grid1.coords t) (ms1_0 t) (hs1_0 t) (ms1_1 t) (hs1_1 t) (ms1_2 t) (hs1_2 t) scM1_0 (Memref.isWhole_whole _) (fun h => hz ((hcond1_0 t).mp h)) ((hcond1_1 t).mpr hd) (fun h => ((hcond1_2 t).mp h) hd) (fun h => hl ((hcond1_3 t).mp h)) (iblk1 V c 0 t) (iblk1 V c 1 t) (outsAt1 V c (t.val - 1) (Nat.lt_of_le_of_lt (Nat.sub_le _ _) t.isLt)).2,
          sout1_C_0 c (grid1.coords t) (ms1_0 t) (hs1_0 t) (ms1_1 t) (hs1_1 t) (ms1_2 t) (hs1_2 t) scM1_0 (Memref.isWhole_whole _) (fun h => hz ((hcond1_0 t).mp h)) ((hcond1_1 t).mpr hd) (fun h => ((hcond1_2 t).mp h) hd) (fun h => hl ((hcond1_3 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl hz
  | succ n => exact (dif_pos hd).trans ((dif_neg hl).trans rfl)

theorem outsAt1_D (c : Dev nD) (t : Fin cfg1.N) (hz : ¬t.val = 0) (hd : t.val / 8 = t.val % 8) (hl : t.val = 63) :
    outsAt1 V c t.val t.isLt = (out1_D_2 c (grid1.coords t) (ms1_0 t) (hs1_0 t) (ms1_1 t) (hs1_1 t) (ms1_2 t) (hs1_2 t) scM1_0 (Memref.isWhole_whole _) (fun h => hz ((hcond1_0 t).mp h)) ((hcond1_1 t).mpr hd) (fun h => ((hcond1_2 t).mp h) hd) ((hcond1_3 t).mpr hl) (iblk1 V c 0 t) (iblk1 V c 1 t) (outsAt1 V c (t.val - 1) (Nat.lt_of_le_of_lt (Nat.sub_le _ _) t.isLt)).2,
          sout1_D_0 c (grid1.coords t) (ms1_0 t) (hs1_0 t) (ms1_1 t) (hs1_1 t) (ms1_2 t) (hs1_2 t) scM1_0 (Memref.isWhole_whole _) (fun h => hz ((hcond1_0 t).mp h)) ((hcond1_1 t).mpr hd) (fun h => ((hcond1_2 t).mp h) hd) ((hcond1_3 t).mpr hl) (iblk1 V c 0 t) (iblk1 V c 1 t) (outsAt1 V c (t.val - 1) (Nat.lt_of_le_of_lt (Nat.sub_le _ _) t.isLt)).2) := by
  obtain ⟨n, hn⟩ := t
  cases n with
  | zero => exact absurd rfl hz
  | succ n => exact (dif_pos hd).trans ((dif_pos hl).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases hz : t.val = 0
  · have hd : t.val / 8 = t.val % 8 := by omega
    have hl : ¬t.val = 63 := by omega
    rw [Dat.leavesExact_idle (dat1 V c) 2 t (idleAt1_2 t (fun h => hl ((hcond1_3 t).mp h))) (noFlush1_2 t (fun h => hl ((hcond1_3 t).mp h)))]
    rw [outsAt1_A V c t hz hd hl]
    unfold sout1_A_0; (try dsimp only)
    rw [PhiS1_castSucc V c t, PhiS1_zero V c _ _ hz, PhiA1_eq]
    iintro ⟨⟨⟨HS0, Hr⟩, Hg⟩, Ho, ⟨%d0, H0⟩, ⟨%d1, H1⟩, ⟨%d2, H2⟩⟩
    iapply ((kernelRun1_A c (grid1.coords t) _ _ _ _ _ _ _ _ ((hcond1_0 t).mpr hz) ((hcond1_1 t).mpr hd) (fun h => ((hcond1_2 t).mp h) hd) (fun h => hl ((hcond1_3 t).mp h)) (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg Hr]
    · isplitl [HS0 Hr]
      · isplitl [HS0]
        · unfold owns; iexists _; isplitr
          swap; · iexact HS0
          ipureintro; exact View.read_writes_of_cover _ _ _ _ _ (scover1_A_0 c _ _ _ _ _ _ _ _ _ _ _ _ _ _ _)
        iexact Hr
      iexact Hg
    isplitl [Ho]; · iexact Ho
    isplitl [H0]; · iexact H0
    isplitl [H1]; · iexact H1
    iexists _; iexact H2
  · by_cases hd : t.val / 8 = t.val % 8
    · by_cases hl : t.val = 63
      · rw [show (dat1 V c).leavesExact 2 t = owns (c : Thread nD τ) (ms1_2 t) fullShare ((dat1 V c).after 2 t) from by
          unfold Dat.leavesExact; rw [liveAt1_2 t ((hcond1_3 t).mpr hl)], after1_2]
        rw [outsAt1_D V c t hz hd hl]
        unfold out1_D_2 sout1_D_0; (try dsimp only)
        rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_D c (grid1.coords t) _ _ _ _ _ _ _ _ (fun h => hz ((hcond1_0 t).mp h)) ((hcond1_1 t).mpr hd) (fun h => ((hcond1_2 t).mp h) hd) ((hcond1_3 t).mpr hl) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg Hr]
        · isplitl [HS0 Hr]
          · isplitl [HS0]
            · unfold owns; iexists _; isplitr
              swap; · iexact HS0
              ipureintro; exact View.read_writes_of_cover _ _ _ _ _ (scover1_D_0 c _ _ _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_D_2 c _ _ _ _ _ _ _ _ _ _ _ _ _ _ _ _)
      · rw [Dat.leavesExact_idle (dat1 V c) 2 t (idleAt1_2 t (fun h => hl ((hcond1_3 t).mp h))) (noFlush1_2 t (fun h => hl ((hcond1_3 t).mp h)))]
        rw [outsAt1_C V c t hz hd hl]
        unfold sout1_C_0; (try dsimp only)
        rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_C c (grid1.coords t) _ _ _ _ _ _ _ _ (fun h => hz ((hcond1_0 t).mp h)) ((hcond1_1 t).mpr hd) (fun h => ((hcond1_2 t).mp h) hd) (fun h => hl ((hcond1_3 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg Hr]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _)
            iexact Hr
          iexact Hg
        isplitl [Ho]; · iexact Ho
        isplitl [H0]; · iexact H0
        isplitl [H1]; · iexact H1
        iexists _; iexact H2
    · have hl : ¬t.val = 63 := by omega
      rw [Dat.leavesExact_idle (dat1 V c) 2 t (idleAt1_2 t (fun h => hl ((hcond1_3 t).mp h))) (noFlush1_2 t (fun h => hl ((hcond1_3 t).mp h)))]
      rw [outsAt1_B V c t hz hd hl]
      unfold sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_B c (grid1.coords t) _ _ _ _ _ _ _ _ (fun h => hz ((hcond1_0 t).mp h)) (fun h => hd ((hcond1_1 t).mp h)) ((hcond1_2 t).mpr hd) (fun h => hl ((hcond1_3 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hr]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _)
          iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hr⟩, Hg⟩
  isplitl [HS0 Hr]
  · isplitl [HS0]
    · iexists _; iexact HS0
    iexact Hr
  iexact Hg

end Cert.KernelIdeal.Hand

end
-- ==== Proof.Region1Arrays.lean ====
/-
  The negative pairs' kernel reads ONE array, the stacked normalised rows, through both of its input windows. At the region's
  entry the core's hold on that array is therefore dealt in two halves, one per window, and joined again at the exit; the
  result's array is held outright. Here: the region's arrays spelt out buffer by buffer, how they come out of the core's
  unscoped buffers at the entry, and how they go back, at the result's new contents, at the exit.
-/
import proofs.«157362_j60473139528480_1_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, buffer by buffer: the stacked rows' array at the left half for the row window and at the right half
    for the column window, the result's array whole. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W1, (arr_whole1 0).set_eq_univ, (arr_whole1 2).set_eq_univ]
  rfl

/-- The distinct buffers behind the region's arrays. -/
theorem arrBufs1_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v1) ↦{fullShare} U main_v1) ∗ (((c : Thread nD τ).loc main_v2) ↦{fullShare} U main_v2)) := by
  unfold Pipeline.arrBufs
  rw [show (Finset.univ.image (Pipeline.arrRef spec1)) = {main_v1, main_v2} from by decide,
    bigSep_insert (by decide : (main_v1 : Ref sig .tc) ∉ ({main_v2} : Finset (Ref sig .tc))), bigSep_singleton]
  rfl

/-- ENTRY: the unscoped buffers at `U` give the region's arrays at `U`'s contents and the unscoped rest. -/
theorem arrays1_of_unscopedBufs (c : Dev nD) (U : (b : Ref sig .tc) → Buf (Elt F) ((c : Thread nD τ).loc b))
    (G : (w : Fin cfg1.W) → Buf (Elt F) ((cfg1.win w).arr.view.loc (c.tc : Thread nD τ)))
    (h0 : G 0 = U main_v1) (h1 : G 1 = U main_v1) (h2 : G 2 = U main_v2) :
    (unscopedBufs c U : sProp 𝕄) ⊢ iprop((dat1 V c).arrays G ∗ Pipeline.unscopedRest (Ix := Unit) (Name := ℕ) (U := UR sig nD τ) (Lvl := ℕ) spec1 c U) := by
  have hs : (unscopedBufs c U : sProp 𝕄) = iprop(Pipeline.arrBufs (Ix := Unit) (Name := ℕ) (U := UR sig nD τ) (Lvl := ℕ) spec1 c U
      ∗ Pipeline.unscopedRest (Ix := Unit) (Name := ℕ) (U := UR sig nD τ) (Lvl := ℕ) spec1 c U) :=
    Pipeline.unscopedBufs_split₀ cfgs 1 winFacts₀1.arr_unscoped c U
  rw [hs, arrBufs1_eq, arrays1_eq, h0, h1, h2]
  iintro ⟨⟨H1, H2⟩, Hr⟩
  ihave H1 := (pointsTo_share (PosShare.mem_left_op_right fullShare)).1 $$ H1
  icases H1 with ⟨Ha, Hb⟩
  isplitr [Hr]
  · isplitl [Ha]; · iexact Ha
    isplitl [Hb]; · iexact Hb
    iexact H2
  iexact Hr

/-- EXIT: the region's arrays — the stacked rows' at `U`'s contents in both halves, the result's at `x` — and the unscoped
    rest at `U` are the unscoped buffers at any `U'` that has the result's array at `x` and agrees with `U` elsewhere. -/
theorem unscopedBufs_of_arrays1 (c : Dev nD) (U U' : (b : Ref sig .tc) → Buf (Elt F) ((c : Thread nD τ).loc b))
    (G : (w : Fin cfg1.W) → Buf (Elt F) ((cfg1.win w).arr.view.loc (c.tc : Thread nD τ)))
    (h0 : G 0 = U' main_v1) (h1 : G 1 = U' main_v1) (h2 : G 2 = U' main_v2)
    (hrest : ∀ b, b ∉ Finset.univ.image (Pipeline.arrRef spec1) → U' b = U b) :
    iprop((dat1 V c).arrays G ∗ Pipeline.unscopedRest (Ix := Unit) (Name := ℕ) (U := UR sig nD τ) (Lvl := ℕ) spec1 c U) ⊢ (unscopedBufs c U' : sProp 𝕄) := by
  have hs : (unscopedBufs c U' : sProp 𝕄) = iprop(Pipeline.arrBufs (Ix := Unit) (Name := ℕ) (U := UR sig nD τ) (Lvl := ℕ) spec1 c U'
      ∗ Pipeline.unscopedRest (Ix := Unit) (Name := ℕ) (U := UR sig nD τ) (Lvl := ℕ) spec1 c U') :=
    Pipeline.unscopedBufs_split₀ cfgs 1 winFacts₀1.arr_unscoped c U'
  rw [hs, arrBufs1_eq, arrays1_eq, h0, h1, h2]
  have hr : (Pipeline.unscopedRest (Ix := Unit) (Name := ℕ) (U := UR sig nD τ) (Lvl := ℕ) spec1 c U : sProp 𝕄)
      = Pipeline.unscopedRest (Ix := Unit) (Name := ℕ) (U := UR sig nD τ) (Lvl := ℕ) spec1 c U' := by
    unfold Pipeline.unscopedRest
    exact bigSep_congr fun b hb => by rw [hrest b (Finset.mem_sdiff.mp hb).2]
  rw [hr]
  iintro ⟨⟨Ha, Hb, H2⟩, Hr⟩
  ihave H1 := (pointsTo_share (PosShare.mem_left_op_right fullShare)).2 $$ [Ha Hb]
  · isplitl [Ha] <;> iassumption
  isplitr [Hr]
  · isplitl [H1]; · iexact H1
    iexact H2
  iexact Hr

end Cert.KernelIdeal.Hand

end
-- ==== Proof.Region2Runs.lean ====
/-
  The third kernel of the program, the positive pairs' term, as the pipeline runs it over its 8 grid points: what its runs
  share. The body keeps a 1 x 1 accumulator in a scratch buffer across the points: it clears it at the first point, adds the
  block's sum at every point, and at the last point stores the accumulator divided by 4096 into the result's buffer, which
  it leaves alone (and the pipeline does not write back) at every other point. Here: the blocks of the windows, the
  conditions of the body's two branches decided over the grid, where the result's window is idle, and the region's
  invariant with the scratch buffer taken out of the scoped rest.
-/
import proofs.«157362_j60473139528480_1_alg».proof.Proof.Gen.KernelIdeal.Launch
import proofs.«157362_j60473139528480_1_alg».proof.Proof.Gen.KernelIdeal.Skeleton
import proofs.«157362_j60473139528480_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first branch's condition (the point is the first), from the grid coordinates. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The second branch's condition (the point is the last). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- One staging buffer of the result's window, through which its contents are stated. -/
abbrev VO2_2 : View sig .tc .vmem S1x1 .f32 := (Memref.whole cc2_stg2_0 : Memref sig .tc .vmem S1x1 .f32).view
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- The scratch accumulator. -/
abbrev scM2_0 : Memref sig .tc .vmem S1x1 .f32 := Memref.whole cc2_scratch0
abbrev VS2_0 : View sig .tc .vmem S1x1 .f32 := scM2_0.view

/-- The scoped rest with the accumulator's buffer taken out. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The rest of the scoped buffers, unopened. -/
abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_split]; simp only [scM2_0, owns_whole]; try rfl

end Cert.KernelIdeal.Hand

end
-- ==== Proof.Region2RunA.lean ====
/-
  The positive pairs' kernel body at its FIRST grid point: the first branch taken (the accumulator cleared), the last not. The
  result's buffer is handed back untouched; what the accumulator's buffer ends with is found by running the body.
-/
import proofs.«157362_j60473139528480_1_alg».proof.Proof.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_A (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 x1 : Vec F S512x512 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__positives_kernel i arg1 harg1 arg2 harg2 arg3 harg3 arg4 harg4) K } := by
  refine ⟨[], ?_, fun xi2 E K => ?run⟩
  case run =>
    simp only [cc2__positives_kernel_eq_skeleton]; unfold cc2__positives_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.Region2RunB.lean ====
/-
  The positive pairs' kernel body at a MIDDLE grid point: neither branch taken. The accumulator's buffer comes with what the
  point before left; the result's buffer is handed back untouched.
-/
import proofs.«157362_j60473139528480_1_alg».proof.Proof.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_B (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 x1 : Vec F S512x512 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__positives_kernel i arg1 harg1 arg2 harg2 arg3 harg3 arg4 harg4) K } := by
  refine ⟨[], ?_, fun xi2 E K => ?run⟩
  case run =>
    simp only [cc2__positives_kernel_eq_skeleton]; unfold cc2__positives_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.Region2RunC.lean ====
/-
  The positive pairs' kernel body at its LAST grid point: the first branch not taken, the last taken (the accumulator divided
  by 4096 stored into the result's buffer). The accumulator's buffer comes with what the point before left.
-/
import proofs.«157362_j60473139528480_1_alg».proof.Proof.Region2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_C (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 x1 : Vec F S512x512 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__positives_kernel i arg1 harg1 arg2 harg2 arg3 harg3 arg4 harg4) K } := by
  refine ⟨?_, ?_, fun E K => ?run⟩
  case run =>
    simp only [cc2__positives_kernel_eq_skeleton]; unfold cc2__positives_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.Region2.lean ====
/-
  The positive pairs' kernel over its grid: what the accumulator and the result's buffer hold after each point, by recursion
  on the point (the first point starts from a cleared accumulator, every later one from what the point before left); the
  region's invariant carrying the accumulator's buffer at that named value; the pipeline's proof data; and the body's
  obligation at every point, by cases on the point (first, middle, last).
-/
import proofs.«157362_j60473139528480_1_alg».proof.Proof.Region2RunA
import proofs.«157362_j60473139528480_1_alg».proof.Proof.Region2RunB
import proofs.«157362_j60473139528480_1_alg».proof.Proof.Region2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole)

/-- The first point leaves the result's buffer alone: a placeholder nothing consults. -/
def out2_A_2 (hc0 : cond2_0 i) (hc1 : ¬cond2_1 i) (x0 x1 : Vec F S512x512 .f32) : Vec F S1x1 .f32 :=
  VO2_2.read (Elt F) (VO2_2.writes (Elt F) VO2_2.junk (kernelRun2_A c i arg1 harg1 arg2 harg2 arg3 harg3 arg4 harg4 hc0 hc1 x0 x1).1)
theorem scover2_A_0 (hc0 : cond2_0 i) (hc1 : ¬cond2_1 i) (x0 x1 : Vec F S512x512 .f32) (y : S1x1.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S1x1.size (by sl_kernel_rfl) y
/-- What the first point leaves in the accumulator. -/
def sout2_A_0 (hc0 : cond2_0 i) (hc1 : ¬cond2_1 i) (x0 x1 : Vec F S512x512 .f32) : Vec F S1x1 .f32 :=
  VS2_0.read (Elt F) (VS2_0.writes (Elt F) VS2_0.junk (kernelRun2_A c i arg1 harg1 arg2 harg2 arg3 harg3 arg4 harg4 hc0 hc1 x0 x1).2.1)

def out2_B_2 (hc0 : ¬cond2_0 i) (hc1 : ¬cond2_1 i) (x0 x1 : Vec F S512x512 .f32) (xs0 : Vec F S1x1 .f32) : Vec F S1x1 .f32 :=
  VO2_2.read (Elt F) (VO2_2.writes (Elt F) VO2_2.junk (kernelRun2_B c i arg1 harg1 arg2 harg2 arg3 harg3 arg4 harg4 hc0 hc1 x0 x1 xs0).1)
theorem scover2_B_0 (hc0 : ¬cond2_0 i) (hc1 : ¬cond2_1 i) (x0 x1 : Vec F S512x512 .f32) (xs0 : Vec F S1x1 .f32) (y : S1x1.Idx) :
    ∃ pc ∈ (kernelRun2_B c i arg1 harg1 arg2 harg2 arg3 harg3 arg4 harg4 hc0 hc1 x0 x1 xs0).2.1, y ∈ pc.1.set :=
  View.cover_of_tiledL (kernelRun2_B c i arg1 harg1 arg2 harg2 arg3 harg3 arg4 harg4 hc0 hc1 x0 x1 xs0).2.1 S1x1.size (by sl_kernel_rfl) y
/-- What a middle point leaves in the accumulator, from what the point before left. -/
def sout2_B_0 (hc0 : ¬cond2_0 i) (hc1 : ¬cond2_1 i) (x0 x1 : Vec F S512x512 .f32) (xs0 : Vec F S1x1 .f32) : Vec F S1x1 .f32 :=
  VS2_0.read (Elt F) (VS2_0.writes (Elt F) VS2_0.junk (kernelRun2_B c i arg1 harg1 arg2 harg2 arg3 harg3 arg4 harg4 hc0 hc1 x0 x1 xs0).2.1)

theorem cover2_C_2 (hc0 : ¬cond2_0 i) (hc1 : cond2_1 i) (x0 x1 : Vec F S512x512 .f32) (xs0 : Vec F S1x1 .f32) (y : S1x1.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x1.size (by sl_kernel_rfl) y
/-- What the last point stores into the result's buffer. -/
def out2_C_2 (hc0 : ¬cond2_0 i) (hc1 : cond2_1 i) (x0 x1 : Vec F S512x512 .f32) (xs0 : Vec F S1x1 .f32) : Vec F S1x1 .f32 :=
  VO2_2.read (Elt F) (VO2_2.writes (Elt F) VO2_2.junk (kernelRun2_C c i arg1 harg1 arg2 harg2 arg3 harg3 arg4 harg4 hc0 hc1 x0 x1 xs0).1)
theorem scover2_C_0 (hc0 : ¬cond2_0 i) (hc1 : cond2_1 i) (x0 x1 : Vec F S512x512 .f32) (xs0 : Vec F S1x1 .f32) (y : S1x1.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x1.size (by sl_kernel_rfl) y
def sout2_C_0 (hc0 : ¬cond2_0 i) (hc1 : cond2_1 i) (x0 x1 : Vec F S512x512 .f32) (xs0 : Vec F S1x1 .f32) : Vec F S1x1 .f32 :=
  VS2_0.read (Elt F) (VS2_0.writes (Elt F) VS2_0.junk (kernelRun2_C c i arg1 harg1 arg2 harg2 arg3 harg3 arg4 harg4 hc0 hc1 x0 x1 xs0).2.1)

end Cases

/-- THE ACCUMULATION: the result's buffer and the accumulator after the body at position `n`. -/
def outsAt2 (c : Dev nD) : (n : ℕ) → n < cfg2.N → Vec F S1x1 .f32 × Vec F S1x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      False.elim (by have hN : n + 1 < 8 := lt_of_lt_of_eq hn (show cfg2.N = 8 from N_2); omega)
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t),
      sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (by exfalso; have hN : n + 1 < 8 := lt_of_lt_of_eq hn (show cfg2.N = 8 from N_2); (try dsimp only at h0); omega)

theorem outsAt2_B (c : Dev nD) (t : Fin cfg2.N) (h0 : ¬t.val % 8 = 0) (h1 : ¬t.val % 8 = 7) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest at anything; afterwards the
    accumulator's buffer at what the point before left, the other scoped buffers at anything. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

/-- The proof data of the pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 8 = 0
  · have h1 : ¬t.val % 8 = 7 := by omega
    have hz : t.val = 0 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0; (try dsimp only)
    rw [PhiS2_castSucc V c t, PhiS2_zero V c _ _ hz, PhiA2_eq]
    iintro ⟨⟨⟨HS0, Hr⟩, Hg⟩, Ho, ⟨%d0, H0⟩, ⟨%d1, H1⟩, ⟨%d2, H2⟩⟩
    iapply ((kernelRun2_A c (grid2.coords t) _ _ _ _ _ _ _ _ ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg Hr]
    · isplitl [HS0 Hr]
      · isplitl [HS0]
        · unfold owns; iexists _; isplitr
          swap; · iexact HS0
          ipureintro; exact View.read_writes_of_cover _ _ _ _ _ (scover2_A_0 c _ _ _ _ _ _ _ _ _ _ _ _ _)
        iexact Hr
      iexact Hg
    isplitl [Ho]; · iexact Ho
    isplitl [H0]; · iexact H0
    isplitl [H1]; · iexact H1
    iexists _; iexact H2
  · have hz : t.val ≠ 0 := by omega
    by_cases h1 : t.val % 8 = 7
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hr]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hr]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _)
          iexact Hr
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  iintro ⟨⟨HS0, Hr⟩, Hg⟩
  isplitl [HS0 Hr]
  · isplitl [HS0]
    · iexists _; iexact HS0
    iexact Hr
  iexact Hg

end Cert.KernelIdeal.Hand

end
-- ==== Proof.KernelRun.lean ====
/-
  The whole program's run: @main is the row-normalisation region, the concatenation of its two results, the negative pairs'
  region, a reshape of its 1 x 1 result, the positive pairs' region, a reshape and the final addition. The contents of the
  core's unscoped buffers at each boundary are a fold from the launch memory: a host stretch's operations applied, a region's
  result arrays at what its write-backs leave. Every weakly fair execution terminates with every unscoped buffer at the end
  of that fold; in particular the two arguments as launched, and the program's result at the fold's last value.
-/
import proofs.«157362_j60473139528480_1_alg».proof.Proof.Region0
import proofs.«157362_j60473139528480_1_alg».proof.Proof.Region1Arrays
import proofs.«157362_j60473139528480_1_alg».proof.Proof.Region2
import proofs.«157362_j60473139528480_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first region's entry). -/
abbrev W0 : Dev nD → Valuation τ sig (Elt F) := fun c b => (s₀ m ρ).mem ((c : Dev nD), b)
abbrev Vr0 : (c : Dev nD) → (b : Ref sig .tc) → Buf (Elt F) ((c : Thread nD τ).loc b) := fun c b => W0 m ρ c b
/-- After the normalisation region: its two result arrays at what the write-backs leave. -/
def W1 (c : Dev nD) : Valuation τ sig (Elt F) :=
  Pipeline.withArrays spec0 c (W0 m ρ c) fun w => (dat0 (Vr0 m ρ) c).arrAt w cfg0.N
theorem W1_arr (c : Dev nD) (w : Fin cfg0.W) :
    W1 m ρ c (Proc.devRef .tc (Pipeline.arrRef spec0 w)) = (dat0 (Vr0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vr1 : (c : Dev nD) → (b : Ref sig .tc) → Buf (Elt F) ((c : Thread nD τ).loc b) := fun c b => W1 m ρ c b
theorem hF0 (c : Dev nD) (w : Fin cfg0.W) : (dat0 (Vr0 m ρ) c).arrAt w cfg0.N = Vr1 m ρ c (Pipeline.arrRef spec0 w) :=
  (W1_arr m ρ c w).symm
theorem hrest0 (c : Dev nD) : ∀ b, b ∉ Finset.univ.image (Pipeline.arrRef spec0) → Vr1 m ρ c b = Vr0 m ρ c b :=
  fun b hb => W1_of_ne m ρ c b fun w e => hb (Finset.mem_image.mpr ⟨w, Finset.mem_univ _, e⟩)

/-- After the concatenation (the negatives region's entry). -/
abbrev W2 : Dev nD → Valuation τ sig (Elt F) := fun c => StableHlo.after hostOps1 (W1 m ρ c)
abbrev Vr2 : (c : Dev nD) → (b : Ref sig .tc) → Buf (Elt F) ((c : Thread nD τ).loc b) := fun c b => W2 m ρ c b
/-- After the negatives region: its one result array at what the last write-back leaves. -/
def W3 (c : Dev nD) : Valuation τ sig (Elt F) :=
  Function.update (W2 m ρ c) (Proc.devRef .tc main_v2) ((dat1 (Vr2 m ρ) c).arrAt 2 cfg1.N : Buf (Elt F) ((c : Thread nD τ).loc main_v2))
abbrev Vr3 : (c : Dev nD) → (b : Ref sig .tc) → Buf (Elt F) ((c : Thread nD τ).loc b) := fun c b => W3 m ρ c b
theorem W3_v2 (c : Dev nD) : Vr3 m ρ c main_v2 = (dat1 (Vr2 m ρ) c).arrAt 2 cfg1.N := by
  unfold Vr3 W3; exact Function.update_self ..
theorem W3_of_ne (c : Dev nD) (b : Ref sig .tc) (hb : b ≠ main_v2) : Vr3 m ρ c b = Vr2 m ρ c b := by
  unfold Vr3 W3; exact Function.update_of_ne (StableHlo.devRef_ne_of_ne hb) ..

/-- After the first reshape (the positives region's entry). -/
abbrev W4 : Dev nD → Valuation τ sig (Elt F) := fun c => StableHlo.after hostOps2 (W3 m ρ c)
abbrev Vr4 : (c : Dev nD) → (b : Ref sig .tc) → Buf (Elt F) ((c : Thread nD τ).loc b) := fun c b => W4 m ρ c b
/-- After the positives region. -/
def W5 (c : Dev nD) : Valuation τ sig (Elt F) :=
  Pipeline.withArrays spec2 c (W4 m ρ c) fun w => (dat2 (Vr4 m ρ) c).arrAt w cfg2.N
theorem W5_arr (c : Dev nD) (w : Fin cfg2.W) :
    W5 m ρ c (Proc.devRef .tc (Pipeline.arrRef spec2 w)) = (dat2 (Vr4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev Vr5 : (c : Dev nD) → (b : Ref sig .tc) → Buf (Elt F) ((c : Thread nD τ).loc b) := fun c b => W5 m ρ c b
theorem hF2 (c : Dev nD) (w : Fin cfg2.W) : (dat2 (Vr4 m ρ) c).arrAt w cfg2.N = Vr5 m ρ c (Pipeline.arrRef spec2 w) :=
  (W5_arr m ρ c w).symm
theorem hrest2 (c : Dev nD) : ∀ b, b ∉ Finset.univ.image (Pipeline.arrRef spec2) → Vr5 m ρ c b = Vr4 m ρ c b :=
  fun b hb => W5_of_ne m ρ c b fun w e => hb (Finset.mem_image.mpr ⟨w, Finset.mem_univ _, e⟩)
/-- After the second reshape and the addition: the end. -/
abbrev W6 : Dev nD → Valuation τ sig (Elt F) := fun c => StableHlo.after hostOps3 (W5 m ρ c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr2 m ρ) c
  | ⟨2, _⟩ => fun c => dat2 (Vr4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (show (Pipeline.ΦA spec0 c : sProp 𝕄) ⊢ (pdats m ρ 0 c).Φ 0 from .rfl)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Vr1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (Vr4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (Vr4 m ρ) c)
    unfold Pipeline.ΦA
    iintro ⟨Hp, -, Hr⟩
    isplitl [Hr]; · iexact Hr
    iexact Hp
  hout c := by
    rw [Pipeline.ownSems0_none]
    refine (hout2 (Vr4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr4 m ρ c) (Vr5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The negatives region: the stacked rows' array is dealt in halves to its two windows at the entry and joined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := arrays1_of_unscopedBufs (Vr2 m ρ) c (Vr2 m ρ c) ((dat1 (Vr2 m ρ) c).arrAt · 0) rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (Vr2 m ρ) c)
    unfold Pipeline.ΦA
    iintro ⟨Hp, -, Hr⟩
    isplitl [Hr]; · iexact Hr
    iexact Hp
  hout c := by
    rw [Pipeline.ownSems0_none]
    refine (hout1 (Vr2 m ρ) c).trans ?_
    unfold Pipeline.ΦA
    iintro ⟨Hr, Hp⟩
    isplitl [Hp]; · iexact Hp
    isplitr; · iempintro
    iexact Hr
  hexit c := by
    have hjoin := unscopedBufs_of_arrays1 (Vr2 m ρ) c (Vr2 m ρ c) (Vr3 m ρ c) ((dat1 (Vr2 m ρ) c).arrAt · cfg1.N)
      (((dat1 (Vr2 m ρ) c).arrAt_in 0 rfl _).trans ((A_eq1 (Vr2 m ρ) c 0).trans (W3_of_ne m ρ c main_v1 (by decide)).symm))
      (((dat1 (Vr2 m ρ) c).arrAt_in 1 rfl _).trans ((A_eq1 (Vr2 m ρ) c 1).trans (W3_of_ne m ρ c main_v1 (by decide)).symm))
      (W3_v2 m ρ c).symm
      (fun b hb => W3_of_ne m ρ c b fun e => hb (e ▸ (by decide : (main_v2 : Ref sig .tc) ∈ Finset.univ.image (Pipeline.arrRef spec1))))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, with
    every unscoped buffer of every core at the end of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun c => by
      refine (show (iprop(StableHlo.held (c : Thread nD τ) (Pipeline.ucRefs τ sig) (W6 m ρ c) ∗ R c) : sProp 𝕄) ⊢ _ from ?_)
      iintro ⟨H, Hp, Ho⟩
      isplitl [H Hp]
      · isplitl [H] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KernelFrame.lean ====
/-
  No part of the program writes an argument: a host stretch writes only its own results, a region only its result arrays, and
  an argument a region reads through an input window ends the region as it entered. So at every boundary of the fold each
  argument's buffer holds its launch contents; with the run, that is the frame: the program terminates, nothing faulting,
  with its arguments unchanged.
-/
import proofs.«157362_j60473139528480_1_alg».proof.Proof.KernelRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_writes_sub hostOps1 _ hostOps1_writes (by decide)
    _ = W0 m ρ c (Proc.devRef .tc main_arg0) := (W1_arr m ρ c 0).trans (((dat0 (Vr0 m ρ) c).arrAt_in 0 rfl _).trans (A_eq0 (Vr0 m ρ) c 0))
    _ = m ((c : Thread nD τ).loc main_arg0) := rfl
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = m ((c : Thread nD τ).loc main_arg0) := W2_main_arg0 m ρ c
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := (W5_arr m ρ c 0).trans (((dat2 (Vr4 m ρ) c).arrAt_in 0 rfl _).trans (A_eq2 (Vr4 m ρ) c 0))
    _ = m ((c : Thread nD τ).loc main_arg0) := W4_main_arg0 m ρ c

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_writes_sub hostOps1 _ hostOps1_writes (by decide)
    _ = W0 m ρ c (Proc.devRef .tc main_arg1) := (W1_arr m ρ c 1).trans (((dat0 (Vr0 m ρ) c).arrAt_in 1 rfl _).trans (A_eq0 (Vr0 m ρ) c 1))
    _ = m ((c : Thread nD τ).loc main_arg1) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = m ((c : Thread nD τ).loc main_arg1) := W2_main_arg1 m ρ c
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := (W5_arr m ρ c 1).trans (((dat2 (Vr4 m ρ) c).arrAt_in 1 rfl _).trans (A_eq2 (Vr4 m ρ) c 1))
    _ = m ((c : Thread nD τ).loc main_arg1) := W4_main_arg1 m ρ c

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_main_arg0 m ρ c),
     (h c _ (mem_uc main_arg1 (by decide))).trans (W6_main_arg1 m ρ c)⟩) (run_all m ρ)

end Cert.KernelIdeal.Hand

end
-- ==== Proof.Spec.lean ====
/-
  The mathematics of the contrastive similarity loss, index by index on the extended reals, with no program in sight.

  Two embedding matrices X, Y (4096 rows of 512 entries) are normalised row by row, z = x / sqrt (sum of squares of the
  row); the 8192 normalised rows are stacked (X's rows first), and sim a b is the inner product of stacked rows a and b.
  The loss is
      (1/N') * sum over positive pairs of log1p (exp (-sim + 1/2))  +  (1/49152) * sum over a ≠ b of log1p (exp (sim a b - 1/2)).
  It is written here twice:
  * `kernelValue`: the positive pairs as the 4096 row products z_X(r) · z_Y(r), taken in 8 blocks of 512 rows and divided by 4096;
    the negatives in 8 x 8 tiles of 1024 x 1024 entries, a diagonal tile's sum LESS the sum of its diagonal entries;
  * `referenceValue`: the positive pairs read off the similarity matrix at (k, k+4096) and (k+4096, k), all 8192 of them, divided by
    8192; the negatives as one sum over all 8192 x 8192 entries of log1p (mask * exp (sim - 1/2)), the mask 1 - [a = b].
  The two agree when every entry is a real number and no row is zero (`SpecLaw`): then every normalised entry, every similarity
  and every term is a real number, a diagonal tile's difference is the sum of its off-diagonal entries, a masked diagonal entry
  contributes log1p 0 = 0, and (S + S) / 8192 = S / 4096.
-/
import Idealize.ShloMosaic.PureOps.Ideal
import Mathlib

noncomputable section

namespace Cert.Spec

open Idealize.ShloMosaic

/-- A matrix of 4096 rows of 512 extended reals. -/
abbrev Mat : Type := Fin 4096 → Fin 512 → EReal

/-- The f32 literals the two programs carry, at their exact values. -/
def half : EReal := Ideal.ofBits .f32 0x3F000000#32
def one : EReal := Ideal.ofBits .f32 0x3F800000#32
def c4096 : EReal := Ideal.ofBits .f32 0x45800000#32
def c8192 : EReal := Ideal.ofBits .f32 0x46000000#32
def c49152 : EReal := Ideal.ofBits .f32 0x47400000#32

/-- The sum of squares of row `r`. -/
def ss (X : Mat) (r : Fin 4096) : EReal := ∑ k : Fin 512, X r k * X r k

/-- The normalised entry: the entry over the row's Euclidean norm. -/
def z (X : Mat) (r : Fin 4096) (k : Fin 512) : EReal := Ideal.div (X r k) (Ideal.sqrt (ss X r))

/-- The stacked normalised rows: X's 4096 rows, then Y's. -/
def reps (X Y : Mat) (a : Fin 8192) (k : Fin 512) : EReal :=
  if h : a.val < 4096 then z X ⟨a.val, h⟩ k else z Y ⟨a.val - 4096, by omega⟩ k

/-- The similarity of stacked rows `a` and `b`. -/
def sim (X Y : Mat) (a b : Fin 8192) : EReal := ∑ k : Fin 512, reps X Y a k * reps X Y b k

/-- A negative pair's term. -/
def term (X Y : Mat) (a b : Fin 8192) : EReal := Ideal.log1p (Ideal.exp (sim X Y a b - half))

/-- The positive pair of row `r`: the product of its two normalised rows. -/
def pv (X Y : Mat) (r : Fin 4096) : EReal := ∑ k : Fin 512, z X r k * z Y r k

/-- A positive pair's term, from its similarity `s`. -/
def pterm (s : EReal) : EReal := Ideal.log1p (Ideal.exp (-s + half))

/-- Row `r` of block `t` of 512 rows. -/
def rowIx (t : Fin 8) (r : Fin 512) : Fin 4096 := ⟨t.val * 512 + r.val, by omega⟩
/-- Row `p` of tile row `i` of 1024 stacked rows. -/
def tileIx (i : Fin 8) (p : Fin 1024) : Fin 8192 := ⟨i.val * 1024 + p.val, by omega⟩

/-- The sum of a 1024 x 1024 tile's terms. -/
def blockSum (X Y : Mat) (i j : Fin 8) : EReal :=
  ∑ p : Fin 1024, ∑ q : Fin 1024, term X Y (tileIx i p) (tileIx j q)
/-- The sum of the tile's terms on its own diagonal (the others replaced by zero). -/
def diagSum (X Y : Mat) (i j : Fin 8) : EReal :=
  ∑ p : Fin 1024, ∑ q : Fin 1024, if p.val = q.val then term X Y (tileIx i p) (tileIx j q) else 0
/-- What a tile adds to the accumulator: a diagonal tile its sum less its diagonal's, another tile its sum. -/
def tile (X Y : Mat) (i j : Fin 8) : EReal :=
  if i.val = j.val then blockSum X Y i j - diagSum X Y i j else blockSum X Y i j

/-- The tiled, blocked form. -/
def kernelValue (X Y : Mat) : EReal :=
  Ideal.div (∑ t : Fin 8, ∑ r : Fin 512, pterm (pv X Y (rowIx t r))) c4096
    + Ideal.div (∑ i : Fin 8, ∑ j : Fin 8, tile X Y i j) c49152

/-- The positive pairs as the reference gathers them: entry (k, k+4096) of the similarity matrix for the first 4096, entry
    (k, k-4096) — that is (k'+4096, k') — for the rest. -/
def gathered (X Y : Mat) (k : Fin 8192) : EReal :=
  if h : k.val < 4096 then sim X Y k ⟨k.val + 4096, by omega⟩ else sim X Y k ⟨k.val - 4096, by omega⟩

/-- The mask: one less the identity matrix. -/
def mask (a b : Fin 8192) : EReal := one - (if a.val = b.val then (1 : EReal) else 0)

/-- The whole-matrix form. -/
def referenceValue (X Y : Mat) : EReal :=
  Ideal.div (∑ k : Fin 8192, pterm (gathered X Y k)) c8192
    + Ideal.div (∑ a : Fin 8192, ∑ b : Fin 8192, Ideal.log1p (mask a b * Ideal.exp (sim X Y a b - half))) c49152

end Cert.Spec

end
-- ==== Proof.PayRead.lean ====
/-
  The three kernels' arithmetic, read one element at a time on the extended reals.

  Each value a kernel stores is a pure term over the values it loaded (the generated module's payloads). Here each payload
  is read at an index: the pointwise operations read through, a lane sum is the sum over the row's entries, a keep-dims
  column is the vector it came from, a broadcast column is constant along the row, a transposed operand is read at the
  swapped index, a product into the zero accumulator is the sum of the products over the contracted axis, and the
  integer mask "row = column" selects the diagonal.
-/
import proofs.«157362_j60473139528480_1_alg».proof.Proof.Gen.KernelIdeal.Skeleton
import proofs.«157362_j60473139528480_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayRead

open Idealize.ShloMosaic ValueIdx Cert.KernelIdeal Cert.KernelIdeal.Gen

/-! ## Layout steps read at an index given by coordinates -/

section Layout
variable {α : Type}

/-- A vector cast to a column reads, at `(i, 0)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two zero stores and the two final divisions -/

/-- The negatives accumulator starts at zero. -/
theorem k1_pay1_apply : k1_pay1 (F := Ideal) (ix2 (0 : Fin 1) (0 : Fin 1)) = 0 := by
  unfold k1_pay1
  rw [shapeCast_self]
  exact Ideal.ofBits_zero_f32

/-- The positives accumulator starts at zero. -/
theorem k2_pay1_apply : k2_pay1 (F := Ideal) (ix2 (0 : Fin 1) (0 : Fin 1)) = 0 := by
  unfold k2_pay1
  rw [shapeCast_self]
  exact Ideal.ofBits_zero_f32

/-- The negatives term's last step divides the accumulator by 49152. -/
theorem k1_pay6_apply (a : Vec Ideal S1x1 .f32) :
    k1_pay6 (F := Ideal) a (ix2 (0 : Fin 1) (0 : Fin 1)) = Ideal.div (a (ix2 (0 : Fin 1) (0 : Fin 1))) Cert.Spec.c49152 := rfl

/-- The positives term's last step divides the accumulator by 4096. -/
theorem k2_pay3_apply (a : Vec Ideal S1x1 .f32) :
    k2_pay3 (F := Ideal) a (ix2 (0 : Fin 1) (0 : Fin 1)) = Ideal.div (a (ix2 (0 : Fin 1) (0 : Fin 1))) Cert.Spec.c4096 := rfl

/-- Off the diagonal a tile adds its whole sum to the accumulator. -/
theorem k1_pay5_apply (v5 v7 : Vec Ideal S1024x512 .bf16) (a : Vec Ideal S1x1 .f32) :
    k1_pay5 (F := Ideal) v5 v7 a (ix2 (0 : Fin 1) (0 : Fin 1))
      = a (ix2 (0 : Fin 1) (0 : Fin 1)) + k1_pay3 (F := Ideal) v5 v7 (ix2 (0 : Fin 1) (0 : Fin 1)) := by
  unfold k1_pay5
  rw [shapeCast_self]
  rfl

/-! ## Sums along one axis -/

/-- A lane sum: the sum over axis 1 of an `[a, b]` array, read at row `r`, is the sum of that row's entries. -/
theorem laneSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ X 0x00000000#32 h hφ hacc (ix1 r) = ∑ k : Fin b, X (ix2 r k) := by
  refine (Ideal.multiReduction_add_single X 0x00000000#32 h hφ hacc (ix1 r)).trans ?_
  refine Finset.sum_congr rfl fun k _ => congrArg X (funext fun d => Fin.ext ?_)
  match d with
  | ⟨0, _⟩ => rfl
  | ⟨1, _⟩ => rfl

/-- The sum down a column: the sum over axis 0 of an `[a, 1]` array, read at its one index, is the sum of the column's
    entries. -/
theorem colSum_apply {a : ℕ} (Y : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) (u : Fin 1) :
    multiReduction (F := Ideal) .add [0] ⟨1, ![1]⟩ Y 0x00000000#32 h hφ hacc (ix1 u) = ∑ r : Fin a, Y (ix2 r (0 : Fin 1)) := by
  refine (Ideal.multiReduction_add_single Y 0x00000000#32 h hφ hacc (ix1 u)).trans ?_
  refine Finset.sum_congr rfl fun k _ => congrArg Y (funext fun d => Fin.ext ?_)
  match d with
  | ⟨0, _⟩ => rfl
  | ⟨1, _⟩ =>
    have hu : u.val = 0 := by omega
    exact hu

/-- The sum of every entry as the kernels take it: lane sums, kept as a column, summed down the column, kept as a
    `[1, 1]` array. -/
theorem total_apply {a b : ℕ} (X : FVec Ideal ⟨2, ![a, b]⟩ .f32)
    (h1 : (⟨2, ![a, b]⟩ : Shape).Reduces [1] ⟨1, ![a]⟩) (hc : (⟨1, ![a]⟩ : Shape).ShapeCasts ⟨2, ![a, 1]⟩)
    (h0 : (⟨2, ![a, 1]⟩ : Shape).Reduces [0] ⟨1, ![1]⟩) (hc' : (⟨1, ![1]⟩ : Shape).ShapeCasts ⟨2, ![1, 1]⟩)
    (hφ : FKind.Formats .f32) (hacc : (0x00000000#32 : BitVec 32) = FKind.add.neutral .f32 hφ)
    (hφ' : FKind.Formats .f32) (hacc' : (0x00000000#32 : BitVec 32) = FKind.add.neutral .f32 hφ') (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ X 0x00000000#32 h1 hφ hacc) hc)
          0x00000000#32 h0 hφ' hacc') hc' (ix2 u w)
      = ∑ p : Fin a, ∑ q : Fin b, X (ix2 p q) := by
  refine (shapeCast_a_a1_apply _ hc' u w).trans ?_
  refine (colSum_apply _ h0 hφ' hacc' u).trans ?_
  refine Finset.sum_congr rfl fun p _ => ?_
  refine (shapeCast_a_a1_apply _ hc p 0).trans ?_
  exact laneSum_apply X h1 hφ hacc p

/-! ## The row normalisation -/

/-- The Euclidean norm of each row, kept as a column and broadcast back along the row: at `(p, q)` it is the square root
    of the sum of squares of row `p`. -/
theorem rowNorm_apply (v : FVec Ideal S512x512 .f32) (p q : Fin 512) :
    broadcastTo S512x512
        (sqrt (shapeCast S512x1
          (multiReduction (F := Ideal) .add [1] S512 (mulf v v) 0x00000000#32 reduces_S512x512_S512 (.inl rfl) rfl)
          shapeCasts_S512_S512x1)) broadcasts_S512x1_S512x512 (ix2 p q)
      = Ideal.sqrt (∑ k : Fin 512, v (ix2 p k) * v (ix2 p k)) := by
  refine (broadcastTo_a1_ab_apply _ broadcasts_S512x1_S512x512 p q).trans ?_
  show Ideal.sqrt _ = Ideal.sqrt _
  refine congrArg Ideal.sqrt ?_
  refine (shapeCast_a_a1_apply _ shapeCasts_S512_S512x1 p 0).trans ?_
  exact laneSum_apply (mulf v v) reduces_S512x512_S512 (.inl rfl) rfl p

/-- The first operand's normalised block: each entry over its row's Euclidean norm (the narrowing to bf16 changes
    nothing on the extended reals). -/
theorem k0_pay1_apply (v0 : Vec Ideal S512x512 .f32) (p q : Fin 512) :
    k0_pay1 (F := Ideal) v0 (ix2 p q)
      = Ideal.div (v0 (ix2 p q)) (Ideal.sqrt (∑ k : Fin 512, v0 (ix2 p k) * v0 (ix2 p k))) := by
  unfold k0_pay1
  exact congrArg (Ideal.div (v0 (ix2 p q))) (rowNorm_apply v0 p q)

/-- The second operand's normalised block. -/
theorem k0_pay2_apply (v1 : Vec Ideal S512x512 .f32) (p q : Fin 512) :
    k0_pay2 (F := Ideal) v1 (ix2 p q)
      = Ideal.div (v1 (ix2 p q)) (Ideal.sqrt (∑ k : Fin 512, v1 (ix2 p k) * v1 (ix2 p k))) := by
  unfold k0_pay2
  exact congrArg (Ideal.div (v1 (ix2 p q))) (rowNorm_apply v1 p q)

/-! ## The similarity tile -/

/-- The product's left operand is read on the output's row … -/
theorem matmul_lhs_row (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

/-- … and its right operand on the output's column. -/
theorem matmul_rhs_col (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product into the zero accumulator: at `(p, q)` the sum, over the contracted axis, of the left operand's row `p`
    times the right operand's column `q`. -/
theorem matmul_zero_apply (A : FVec Ideal S1024x512 .bf16) (B : FVec Ideal S512x1024 .bf16) (p q : Fin 1024) :
    matmul dot_S1024x512_S512x1024_S1024x1024_1_0_0_1_n_n none A B (constant (F := Ideal) S1024x1024 .f32 0x00000000#32) (ix2 p q)
      = ∑ k : Fin 512, A (ix2 p k) * B (ix2 k q) := by
  refine (Ideal.matmul_constant_zero_apply dot_S1024x512_S512x1024_S1024x1024_1_0_0_1_n_n none A B (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k :=
    funext fun a => Fin.ext (by
      match a with
      | ⟨0, _⟩ => exact matmul_lhs_row _ _
      | ⟨1, _⟩ => exact (dot_S1024x512_S512x1024_S1024x1024_1_0_0_1_n_n.lhsIdx_val_of_single rfl _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q :=
    funext fun a => Fin.ext (by
      match a with
      | ⟨0, _⟩ => exact (dot_S1024x512_S512x1024_S1024x1024_1_0_0_1_n_n.rhsIdx_val_of_single rfl _ _).trans hk
      | ⟨1, _⟩ => exact matmul_rhs_col _ _)
  rw [el, er]

/-- A tile of the negatives' terms: at `(p, q)`, `log1p (exp (s - 1/2))` of the inner product `s` of row `p` of the first
    block with row `q` of the second. -/
theorem k1_pay2_apply (v5 v7 : Vec Ideal S1024x512 .bf16) (p q : Fin 1024) :
    k1_pay2 (F := Ideal) v5 v7 (ix2 p q)
      = Ideal.log1p (Ideal.exp ((∑ k : Fin 512, v5 (ix2 p k) * v7 (ix2 q k)) - Cert.Spec.half)) := by
  unfold k1_pay2
  rw [shapeCast_self, shapeCast_self]
  show Ideal.log1p (Ideal.exp (_ - Cert.Spec.half)) = _
  refine congrArg (fun s => Ideal.log1p (Ideal.exp (s - Cert.Spec.half))) ?_
  refine (matmul_zero_apply v5 _ p q).trans ?_
  refine Finset.sum_congr rfl fun k _ => congrArg (v5 (ix2 p k) * ·) ?_
  exact transpose_ix2_apply v7 transposes_S1024x512_p1_0_S512x1024 k q

/-! ## A tile's sum, and its diagonal -/

/-- The sum of a tile's terms. -/
theorem k1_pay3_apply (v5 v7 : Vec Ideal S1024x512 .bf16) :
    k1_pay3 (F := Ideal) v5 v7 (ix2 (0 : Fin 1) (0 : Fin 1))
      = ∑ p : Fin 1024, ∑ q : Fin 1024, k1_pay2 (F := Ideal) v5 v7 (ix2 p q) := by
  unfold k1_pay3
  exact total_apply (k1_pay2 (F := Ideal) v5 v7) reduces_S1024x1024_S1024 shapeCasts_S1024_S1024x1 reduces_S1024x1_S1
    shapeCasts_S1_S1x1 (.inl rfl) rfl (.inl rfl) rfl 0 0

/-- Two row or column numbers below 1024 are equal as 32-bit words exactly when they are equal. -/
theorem ofNat32_eq_iff (p q : Fin 1024) : BitVec.ofNat 32 p.val = BitVec.ofNat 32 q.val ↔ p.val = q.val := by
  constructor
  · intro he
    have h := congrArg BitVec.toNat he
    rw [BitVec.toNat_ofNat, BitVec.toNat_ofNat] at h
    have hp := p.isLt
    have hq := q.isLt
    omega
  · intro h; rw [h]

/-- The mask "row number = column number" of a tile: the column of row numbers and the row of column numbers, both
    broadcast to the tile and compared, is the bit `1` exactly on the diagonal. -/
theorem diagMask_apply (p q : Fin 1024) :
    cmpi .eq (broadcastTo S1024x1024 (iota .tc S1024x1 32 [0] iota_S1024x1_d0_w32) broadcasts_S1024x1_S1024x1024)
        (broadcastTo S1024x1024 (iota .tc S1x1024 32 [1] iota_S1x1024_d1_w32) broadcasts_S1x1024_S1024x1024) (ix2 p q)
      = if p.val = q.val then 1#1 else 0#1 := by
  have e1 : broadcastTo S1024x1024 (iota .tc S1024x1 32 [0] iota_S1024x1_d0_w32) broadcasts_S1024x1_S1024x1024 (ix2 p q)
      = BitVec.ofNat 32 p.val :=
    (broadcastTo_a1_ab_apply _ broadcasts_S1024x1_S1024x1024 p q).trans
      (iota_single_apply .tc S1024x1 32 0 iota_S1024x1_d0_w32 (ix2 p (0 : Fin 1)))
  have e2 : broadcastTo S1024x1024 (iota .tc S1x1024 32 [1] iota_S1x1024_d1_w32) broadcasts_S1x1024_S1024x1024 (ix2 p q)
      = BitVec.ofNat 32 q.val :=
    (broadcastTo_1b_ab_apply _ broadcasts_S1x1024_S1024x1024 p q).trans
      (iota_single_apply .tc S1x1024 32 1 iota_S1x1024_d1_w32 (ix2 (0 : Fin 1) q))
  show IntOp.cmpi .eq _ _ = _
  rw [e1, e2]
  show BitVec.ofBool (BitVec.ofNat 32 p.val == BitVec.ofNat 32 q.val) = _
  by_cases h : p.val = q.val
  · rw [if_pos h, h, beq_self_eq_true]; rfl
  · rw [if_neg h, beq_eq_false_iff_ne.mpr (fun he => h ((ofNat32_eq_iff p q).mp he))]; rfl

/-- On the diagonal a tile adds to the accumulator its sum less the sum of its own diagonal entries. -/
theorem k1_pay4_apply (v5 v7 : Vec Ideal S1024x512 .bf16) (a : Vec Ideal S1x1 .f32) :
    k1_pay4 (F := Ideal) v5 v7 a (ix2 (0 : Fin 1) (0 : Fin 1))
      = a (ix2 (0 : Fin 1) (0 : Fin 1)) + (k1_pay3 (F := Ideal) v5 v7 (ix2 (0 : Fin 1) (0 : Fin 1))
          - ∑ p : Fin 1024, ∑ q : Fin 1024, (if p.val = q.val then k1_pay2 (F := Ideal) v5 v7 (ix2 p q) else 0)) := by
  unfold k1_pay4
  rw [shapeCast_self]
  show a (ix2 (0 : Fin 1) (0 : Fin 1)) + (k1_pay3 (F := Ideal) v5 v7 (ix2 (0 : Fin 1) (0 : Fin 1)) - _) = _
  refine congrArg (fun s => a (ix2 (0 : Fin 1) (0 : Fin 1)) + (k1_pay3 (F := Ideal) v5 v7 (ix2 (0 : Fin 1) (0 : Fin 1)) - s)) ?_
  refine (total_apply _ reduces_S1024x1024_S1024 shapeCasts_S1024_S1024x1 reduces_S1024x1_S1
    shapeCasts_S1_S1x1 (.inl rfl) rfl (.inl rfl) rfl 0 0).trans ?_
  refine Finset.sum_congr rfl fun p _ => Finset.sum_congr rfl fun q _ => ?_
  show Scalar.select (cmpi .eq _ _ (ix2 p q)) (k1_pay2 (F := Ideal) v5 v7 (ix2 p q)) (Ideal.ofBits .f32 0x00000000#32) = _
  rw [diagMask_apply p q, Ideal.ofBits_zero_f32]
  by_cases h : p.val = q.val
  · rw [if_pos h, if_pos h]; exact select_one _ _
  · rw [if_neg h, if_neg h]; exact select_zero _ _

/-! ## The positives' block -/

/-- A block of 512 positive pairs adds to the accumulator the sum, over its rows, of `log1p (exp (-s + 1/2))` of the inner
    product `s` of the two operands' normalised rows. -/
theorem k2_pay2_apply (v3 v4 : Vec Ideal S512x512 .f32) (a : Vec Ideal S1x1 .f32) :
    k2_pay2 (F := Ideal) v3 v4 a (ix2 (0 : Fin 1) (0 : Fin 1))
      = a (ix2 (0 : Fin 1) (0 : Fin 1)) + ∑ r : Fin 512, Cert.Spec.pterm (∑ k : Fin 512,
          Ideal.div (v3 (ix2 r k)) (Ideal.sqrt (∑ k' : Fin 512, v3 (ix2 r k') * v3 (ix2 r k')))
            * Ideal.div (v4 (ix2 r k)) (Ideal.sqrt (∑ k' : Fin 512, v4 (ix2 r k') * v4 (ix2 r k')))) := by
  unfold k2_pay2
  rw [shapeCast_self]
  show a (ix2 (0 : Fin 1) (0 : Fin 1)) + _ = _
  refine congrArg (a (ix2 (0 : Fin 1) (0 : Fin 1)) + ·) ?_
  refine (shapeCast_a_a1_apply _ shapeCasts_S1_S1x1 0 0).trans ?_
  refine (colSum_apply _ reduces_S512x1_S1 (.inl rfl) rfl 0).trans ?_
  refine Finset.sum_congr rfl fun r _ => ?_
  show Ideal.log1p (Ideal.exp (Ideal.ofBits .f32 0x00000000#32 - _ + Cert.Spec.half)) = _
  unfold Cert.Spec.pterm
  rw [Ideal.ofBits_zero_f32, zero_sub]
  refine congrArg (fun s => Ideal.log1p (Ideal.exp (-s + Cert.Spec.half))) ?_
  refine (shapeCast_a_a1_apply _ shapeCasts_S512_S512x1 r 0).trans ?_
  refine (laneSum_apply _ reduces_S512x512_S512 (.inl rfl) rfl r).trans ?_
  refine Finset.sum_congr rfl fun k _ => ?_
  exact congrArg₂ (fun x y => Ideal.div (v3 (ix2 r k)) x * Ideal.div (v4 (ix2 r k)) y)
    (rowNorm_apply v3 r k) (rowNorm_apply v4 r k)

end Cert.KernelIdeal.PayRead

end
-- ==== Proof.PieceRead.lean ====
/-
  What each case of each kernel's body was found to leave in its result and accumulator buffers, read back as the
  kernel's arithmetic: every buffer here is written whole and read whole, so a buffer's final contents are the payload of
  its last store, and each load reads the contents it was given or the payload the store before it left.
-/
import proofs.«157362_j60473139528480_1_alg».proof.Proof.Region0
import proofs.«157362_j60473139528480_1_alg».proof.Proof.Region1
import proofs.«157362_j60473139528480_1_alg».proof.Proof.Region2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole two-axis buffer. -/
theorem hz2 : (![0, 0] : Fin 2 → Nat) = fun _ => 0 := funext fun a => by fin_cases a <;> rfl

/-! ## The normalisation kernel -/

/-- The first result's buffer ends as the first block, normalised. -/
theorem out0_2_eq (x0 : Vec F S512x512 .f32) : out0_2 x0 = k0_pay1 x0 := by
  unfold out0_2
  rw [View.canon_unit_zero hz2, View.ld_unit_zero (S := S512x512) hz2]

/-- The second result's buffer ends as the second block, normalised. -/
theorem out0_3_eq (x1 : Vec F S512x512 .f32) : out0_3 x1 = k0_pay2 x1 := by
  unfold out0_3
  rw [View.canon_unit_zero hz2, View.ld_unit_zero (S := S512x512) hz2]

/-! ## The positives' kernel -/

/-- At the first point the accumulator is cleared, read back, and left at the block's sum added to zero. -/
theorem sout2_A_0_eq (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 x1 : Vec F S512x512 .f32) :
    sout2_A_0 c i arg1 harg1 arg2 harg2 arg3 harg3 arg4 harg4 hc0 hc1 x0 x1 = k2_pay2 x0 x1 (k2_pay1 (F := F)) := by
  unfold sout2_A_0
  rw [View.read_writes_eq_canon _ _ _ (scover2_A_0 c i arg1 harg1 arg2 harg2 arg3 harg3 arg4 harg4 hc0 hc1 x0 x1)]
  unfold kernelRun2_A
  dsimp only
  sl_unfold_words
  rw [View.canon_cons_unit_zero (S := S1x1) hz2, View.readCov_unit_zero (S := S1x1) _ hz2]
  simp only [View.readAt_eq_ld, harg1.read_unread, harg2.read_unread, View.ld_unit_zero (S := S512x512) hz2]

/-- At a middle point the accumulator is left at the block's sum added to what it held. -/
theorem sout2_B_0_eq (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 x1 : Vec F S512x512 .f32) (xs0 : Vec F S1x1 .f32) :
    sout2_B_0 c i arg1 harg1 arg2 harg2 arg3 harg3 arg4 harg4 hc0 hc1 x0 x1 xs0 = k2_pay2 x0 x1 xs0 := by
  unfold sout2_B_0
  rw [View.read_writes_eq_canon _ _ _ (scover2_B_0 c i arg1 harg1 arg2 harg2 arg3 harg3 arg4 harg4 hc0 hc1 x0 x1 xs0)]
  unfold kernelRun2_B
  dsimp only
  sl_unfold_words
  rw [View.canon_unit_zero (S := S1x1) hz2]
  simp only [View.readAt_eq_ld, harg1.read_unread, harg2.read_unread, harg4.read_unread, View.ld_unit_zero (S := S512x512) hz2,
    View.ld_unit_zero (S := S1x1) hz2]

/-- At the last point the accumulator is left likewise … -/
theorem sout2_C_0_eq (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 x1 : Vec F S512x512 .f32) (xs0 : Vec F S1x1 .f32) :
    sout2_C_0 c i arg1 harg1 arg2 harg2 arg3 harg3 arg4 harg4 hc0 hc1 x0 x1 xs0 = k2_pay2 x0 x1 xs0 := by
  unfold sout2_C_0
  rw [View.read_writes_eq_canon _ _ _ (scover2_C_0 c i arg1 harg1 arg2 harg2 arg3 harg3 arg4 harg4 hc0 hc1 x0 x1 xs0)]
  unfold kernelRun2_C
  dsimp only
  sl_unfold_words
  rw [View.canon_unit_zero (S := S1x1) hz2]
  simp only [View.readAt_eq_ld, harg1.read_unread, harg2.read_unread, harg4.read_unread, View.ld_unit_zero (S := S512x512) hz2,
    View.ld_unit_zero (S := S1x1) hz2]

/-- … and the result's buffer receives it divided by 4096. -/
theorem out2_C_2_eq (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 x1 : Vec F S512x512 .f32) (xs0 : Vec F S1x1 .f32) :
    out2_C_2 c i arg1 harg1 arg2 harg2 arg3 harg3 arg4 harg4 hc0 hc1 x0 x1 xs0 = k2_pay3 (k2_pay2 x0 x1 xs0) := by
  unfold out2_C_2
  rw [View.read_writes_eq_canon _ _ _ (cover2_C_2 c i arg1 harg1 arg2 harg2 arg3 harg3 arg4 harg4 hc0 hc1 x0 x1 xs0)]
  unfold kernelRun2_C
  dsimp only
  sl_unfold_words
  rw [View.canon_unit_zero (S := S1x1) hz2, View.readCov_unit_zero (S := S1x1) _ hz2]
  simp only [View.readAt_eq_ld, harg1.read_unread, harg2.read_unread, harg4.read_unread, View.ld_unit_zero (S := S512x512) hz2,
    View.ld_unit_zero (S := S1x1) hz2]

/-! ## The negatives' kernel -/

/-- At the first tile the accumulator is cleared, read back, and left at the tile's off-diagonal sum added to zero. -/
theorem sout1_A_0_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : cond1_0 i) (hc1 : cond1_1 i) (hc2 : ¬cond1_2 i) (hc3 : ¬cond1_3 i)
    (x0 x1 : Vec F S1024x512 .bf16) :
    sout1_A_0 c i arg2 harg2 arg3 harg3 arg4 harg4 arg5 harg5 hc0 hc1 hc2 hc3 x0 x1 = k1_pay4 x0 x1 (k1_pay1 (F := F)) := by
  unfold sout1_A_0
  rw [View.read_writes_eq_canon _ _ _ (scover1_A_0 c i arg2 harg2 arg3 harg3 arg4 harg4 arg5 harg5 hc0 hc1 hc2 hc3 x0 x1)]
  unfold kernelRun1_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    View.ld_unit_zero (S := S1024x512) hz2, View.ld_unit_zero (S := S1x1) hz2]

/-- At a tile off the diagonal the accumulator is left at the tile's sum added to what it held. -/
theorem sout1_B_0_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (hc2 : cond1_2 i) (hc3 : ¬cond1_3 i)
    (x0 x1 : Vec F S1024x512 .bf16) (xs0 : Vec F S1x1 .f32) :
    sout1_B_0 c i arg2 harg2 arg3 harg3 arg4 harg4 arg5 harg5 hc0 hc1 hc2 hc3 x0 x1 xs0 = k1_pay5 x0 x1 xs0 := by
  unfold sout1_B_0
  rw [View.read_writes_eq_canon _ _ _ (scover1_B_0 c i arg2 harg2 arg3 harg3 arg4 harg4 arg5 harg5 hc0 hc1 hc2 hc3 x0 x1 xs0)]
  unfold kernelRun1_B
  dsimp only
  sl_unfold_words
  rw [View.canon_unit_zero (S := S1x1) hz2]
  simp only [View.readAt_eq_ld, harg2.read_unread, harg3.read_unread, harg4.read_unread, harg5.read_unread,
    View.ld_unit_zero (S := S1024x512) hz2, View.ld_unit_zero (S := S1x1) hz2]

/-- At a later tile on the diagonal the accumulator is left at the tile's off-diagonal sum added to what it held. -/
theorem sout1_C_0_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (hc2 : ¬cond1_2 i) (hc3 : ¬cond1_3 i)
    (x0 x1 : Vec F S1024x512 .bf16) (xs0 : Vec F S1x1 .f32) :
    sout1_C_0 c i arg2 harg2 arg3 harg3 arg4 harg4 arg5 harg5 hc0 hc1 hc2 hc3 x0 x1 xs0 = k1_pay4 x0 x1 xs0 := by
  unfold sout1_C_0
  rw [View.read_writes_eq_canon _ _ _ (scover1_C_0 c i arg2 harg2 arg3 harg3 arg4 harg4 arg5 harg5 hc0 hc1 hc2 hc3 x0 x1 xs0)]
  unfold kernelRun1_C
  dsimp only
  sl_unfold_words
  rw [View.canon_unit_zero (S := S1x1) hz2]
  simp only [View.readAt_eq_ld, harg2.read_unread, harg3.read_unread, harg4.read_unread, harg5.read_unread,
    View.ld_unit_zero (S := S1024x512) hz2, View.ld_unit_zero (S := S1x1) hz2]

/-- At the last tile, which is on the diagonal, the accumulator is left likewise … -/
theorem sout1_D_0_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (hc2 : ¬cond1_2 i) (hc3 : cond1_3 i)
    (x0 x1 : Vec F S1024x512 .bf16) (xs0 : Vec F S1x1 .f32) :
    sout1_D_0 c i arg2 harg2 arg3 harg3 arg4 harg4 arg5 harg5 hc0 hc1 hc2 hc3 x0 x1 xs0 = k1_pay4 x0 x1 xs0 := by
  unfold sout1_D_0
  rw [View.read_writes_eq_canon _ _ _ (scover1_D_0 c i arg2 harg2 arg3 harg3 arg4 harg4 arg5 harg5 hc0 hc1 hc2 hc3 x0 x1 xs0)]
  unfold kernelRun1_D
  dsimp only
  sl_unfold_words
  rw [View.canon_unit_zero (S := S1x1) hz2]
  simp only [View.readAt_eq_ld, harg2.read_unread, harg3.read_unread, harg4.read_unread, harg5.read_unread,
    View.ld_unit_zero (S := S1024x512) hz2, View.ld_unit_zero (S := S1x1) hz2]

/-- … and the result's buffer receives it divided by 49152. -/
theorem out1_D_2_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (hc2 : ¬cond1_2 i) (hc3 : cond1_3 i)
    (x0 x1 : Vec F S1024x512 .bf16) (xs0 : Vec F S1x1 .f32) :
    out1_D_2 c i arg2 harg2 arg3 harg3 arg4 harg4 arg5 harg5 hc0 hc1 hc2 hc3 x0 x1 xs0 = k1_pay6 (k1_pay4 x0 x1 xs0) := by
  unfold out1_D_2
  rw [View.read_writes_eq_canon _ _ _ (cover1_D_2 c i arg2 harg2 arg3 harg3 arg4 harg4 arg5 harg5 hc0 hc1 hc2 hc3 x0 x1 xs0)]
  unfold kernelRun1_D
  dsimp only
  sl_unfold_words
  rw [View.canon_unit_zero (S := S1x1) hz2, View.readCov_unit_zero (S := S1x1) _ hz2]
  simp only [View.readAt_eq_ld, harg2.read_unread, harg3.read_unread, harg4.read_unread, harg5.read_unread,
    View.ld_unit_zero (S := S1024x512) hz2, View.ld_unit_zero (S := S1x1) hz2]

end Cert.KernelIdeal.Hand

end
-- ==== Proof.BlockRead.lean ====
/-
  The row normalisation's blocks and result arrays, index by index. Window w's block at point t of the 8-point grid is
  rows 512 t .. 512 t + 511 of its array (block row t, block column 0: decided once over the grid), so an entry (r, k) of the
  block is entry (512 t + r, k) of the array. Every point writes its two result blocks back, and the 8 blocks tile the
  4096 rows: so after the 8 points each result array holds, at row R, what point R / 512 stored at row R % 512 of its block.
-/
import proofs.«157362_j60473139528480_1_alg».proof.Proof.Region0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block indices of the four windows, decided over the 8 points: block row the point's number, block column 0. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row 512 t + r is a row of the array. -/
theorem row0_lt (t : Fin cfg0.N) (r : Fin 512) : t.val * 512 + r.val < 4096 := by
  have hN : t.val < 8 := lt_of_lt_of_eq t.isLt (show cfg0.N = 8 from N_0)
  have := r.isLt
  omega

/-- Entry (r, k) of the first argument's block at point t is entry (512 t + r, k) of the argument: a block's coordinate
    is the block index times the block's size plus the coordinate inside the block. -/
theorem iblk0_0_apply (c : Dev nD) (t : Fin cfg0.N) (r k : Fin 512) :
    iblk0 V c 0 t (ix2 r k) = V c main_arg0 (ix2 (⟨t.val * 512 + r.val, row0_lt t r⟩ : Fin 4096) k) := by
  obtain ⟨e0, e1, -⟩ := index0 t
  unfold iblk0
  rw [View.read_apply]
  show V c main_arg0 _ = V c main_arg0 _
  refine congrArg (V c main_arg0) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 512 + 1 * k.val = k.val; rw [e1]; omega

/-- Entry (r, k) of the second argument's block at point t is entry (512 t + r, k) of the argument. -/
theorem iblk0_1_apply (c : Dev nD) (t : Fin cfg0.N) (r k : Fin 512) :
    iblk0 V c 1 t (ix2 r k) = V c main_arg1 (ix2 (⟨t.val * 512 + r.val, row0_lt t r⟩ : Fin 4096) k) := by
  obtain ⟨-, -, e0, e1, -⟩ := index0 t
  unfold iblk0
  rw [View.read_apply]
  show V c main_arg1 _ = V c main_arg1 _
  refine congrArg (V c main_arg1) (funext fun a => Fin.ext ?_)
  match a with
  | ⟨0, _⟩ => show win0_1.index t (0 : Fin 2) * 512 + 1 * r.val = t.val * 512 + r.val; rw [e0]; omega
  | ⟨1, _⟩ => show win0_1.index t (1 : Fin 2) * 512 + 1 * k.val = k.val; rw [e1]; omega

/-! ## The two result arrays after the 8 points -/

/-- What point t stores for each result: the normalised block of its argument. (Named, so that the point can be
    rewritten under it as a plain function of the point.) -/
def bout0_2 (c : Dev nD) (t : Fin cfg0.N) : Vec F S512x512 .bf16 := out0_2 (iblk0 V c 0 t)
def bout0_3 (c : Dev nD) (t : Fin cfg0.N) : Vec F S512x512 .bf16 := out0_3 (iblk0 V c 1 t)

/-- The point whose block holds row R: R / 512. -/
theorem point0_lt (R : Nat) (hR : R < 4096) : R / 512 < cfg0.N := by
  rw [show cfg0.N = 8 from N_0]; omega

/-- Each result array as one function of its index: at row R, what point R / 512 stored at row R % 512 of its block. -/
def res0_2 (c : Dev nD) : S4096x512.Idx → Elt F .bf16 := fun i =>
  bout0_2 V c ⟨(i 0).val / 512, point0_lt _ (i 0).isLt⟩ (ix2 ⟨(i 0).val % 512, Nat.mod_lt _ (by decide)⟩ ⟨(i 1).val, (i 1).isLt⟩)
def res0_3 (c : Dev nD) : S4096x512.Idx → Elt F .bf16 := fun i =>
  bout0_3 V c ⟨(i 0).val / 512, point0_lt _ (i 0).isLt⟩ (ix2 ⟨(i 0).val % 512, Nat.mod_lt _ (by decide)⟩ ⟨(i 1).val, (i 1).isLt⟩)

/-- That function at an index whose row is 512 t + r and whose column is k: point t's block at (r, k). -/
theorem res0_2_apply (c : Dev nD) (t : Fin cfg0.N) (r k : Fin 512) (i : S4096x512.Idx)
    (h0 : (i 0).val = t.val * 512 + r.val) (h1 : (i 1).val = k.val) : res0_2 V c i = bout0_2 V c t (ix2 r k) := by
  have hr := r.isLt
  exact congr (congrArg (bout0_2 V c) (Fin.ext (by show (i 0).val / 512 = t.val; rw [h0]; omega)))
    (funext fun a => Fin.ext (by
      match a with
      | ⟨0, _⟩ => show (i 0).val % 512 = r.val; rw [h0]; omega
      | ⟨1, _⟩ => exact h1))
theorem res0_3_apply (c : Dev nD) (t : Fin cfg0.N) (r k : Fin 512) (i : S4096x512.Idx)
    (h0 : (i 0).val = t.val * 512 + r.val) (h1 : (i 1).val = k.val) : res0_3 V c i = bout0_3 V c t (ix2 r k) := by
  have hr := r.isLt
  exact congr (congrArg (bout0_3 V c) (Fin.ext (by show (i 0).val / 512 = t.val; rw [h0]; omega)))
    (funext fun a => Fin.ext (by
      match a with
      | ⟨0, _⟩ => show (i 0).val % 512 = r.val; rw [h0]; omega
      | ⟨1, _⟩ => exact h1))

/-- Reading an array through a result window's block: the array at the block's embedded index. (Stated for any array,
    so that the comparison never opens the array's own definition.) -/
theorem read_blk0_2 (G : S4096x512.Idx → Elt F .bf16) (t : Fin cfg0.N) (j : S512x512.Idx) :
    ((cfg0.win 2).blk t).view.read (Elt F) G j = G (((cfg0.win 2).blk t).view.emb j) := rfl
theorem read_blk0_3 (G : S4096x512.Idx → Elt F .bf16) (t : Fin cfg0.N) (j : S512x512.Idx) :
    ((cfg0.win 3).blk t).view.read (Elt F) G j = G (((cfg0.win 3).blk t).view.emb j) := rfl

/-- What point t writes back to the first result is block t of its function: the staging buffer after the body, the
    index split into its coordinates, the function at the embedded index (row 512 t + the row inside the block). -/
theorem flushed0_2_eq (c : Dev nD) (t : Fin cfg0.N) :
    (dat0 V c).flushed 2 t = ((cfg0.win 2).blk t).view.read (Elt F) (res0_2 V c) := by
  obtain ⟨-, -, -, -, e0, e1, -⟩ := index0 t
  funext j
  have h0 : ((((cfg0.win 2).blk t).view.emb j) 0).val = t.val * 512 + (j 0).val := by
    show win0_2.index t (0 : Fin 2) * 512 + 1 * (j 0).val = _; rw [e0]; omega
  have h1 : ((((cfg0.win 2).blk t).view.emb j) 1).val = (j 1).val := by
    show win0_2.index t (1 : Fin 2) * 512 + 1 * (j 1).val = _; rw [e1]; omega
  refine Eq.trans ?_ (read_blk0_2 (res0_2 V c) t j).symm
  refine Eq.trans (b := bout0_2 V c t j) (congrFun (after0_2 V c t) _) ?_
  refine Eq.trans (congrArg (bout0_2 V c t) (ValueIdx.eq_ix2 j)) ?_
  exact (res0_2_apply V c t (j 0) (j 1) _ h0 h1).symm
/-- The second result likewise. -/
theorem flushed0_3_eq (c : Dev nD) (t : Fin cfg0.N) :
    (dat0 V c).flushed 3 t = ((cfg0.win 3).blk t).view.read (Elt F) (res0_3 V c) := by
  obtain ⟨-, -, -, -, -, -, e0, e1⟩ := index0 t
  funext j
  have h0 : ((((cfg0.win 3).blk t).view.emb j) 0).val = t.val * 512 + (j 0).val := by
    show win0_3.index t (0 : Fin 2) * 512 + 1 * (j 0).val = _; rw [e0]; omega
  have h1 : ((((cfg0.win 3).blk t).view.emb j) 1).val = (j 1).val := by
    show win0_3.index t (1 : Fin 2) * 512 + 1 * (j 1).val = _; rw [e1]; omega
  refine Eq.trans ?_ (read_blk0_3 (res0_3 V c) t j).symm
  refine Eq.trans (b := bout0_3 V c t j) (congrFun (after0_3 V c t) _) ?_
  refine Eq.trans (congrArg (bout0_3 V c t) (ValueIdx.eq_ix2 j)) ?_
  exact (res0_3_apply V c t (j 0) (j 1) _ h0 h1).symm

/-- An index of a result array is in point t's block iff each coordinate is in the block's range on its axis. -/
theorem mem_blk0_2 (t : Fin cfg0.N) (i : S4096x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0_0).slice (win0_2.rect t)).set ↔ _
  rw [View.set_slice_whole, Rect.mem_set_unit]
  exact Iff.rfl
theorem mem_blk0_3 (t : Fin cfg0.N) (i : S4096x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0_1).slice (win0_3.rect t)).set ↔ _
  rw [View.set_slice_whole, Rect.mem_set_unit]
  exact Iff.rfl

/-- The blocks tile the rows: the point that covers row R is R / 512 (and every point writes back). -/
theorem cover0_2 (i : S4096x512.Idx) : ∃ t : Fin cfg0.N, (cfg0.win 2).flush t = true ∧ i ∈ ((cfg0.win 2).blk t).view.set := by
  obtain ⟨t, ht⟩ : ∃ t : Fin cfg0.N, t.val = (i 0).val / 512 := ⟨⟨_, point0_lt _ (i 0).isLt⟩, rfl⟩
  obtain ⟨-, -, -, -, e0, e1, -⟩ := index0 t
  have hi1 : (i 1).val < 512 := (i 1).isLt
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; rw [e0]; omega
  | ⟨1, _⟩ => show win0_2.index t (1 : Fin 2) * 512 ≤ (i 1).val ∧ (i 1).val < win0_2.index t (1 : Fin 2) * 512 + 512; rw [e1]; omega
theorem cover0_3 (i : S4096x512.Idx) : ∃ t : Fin cfg0.N, (cfg0.win 3).flush t = true ∧ i ∈ ((cfg0.win 3).blk t).view.set := by
  obtain ⟨t, ht⟩ : ∃ t : Fin cfg0.N, t.val = (i 0).val / 512 := ⟨⟨_, point0_lt _ (i 0).isLt⟩, rfl⟩
  obtain ⟨-, -, -, -, -, -, e0, e1⟩ := index0 t
  have hi1 : (i 1).val < 512 := (i 1).isLt
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; rw [e0]; omega
  | ⟨1, _⟩ => show win0_3.index t (1 : Fin 2) * 512 ≤ (i 1).val ∧ (i 1).val < win0_3.index t (1 : Fin 2) * 512 + 512; rw [e1]; omega

/-- THE RESULT ARRAYS after the 8 points, as functions of the index. -/
theorem arr0_2_eq (c : Dev nD) : (dat0 V c).arrAt 2 cfg0.N = res0_2 V c :=
  (dat0 V c).arrAt_eq_of_cover 2 (res0_2 V c) (fun t _ => flushed0_2_eq V c t) cover0_2
theorem arr0_3_eq (c : Dev nD) : (dat0 V c).arrAt 3 cfg0.N = res0_3 V c :=
  (dat0 V c).arrAt_eq_of_cover 3 (res0_3 V c) (fun t _ => flushed0_3_eq V c t) cover0_3

/-- ENTRY BY ENTRY: entry (R, k) of the first result is entry (R % 512, k) of what point R / 512 stored. -/
theorem arrAt0_2 (c : Dev nD) (R : Fin 4096) (k : Fin 512) :
    (dat0 V c).arrAt 2 cfg0.N (ix2 R k)
      = out0_2 (iblk0 V c 0 ⟨R.val / 512, point0_lt R.val R.isLt⟩) (ix2 (⟨R.val % 512, Nat.mod_lt _ (by decide)⟩ : Fin 512) k) := by
  rw [arr0_2_eq]
  exact res0_2_apply V c ⟨R.val / 512, point0_lt R.val R.isLt⟩ ⟨R.val % 512, Nat.mod_lt _ (by decide)⟩ k (ix2 R k)
    (Nat.div_add_mod' R.val 512).symm rfl
/-- The second result likewise. -/
theorem arrAt0_3 (c : Dev nD) (R : Fin 4096) (k : Fin 512) :
    (dat0 V c).arrAt 3 cfg0.N (ix2 R k)
      = out0_3 (iblk0 V c 1 ⟨R.val / 512, point0_lt R.val R.isLt⟩) (ix2 (⟨R.val % 512, Nat.mod_lt _ (by decide)⟩ : Fin 512) k) := by
  rw [arr0_3_eq]
  exact res0_3_apply V c ⟨R.val / 512, point0_lt R.val R.isLt⟩ ⟨R.val % 512, Nat.mod_lt _ (by decide)⟩ k (ix2 R k)
    (Nat.div_add_mod' R.val 512).symm rfl

end Cert.KernelIdeal.Hand

end
-- ==== Proof.BlockRead2.lean ====
/-
  The blocks the positive and the negative pairs' kernels read, and the arrays their results end in.

  At point t the positives' kernel reads rows 512 t … 512 t + 511 of each argument; the negatives' kernel reads rows
  1024 (t / 8) … of the stacked rows as its row block and rows 1024 (t % 8) … as its column block: the block indices are
  decided over the grid, and an element of a block sits in its array at block index times block size plus its own
  coordinate. Each kernel's result is a 1 x 1 array whose one block is written back at the last point only, so the
  array ends holding what the last point stored.
-/
import proofs.«157362_j60473139528480_1_alg».proof.Proof.Region1
import proofs.«157362_j60473139528480_1_alg».proof.Proof.Region2
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.ShloMosaic.ValueIdx (ix2)

variable {F : FTy → Type} [FloatOps F]

variable (V : (c : Dev nD) → (b : Ref sig .tc) → Buf (Elt F) ((c : Thread nD τ).loc b))

/-! ## The positives' blocks -/

/-- The block indices of the two argument windows, decided over the 8 points: block row the point's number, block
    column 0. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row t * 512 + r is a row of the argument. -/
theorem row2_lt (t : Fin cfg2.N) (r : Fin 512) : t.val * 512 + r.val < 4096 := by
  have hN : t.val < 8 := lt_of_lt_of_eq t.isLt (show cfg2.N = 8 from N_2)
  have := r.isLt
  omega

/-- Entry (r, k) of the first argument's block at point t is entry (512 t + r, k) of the argument. -/
theorem iblk2_0_apply (c : Dev nD) (t : Fin cfg2.N) (r k : Fin 512) :
    iblk2 V c 0 t (ix2 r k) = V c main_arg0 (ix2 ⟨t.val * 512 + r.val, row2_lt t r⟩ k) := by
  obtain ⟨e0, e1, -⟩ := index2 t
  unfold iblk2
  rw [View.read_apply]
  show V c main_arg0 _ = V c main_arg0 _
  refine congrArg (V c main_arg0) (funext fun a => Fin.ext ?_)
  match a with
  | ⟨0, _⟩ => show win2_0.index t (0 : Fin 2) * 512 + 1 * r.val = t.val * 512 + r.val; rw [e0]; omega
  | ⟨1, _⟩ => show win2_0.index t (1 : Fin 2) * 512 + 1 * k.val = k.val; rw [e1]; omega

/-- Entry (r, k) of the second argument's block at point t is entry (512 t + r, k) of the argument. -/
theorem iblk2_1_apply (c : Dev nD) (t : Fin cfg2.N) (r k : Fin 512) :
    iblk2 V c 1 t (ix2 r k) = V c main_arg1 (ix2 ⟨t.val * 512 + r.val, row2_lt t r⟩ k) := by
  obtain ⟨-, -, e0, e1⟩ := index2 t
  unfold iblk2
  rw [View.read_apply]
  show V c main_arg1 _ = V c main_arg1 _
  refine congrArg (V c main_arg1) (funext fun a => Fin.ext ?_)
  match a with
  | ⟨0, _⟩ => show win2_1.index t (0 : Fin 2) * 512 + 1 * r.val = t.val * 512 + r.val; rw [e0]; omega
  | ⟨1, _⟩ => show win2_1.index t (1 : Fin 2) * 512 + 1 * k.val = k.val; rw [e1]; omega

/-! ## The negatives' blocks -/

/-- The block indices of the row and the column window, decided over the 64 points: point t reads block row t / 8 as
    its rows and block row t % 8 as its columns. -/
theorem index1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0 :=
  (by decide +kernel : ∀ t : Fin grid1.N, _)

theorem row1_0_lt (t : Fin cfg1.N) (p : Fin 1024) : (t.val / 8) * 1024 + p.val < 8192 := by
  have hN : t.val < 64 := lt_of_lt_of_eq t.isLt (show cfg1.N = 64 from N_1)
  have := p.isLt
  omega

theorem row1_1_lt (t : Fin cfg1.N) (q : Fin 1024) : (t.val % 8) * 1024 + q.val < 8192 := by
  have := q.isLt
  omega

/-- Entry (p, k) of the row block at point t is entry (1024 (t / 8) + p, k) of the stacked rows. -/
theorem iblk1_0_apply (c : Dev nD) (t : Fin cfg1.N) (p : Fin 1024) (k : Fin 512) :
    iblk1 V c 0 t (ix2 p k) = V c main_v1 (ix2 ⟨(t.val / 8) * 1024 + p.val, row1_0_lt t p⟩ k) := by
  obtain ⟨e0, e1, -⟩ := index1 t
  unfold iblk1
  rw [View.read_apply]
  show V c main_v1 _ = V c main_v1 _
  refine congrArg (V c main_v1) (funext fun a => Fin.ext ?_)
  match a with
  | ⟨0, _⟩ => show win1_0.index t (0 : Fin 2) * 1024 + 1 * p.val = (t.val / 8) * 1024 + p.val; rw [e0]; omega
  | ⟨1, _⟩ => show win1_0.index t (1 : Fin 2) * 512 + 1 * k.val = k.val; rw [e1]; omega

/-- Entry (q, k) of the column block at point t is entry (1024 (t % 8) + q, k) of the stacked rows. -/
theorem iblk1_1_apply (c : Dev nD) (t : Fin cfg1.N) (q : Fin 1024) (k : Fin 512) :
    iblk1 V c 1 t (ix2 q k) = V c main_v1 (ix2 ⟨(t.val % 8) * 1024 + q.val, row1_1_lt t q⟩ k) := by
  obtain ⟨-, -, e0, e1⟩ := index1 t
  unfold iblk1
  rw [View.read_apply]
  show V c main_v1 _ = V c main_v1 _
  refine congrArg (V c main_v1) (funext fun a => Fin.ext ?_)
  match a with
  | ⟨0, _⟩ => show win1_1.index t (0 : Fin 2) * 1024 + 1 * q.val = (t.val % 8) * 1024 + q.val; rw [e0]; omega
  | ⟨1, _⟩ => show win1_1.index t (1 : Fin 2) * 512 + 1 * k.val = k.val; rw [e1]; omega

/-! ## The results' arrays -/

/-- The result windows' block index is (0, 0) at every point: the block is the whole 1 x 1 array. -/
theorem index2_2 : ∀ t : Fin cfg2.N, win2_2.index t (0 : Fin 2) = 0 ∧ win2_2.index t (1 : Fin 2) = 0 :=
  (by decide +kernel : ∀ t : Fin grid2.N, _)
theorem index1_2 : ∀ t : Fin cfg1.N, win1_2.index t (0 : Fin 2) = 0 ∧ win1_2.index t (1 : Fin 2) = 0 :=
  (by decide +kernel : ∀ t : Fin grid1.N, _)

/-- The one entry of the positives' result block sits at the same index of the array. -/
theorem emb2_2 (t : Fin cfg2.N) (j : S1x1.Idx) : ((cfg2.win 2).blk t).view.emb j = j := by
  obtain ⟨e0, e1⟩ := index2_2 t
  refine funext fun a => Fin.ext ?_
  match a with
  | ⟨0, _⟩ => show win2_2.index t (0 : Fin 2) * 1 + 1 * (j 0).val = (j 0).val; rw [e0]; omega
  | ⟨1, _⟩ => show win2_2.index t (1 : Fin 2) * 1 + 1 * (j 1).val = (j 1).val; rw [e1]; omega

/-- The one entry of the negatives' result block sits at the same index of the array. -/
theorem emb1_2 (t : Fin cfg1.N) (j : S1x1.Idx) : ((cfg1.win 2).blk t).view.emb j = j := by
  obtain ⟨e0, e1⟩ := index1_2 t
  refine funext fun a => Fin.ext ?_
  match a with
  | ⟨0, _⟩ => show win1_2.index t (0 : Fin 2) * 1 + 1 * (j 0).val = (j 0).val; rw [e0]; omega
  | ⟨1, _⟩ => show win1_2.index t (1 : Fin 2) * 1 + 1 * (j 1).val = (j 1).val; rw [e1]; omega

/-- The positives' result array ends holding what the last point stored: only the last point writes its block back, and
    that block is the whole array. -/
theorem arrAt2_2 (c : Dev nD) (h : 7 < cfg2.N) : (dat2 V c).arrAt 2 cfg2.N = (outsAt2 V c 7 h).1 := by
  refine Dat.arrAt_eq_of_cover (dat2 V c) 2 (outsAt2 V c 7 h).1 (fun t hf => ?_) (fun i => ?_)
  · have ht : t = ⟨7, h⟩ := Fin.ext (by
      have h1 := (flush2_2 t).mp hf
      have h2 := lt_of_lt_of_eq t.isLt (show cfg2.N = 8 from N_2)
      show t.val = 7
      omega)
    subst ht
    funext j
    refine (congrFun (after2_2 V c ⟨7, h⟩) j).trans ?_
    show (outsAt2 V c 7 h).1 j = (outsAt2 V c 7 h).1 (((cfg2.win 2).blk ⟨7, h⟩).view.emb j)
    rw [emb2_2]
  · refine ⟨⟨7, h⟩, (flush2_2 _).mpr rfl, ?_⟩
    have hm := ((cfg2.win 2).blk ⟨7, h⟩).view.emb_mem_set i
    rw [emb2_2] at hm
    exact hm

/-- The negatives' result array ends holding what the last point stored. -/
theorem arrAt1_2 (c : Dev nD) (h : 63 < cfg1.N) : (dat1 V c).arrAt 2 cfg1.N = (outsAt1 V c 63 h).1 := by
  refine Dat.arrAt_eq_of_cover (dat1 V c) 2 (outsAt1 V c 63 h).1 (fun t hf => ?_) (fun i => ?_)
  · have ht : t = ⟨63, h⟩ := Fin.ext (by
      have h1 := (flush1_2 t).mp hf
      have h2 := lt_of_lt_of_eq t.isLt (show cfg1.N = 64 from N_1)
      show t.val = 63
      omega)
    subst ht
    funext j
    refine (congrFun (after1_2 V c ⟨63, h⟩) j).trans ?_
    show (outsAt1 V c 63 h).1 j = (outsAt1 V c 63 h).1 (((cfg1.win 2).blk ⟨63, h⟩).view.emb j)
    rw [emb1_2]
  · refine ⟨⟨63, h⟩, (flush1_2 _).mpr rfl, ?_⟩
    have hm := ((cfg1.win 2).blk ⟨63, h⟩).view.emb_mem_set i
    rw [emb1_2] at hm
    exact hm

end Cert.KernelIdeal.Hand

end
-- ==== Proof.SpecLaw.lean ====
/-
  The law that joins the two written forms of the contrastive similarity loss (Spec.lean): the tiled, blocked
  form and the whole-matrix form denote the same extended real whenever every entry of the two inputs is a real
  number and no row is zero.

  The argument, in the order of the file:
  * the five literals are 1/2, 1, 4096, 8192 and 49152;
  * a finite sum of real numbers, read in the extended reals, is the real sum; so a row's sum of squares is a
    positive real, its square root a positive real, every normalised entry a real, every similarity a real, and
    every term log (1 + exp u) a real (1 + exp u is positive);
  * a sum over 8192 = 8 * 1024 stacked rows is the sum over 8 blocks of the sums over a block's 1024 rows (and
    4096 = 8 * 512 likewise), and a sum over 8192 = 4096 + 4096 is the sum of its two halves;
  * positives: the similarity matrix at (k, k + 4096) and at (k + 4096, k) is the product of X's and Y's
    normalised rows k, so the reference's 8192 terms are the kernel's 4096 terms twice, and (S + S) / 8192 =
    S / 4096 for a real S;
  * negatives: a masked diagonal entry is log (1 + 0 * e) = 0 and a masked off-diagonal entry is the plain term;
    a diagonal tile's sum less the sum of its diagonal is, the terms being real, the sum of its off-diagonal
    entries, and a tile off the block diagonal holds no diagonal entry of the big matrix; so both sides are the
    sum of the terms over all pairs a ≠ b.
-/
import proofs.«157362_j60473139528480_1_alg».proof.Proof.Spec

noncomputable section

namespace Cert.Spec

open Idealize.ShloMosaic

/-! ### The literals -/

theorem half_eq : half = ((1 / 2 : ℝ) : EReal) := by
  simp [half, Ideal.ofBits, Ideal.ieee, -EReal.coe_mul]; norm_num

theorem one_eq : one = 1 := by
  simp [one, Ideal.ofBits, Ideal.ieee, -EReal.coe_mul]; norm_num

theorem c4096_eq : c4096 = ((4096 : ℝ) : EReal) := by
  simp [c4096, Ideal.ofBits, Ideal.ieee, -EReal.coe_mul]; norm_num

theorem c8192_eq : c8192 = ((8192 : ℝ) : EReal) := by
  simp [c8192, Ideal.ofBits, Ideal.ieee, -EReal.coe_mul]; norm_num

theorem c49152_eq : c49152 = ((49152 : ℝ) : EReal) := by
  simp [c49152, Ideal.ofBits, Ideal.ieee, -EReal.coe_mul]; norm_num

/-! ### Real numbers inside the extended reals -/

/-- The extended-real reading of a finite sum of reals is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem real_sum {ι : Type*} [Fintype ι] {f : ι → EReal} (h : ∀ i, ∃ u : ℝ, f i = (u : EReal)) :
    ∃ w : ℝ, ∑ i, f i = (w : EReal) := by
  choose u hu using h
  exact ⟨∑ i, u i, by rw [coe_sum]; exact Finset.sum_congr rfl (fun i _ => hu i)⟩

/-- A product of reals is a real. -/
theorem real_mul {a b : EReal} (ha : ∃ u : ℝ, a = (u : EReal)) (hb : ∃ v : ℝ, b = (v : EReal)) :
    ∃ w : ℝ, a * b = (w : EReal) := by
  obtain ⟨u, rfl⟩ := ha
  obtain ⟨v, rfl⟩ := hb
  exact ⟨u * v, (EReal.coe_mul u v).symm⟩

/-- log (1 + exp u) of a real u is a real: 1 + exp u is positive. -/
theorem real_softplus (u : ℝ) : ∃ w : ℝ, Ideal.log1p (Ideal.exp (u : EReal)) = (w : EReal) := by
  refine ⟨Real.log (1 + Real.exp u), ?_⟩
  have hpos : ¬ (1 + Real.exp u ≤ 0) := by
    have := Real.exp_pos u
    linarith
  rw [Ideal.log1p, Ideal.exp_coe, ← EReal.coe_one, ← EReal.coe_add, Ideal.log_coe, if_neg hpos]

/-! ### Every quantity of the loss is a real number -/

section Real

variable (X Y : Mat)

/-- A normalised entry is a real: the row's sum of squares is a positive real, so its square root is a nonzero real. -/
theorem real_z (hX : ∀ r k, ∃ u : ℝ, X r k = (u : EReal)) (hp : ∀ r, 0 < ss X r) (r : Fin 4096) (k : Fin 512) :
    ∃ u : ℝ, z X r k = (u : EReal) := by
  choose x hx using hX
  have hss : ss X r = ((∑ k, x r k * x r k : ℝ) : EReal) := by
    rw [coe_sum]
    unfold ss
    refine Finset.sum_congr rfl (fun k _ => ?_)
    rw [hx, EReal.coe_mul]
  have hpos : 0 < ∑ k, x r k * x r k := by
    have h := hp r
    rw [hss] at h
    exact_mod_cast h
  have hsq : 0 < Real.sqrt (∑ k, x r k * x r k) := Real.sqrt_pos.mpr hpos
  refine ⟨x r k * (1 / Real.sqrt (∑ k, x r k * x r k)), ?_⟩
  rw [z, hss, Ideal.sqrt_coe, if_neg (not_lt.mpr hpos.le), Ideal.div_coe hsq.ne', hx, EReal.coe_mul]

variable (hX : ∀ r k, ∃ u : ℝ, X r k = (u : EReal)) (hY : ∀ r k, ∃ u : ℝ, Y r k = (u : EReal))
  (hpX : ∀ r, 0 < ss X r) (hpY : ∀ r, 0 < ss Y r)

include hX hY hpX hpY

theorem real_reps (a : Fin 8192) (k : Fin 512) : ∃ u : ℝ, reps X Y a k = (u : EReal) := by
  unfold reps
  split
  · exact real_z X hX hpX _ _
  · exact real_z Y hY hpY _ _

theorem real_sim (a b : Fin 8192) : ∃ u : ℝ, sim X Y a b = (u : EReal) :=
  real_sum (fun k => real_mul (real_reps X Y hX hY hpX hpY a k) (real_reps X Y hX hY hpX hpY b k))

theorem real_term (a b : Fin 8192) : ∃ u : ℝ, term X Y a b = (u : EReal) := by
  obtain ⟨u, hu⟩ := real_sim X Y hX hY hpX hpY a b
  rw [term, hu, half_eq, ← EReal.coe_sub]
  exact real_softplus _

theorem real_pv (r : Fin 4096) : ∃ u : ℝ, pv X Y r = (u : EReal) :=
  real_sum (fun k => real_mul (real_z X hX hpX r k) (real_z Y hY hpY r k))

theorem real_pterm (r : Fin 4096) : ∃ u : ℝ, pterm (pv X Y r) = (u : EReal) := by
  obtain ⟨u, hu⟩ := real_pv X Y hX hY hpX hpY r
  rw [pterm, hu, half_eq, ← EReal.coe_neg, ← EReal.coe_add]
  exact real_softplus _

end Real

/-! ### Sums over blocks and over halves -/

/-- A sum over n * m indices is the sum over n blocks of the sums over a block's m indices, the index of
    entry p of block i being i * m + p. -/
theorem sum_blocks {M : Type*} [AddCommMonoid M] {N n m : ℕ} (hN : N = n * m) (G : Fin N → M)
    (ix : Fin n → Fin m → Fin N) (hix : ∀ i p, (ix i p).val = i.val * m + p.val) :
    ∑ i, ∑ p, G (ix i p) = ∑ a, G a := by
  subst hN
  calc ∑ i, ∑ p, G (ix i p) = ∑ x : Fin n × Fin m, G (ix x.1 x.2) := (Fintype.sum_prod_type' (fun i p => G (ix i p))).symm
    _ = ∑ a, G a := by
        refine Fintype.sum_equiv finProdFinEquiv _ _ (fun x => ?_)
        congr 1
        apply Fin.ext
        rw [hix, finProdFinEquiv_apply_val]
        ring

/-- A sum over n + n indices is the sum over the first n plus the sum over the last n. -/
theorem sum_halves {M : Type*} [AddCommMonoid M] {N n : ℕ} (hN : N = n + n) (G : Fin N → M)
    (lo hi : Fin n → Fin N) (hlo : ∀ r, (lo r).val = r.val) (hhi : ∀ r, (hi r).val = r.val + n) :
    ∑ a, G a = ∑ r, G (lo r) + ∑ r, G (hi r) := by
  subst hN
  rw [Fin.sum_univ_add]
  congr 1
  · refine Finset.sum_congr rfl (fun r _ => ?_)
    congr 1
    apply Fin.ext
    rw [hlo, Fin.val_castAdd]
  · refine Finset.sum_congr rfl (fun r _ => ?_)
    congr 1
    apply Fin.ext
    rw [hhi, Fin.val_natAdd, add_comm]

/-- A double sum over pairs of n * m indices, tile by tile. -/
theorem sum_tiles {M : Type*} [AddCommMonoid M] {N n m : ℕ} (hN : N = n * m) (F : Fin N → Fin N → M)
    (ix : Fin n → Fin m → Fin N) (hix : ∀ i p, (ix i p).val = i.val * m + p.val) :
    ∑ i, ∑ j, ∑ p, ∑ q, F (ix i p) (ix j q) = ∑ a, ∑ b, F a b := by
  rw [← sum_blocks hN (fun a => ∑ b, F a b) ix hix]
  refine Finset.sum_congr rfl (fun i _ => ?_)
  rw [Finset.sum_comm]
  refine Finset.sum_congr rfl (fun p _ => ?_)
  exact sum_blocks hN (fun b => F (ix i p) b) ix hix

/-- With real entries, a square tile's sum less the sum of its diagonal is the sum of its off-diagonal entries. -/
theorem sub_diag {m : ℕ} (t : Fin m → Fin m → ℝ) :
    (∑ p, ∑ q, (t p q : EReal)) - (∑ p, ∑ q, if p.val = q.val then (t p q : EReal) else 0)
      = ∑ p, ∑ q, if p = q then (0 : EReal) else (t p q : EReal) := by
  have h1 : (∑ p, ∑ q, (t p q : EReal)) = ((∑ p, ∑ q, t p q : ℝ) : EReal) := by
    rw [coe_sum]
    exact Finset.sum_congr rfl (fun p _ => (coe_sum _ _).symm)
  have h2 : (∑ p, ∑ q, if p.val = q.val then (t p q : EReal) else 0)
      = ((∑ p, ∑ q, if p = q then t p q else 0 : ℝ) : EReal) := by
    rw [coe_sum]
    refine Finset.sum_congr rfl (fun p _ => ?_)
    rw [coe_sum]
    refine Finset.sum_congr rfl (fun q _ => ?_)
    by_cases h : p = q
    · rw [if_pos h, if_pos (congrArg Fin.val h)]
    · rw [if_neg h, if_neg (fun hv => h (Fin.ext hv)), EReal.coe_zero]
  have h3 : (∑ p, ∑ q, if p = q then (0 : EReal) else (t p q : EReal))
      = ((∑ p, ∑ q, if p = q then 0 else t p q : ℝ) : EReal) := by
    rw [coe_sum]
    refine Finset.sum_congr rfl (fun p _ => ?_)
    rw [coe_sum]
    refine Finset.sum_congr rfl (fun q _ => ?_)
    by_cases h : p = q
    · rw [if_pos h, if_pos h, EReal.coe_zero]
    · rw [if_neg h, if_neg h]
  rw [h1, h2, h3, ← EReal.coe_sub, ← Finset.sum_sub_distrib]
  congr 1
  refine Finset.sum_congr rfl (fun p _ => ?_)
  rw [← Finset.sum_sub_distrib]
  refine Finset.sum_congr rfl (fun q _ => ?_)
  by_cases h : p = q
  · rw [if_pos h, if_pos h, sub_self]
  · rw [if_neg h, if_neg h, sub_zero]

/-! ### The positive pairs -/

section Positives

variable (X Y : Mat)

/-- Stacked row a below 4096 is X's normalised row a. -/
theorem reps_lo (a : Fin 8192) (r : Fin 4096) (h : a.val = r.val) (k : Fin 512) : reps X Y a k = z X r k := by
  have hlt : a.val < 4096 := by omega
  unfold reps
  rw [dif_pos hlt]
  congr 1
  exact Fin.ext h

/-- Stacked row r + 4096 is Y's normalised row r. -/
theorem reps_hi (a : Fin 8192) (r : Fin 4096) (h : a.val = r.val + 4096) (k : Fin 512) : reps X Y a k = z Y r k := by
  have hge : ¬ a.val < 4096 := by omega
  have hr : (⟨a.val - 4096, by omega⟩ : Fin 4096) = r := Fin.ext (by show a.val - 4096 = r.val; omega)
  unfold reps
  rw [dif_neg hge, hr]

/-- The similarity matrix at (r, r + 4096) is the product of X's and Y's normalised rows r. -/
theorem gathered_lo (a : Fin 8192) (r : Fin 4096) (h : a.val = r.val) : gathered X Y a = pv X Y r := by
  have hlt : a.val < 4096 := by omega
  unfold gathered
  rw [dif_pos hlt]
  unfold sim pv
  refine Finset.sum_congr rfl (fun k _ => ?_)
  rw [reps_lo X Y a r h, reps_hi X Y _ r (by show a.val + 4096 = r.val + 4096; omega)]

/-- The similarity matrix at (r + 4096, r) is the same product, its factors exchanged. -/
theorem gathered_hi (a : Fin 8192) (r : Fin 4096) (h : a.val = r.val + 4096) : gathered X Y a = pv X Y r := by
  have hge : ¬ a.val < 4096 := by omega
  unfold gathered
  rw [dif_neg hge]
  unfold sim pv
  refine Finset.sum_congr rfl (fun k _ => ?_)
  rw [reps_hi X Y a r h, reps_lo X Y _ r (by show a.val - 4096 = r.val; omega), mul_comm]

/-- Row r of the first half of the stacked rows, and row r of the second half. -/
def loIx (r : Fin 4096) : Fin 8192 := ⟨r.val, by omega⟩
def hiIx (r : Fin 4096) : Fin 8192 := ⟨r.val + 4096, by omega⟩

/-- The reference's 8192 positive terms are the 4096 row products' terms, twice. -/
theorem positives_ref :
    ∑ k : Fin 8192, pterm (gathered X Y k) = ∑ r : Fin 4096, pterm (pv X Y r) + ∑ r : Fin 4096, pterm (pv X Y r) := by
  refine (sum_halves (N := 8192) (n := 4096) (by norm_num) (fun k => pterm (gathered X Y k))
    loIx hiIx (fun _ => rfl) (fun _ => rfl)).trans ?_
  have h1 : ∀ r : Fin 4096, pterm (gathered X Y (loIx r)) = pterm (pv X Y r) :=
    fun r => congrArg pterm (gathered_lo X Y (loIx r) r rfl)
  have h2 : ∀ r : Fin 4096, pterm (gathered X Y (hiIx r)) = pterm (pv X Y r) :=
    fun r => congrArg pterm (gathered_hi X Y (hiIx r) r rfl)
  exact congrArg₂ (fun a b : EReal => a + b) (Finset.sum_congr rfl (fun r _ => h1 r))
    (Finset.sum_congr rfl (fun r _ => h2 r))

/-- The kernel's 8 blocks of 512 positive terms are the 4096 row products' terms. -/
theorem positives_ker :
    ∑ t : Fin 8, ∑ r : Fin 512, pterm (pv X Y (rowIx t r)) = ∑ r : Fin 4096, pterm (pv X Y r) :=
  sum_blocks (n := 8) (m := 512) (by norm_num) (fun r => pterm (pv X Y r)) rowIx (fun _ _ => rfl)

/-- For a real S, (S + S) / 8192 = S / 4096. -/
theorem halve (s : ℝ) : Ideal.div ((s : EReal) + (s : EReal)) c8192 = Ideal.div (s : EReal) c4096 := by
  rw [c8192_eq, c4096_eq, Ideal.div_coe (by norm_num), Ideal.div_coe (by norm_num), ← EReal.coe_add,
    ← EReal.coe_mul, ← EReal.coe_mul]
  congr 1
  ring

end Positives

/-! ### The negative pairs -/

section Negatives

variable (X Y : Mat)

/-- A masked entry of the reference: zero on the diagonal (log (1 + 0 * e) = 0), the plain term off it. -/
theorem masked_entry (a b : Fin 8192) :
    Ideal.log1p (mask a b * Ideal.exp (sim X Y a b - half)) = if a = b then 0 else term X Y a b := by
  by_cases h : a = b
  · have h0 : mask a b = 0 := by
      rw [mask, if_pos (congrArg Fin.val h), one_eq, ← EReal.coe_one, ← EReal.coe_sub, sub_self, EReal.coe_zero]
    rw [if_pos h, h0, zero_mul, Ideal.log1p, add_zero, ← EReal.coe_one, Ideal.log_coe,
      if_neg (by norm_num), Real.log_one, EReal.coe_zero]
  · have h1 : mask a b = 1 := by
      rw [mask, if_neg (fun hv => h (Fin.ext hv)), one_eq, sub_zero]
    rw [if_neg h, h1, one_mul, term]

/-- Two stacked rows given by tile and row within the tile coincide exactly when both coordinates do. -/
theorem tileIx_eq_iff (i j : Fin 8) (p q : Fin 1024) : tileIx i p = tileIx j q ↔ i = j ∧ p = q := by
  constructor
  · intro h
    have hv : i.val * 1024 + p.val = j.val * 1024 + q.val := congrArg Fin.val h
    have hp := p.isLt
    have hq := q.isLt
    exact ⟨Fin.ext (by omega), Fin.ext (by omega)⟩
  · rintro ⟨rfl, rfl⟩
    rfl

/-- What a tile adds, the terms being real: the sum of its entries that are off the big matrix's diagonal. -/
theorem tile_eq (hT : ∀ a b, ∃ u : ℝ, term X Y a b = (u : EReal)) (i j : Fin 8) :
    tile X Y i j = ∑ p : Fin 1024, ∑ q : Fin 1024,
      if tileIx i p = tileIx j q then 0 else term X Y (tileIx i p) (tileIx j q) := by
  choose τ hτ using hT
  by_cases hij : i = j
  · subst hij
    rw [tile, if_pos rfl, blockSum, diagSum]
    simp only [hτ, tileIx_eq_iff, true_and]
    exact sub_diag (fun p q => τ (tileIx i p) (tileIx i q))
  · rw [tile, if_neg (fun hv => hij (Fin.ext hv)), blockSum]
    refine Finset.sum_congr rfl (fun p _ => Finset.sum_congr rfl (fun q _ => ?_))
    rw [if_neg (fun h => hij ((tileIx_eq_iff i j p q).mp h).1)]

/-- The kernel's 64 tiles together hold the terms of all pairs of distinct stacked rows. -/
theorem negatives_ker (hT : ∀ a b, ∃ u : ℝ, term X Y a b = (u : EReal)) :
    ∑ i : Fin 8, ∑ j : Fin 8, tile X Y i j = ∑ a : Fin 8192, ∑ b : Fin 8192, if a = b then 0 else term X Y a b := by
  rw [← sum_tiles (n := 8) (m := 1024) (by norm_num) (fun a b => if a = b then 0 else term X Y a b) tileIx
    (fun _ _ => rfl)]
  exact Finset.sum_congr rfl (fun i _ => Finset.sum_congr rfl (fun j _ => tile_eq X Y hT i j))

/-- The reference's masked sum holds the same terms. -/
theorem negatives_ref :
    ∑ a : Fin 8192, ∑ b : Fin 8192, Ideal.log1p (mask a b * Ideal.exp (sim X Y a b - half))
      = ∑ a : Fin 8192, ∑ b : Fin 8192, if a = b then 0 else term X Y a b :=
  Finset.sum_congr rfl (fun a _ => Finset.sum_congr rfl (fun b _ => masked_entry X Y a b))

end Negatives

/-! ### The law -/

/-- The tiled, blocked form and the whole-matrix form of the loss agree on real inputs with no zero row. -/
theorem value_eq (X Y : Mat)
    (hX : ∀ r k, ∃ u : ℝ, X r k = (u : EReal)) (hY : ∀ r k, ∃ u : ℝ, Y r k = (u : EReal))
    (hpX : ∀ r, 0 < ss X r) (hpY : ∀ r, 0 < ss Y r) :
    kernelValue X Y = referenceValue X Y := by
  obtain ⟨s, hs⟩ := real_sum (real_pterm X Y hX hY hpX hpY)
  rw [kernelValue, referenceValue, positives_ker, positives_ref, hs, halve,
    negatives_ker X Y (real_term X Y hX hY hpX hpY), negatives_ref]

end Cert.Spec

end
-- ==== Proof.KernelValue.lean ====
/-
  The three kernels' results as the specification's sums, on the extended reals.

  * The normalisation kernel: row R of an argument lies in block R / 512 at row R % 512, and the block is stored divided
    row by row by the row's Euclidean norm; so each result array holds the argument's normalised entries.
  * The positive pairs' kernel: point t adds to a 1 x 1 accumulator the sum, over the 512 rows of block t, of the positive
    term of the product of the two arguments' normalised rows. The accumulator starts from zero at the first point, so
    after point n it holds the sum of the blocks up to n (a running sum in an additive commutative monoid is the finite
    sum); the last point stores it divided by 4096.
  * The negative pairs' kernel: point t = 8 i + j reads rows i * 1024 + p and j * 1024 + q of the stacked normalised rows,
    so the entry (p, q) of its tile of terms is the negative pair's term of those two stacked rows; a point on the block
    diagonal adds the tile's sum less the sum of the tile's diagonal, another point the tile's sum. After point n the
    accumulator holds the sum of the tiles up to n, the 64 points are the 8 x 8 tiles, and the last point stores the
    accumulator divided by 49152.
-/
import proofs.«157362_j60473139528480_1_alg».proof.Proof.Region0
import proofs.«157362_j60473139528480_1_alg».proof.Proof.Region1
import proofs.«157362_j60473139528480_1_alg».proof.Proof.Region2
import proofs.«157362_j60473139528480_1_alg».proof.Proof.PayRead
import proofs.«157362_j60473139528480_1_alg».proof.Proof.PieceRead
import proofs.«157362_j60473139528480_1_alg».proof.Proof.BlockRead
import proofs.«157362_j60473139528480_1_alg».proof.Proof.BlockRead2
import proofs.«157362_j60473139528480_1_alg».proof.Proof.SpecLaw
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)

/-! ## A running sum -/

/-- An accumulator that starts from zero plus the first block and adds a block at every later point holds, after point n,
    the sum of the blocks up to n. -/
theorem acc_eq_sum {N : ℕ} (acc : (n : ℕ) → n < N → EReal) (b : ℕ → EReal)
    (h0 : ∀ h : 0 < N, acc 0 h = 0 + b 0)
    (hs : ∀ n (h : n + 1 < N), acc (n + 1) h = acc n (Nat.lt_of_succ_lt h) + b (n + 1)) :
    ∀ n (h : n < N), acc n h = ∑ t ∈ Finset.range (n + 1), b t := by
  intro n
  induction n with
  | zero => intro h; rw [h0 h, zero_add, Finset.sum_range_one]
  | succ n ih => intro h; rw [hs n h, ih (Nat.lt_of_succ_lt h), ← Finset.sum_range_succ]

/-! ## The normalisation kernel -/

section K0
variable (V : (c : Dev nD) → (b : Ref sig .tc) → Buf (Elt Ideal) ((c : Thread nD τ).loc b)) (c : Dev nD)

/-- (K0) The first result array holds the first argument's normalised entries: row R lies in block R / 512 at row
    R % 512, and the block is stored divided row by row by the row's Euclidean norm. -/
theorem k0_value_X (R : Fin 4096) (k : Fin 512) :
    (dat0 V c).arrAt 2 cfg0.N (ix2 R k) = Cert.Spec.z (fun r k => V c main_arg0 (ix2 r k)) R k := by
  have hb : R.val / 512 < cfg0.N := by rw [show cfg0.N = 8 from N_0]; omega
  have hb' : R.val % 512 < 512 := by omega
  have e := fun k' : Fin 512 => (iblk0_0_apply V c ⟨R.val / 512, hb⟩ ⟨R.val % 512, hb'⟩ k').trans
    (congrArg (fun R' : Fin 4096 => V c main_arg0 (ix2 R' k'))
      (Fin.ext (by show R.val / 512 * 512 + R.val % 512 = R.val; omega) : (⟨_, _⟩ : Fin 4096) = R))
  refine (arrAt0_2 V c R k).trans ?_
  rw [out0_2_eq]
  refine (PayRead.k0_pay1_apply _ _ _).trans ?_
  unfold Cert.Spec.z Cert.Spec.ss
  simp only [e]

/-- (K0) The second result array holds the second argument's normalised entries. -/
theorem k0_value_Y (R : Fin 4096) (k : Fin 512) :
    (dat0 V c).arrAt 3 cfg0.N (ix2 R k) = Cert.Spec.z (fun r k => V c main_arg1 (ix2 r k)) R k := by
  have hb : R.val / 512 < cfg0.N := by rw [show cfg0.N = 8 from N_0]; omega
  have hb' : R.val % 512 < 512 := by omega
  have e := fun k' : Fin 512 => (iblk0_1_apply V c ⟨R.val / 512, hb⟩ ⟨R.val % 512, hb'⟩ k').trans
    (congrArg (fun R' : Fin 4096 => V c main_arg1 (ix2 R' k'))
      (Fin.ext (by show R.val / 512 * 512 + R.val % 512 = R.val; omega) : (⟨_, _⟩ : Fin 4096) = R))
  refine (arrAt0_3 V c R k).trans ?_
  rw [out0_3_eq]
  refine (PayRead.k0_pay2_apply _ _ _).trans ?_
  unfold Cert.Spec.z Cert.Spec.ss
  simp only [e]

end K0

/-! ## The positive pairs' kernel -/

section K2
variable (V : (c : Dev nD) → (b : Ref sig .tc) → Buf (Elt Ideal) ((c : Thread nD τ).loc b)) (c : Dev nD)

/-- The two arguments as matrices of extended reals. -/
abbrev argX : Cert.Spec.Mat := fun r k => V c main_arg0 (ix2 r k)
abbrev argY : Cert.Spec.Mat := fun r k => V c main_arg1 (ix2 r k)

/-- Block n's sum of positive terms (zero past the grid). -/
def pos2 (n : ℕ) : EReal :=
  if h : n < 8 then ∑ r : Fin 512, Cert.Spec.pterm (Cert.Spec.pv (argX V c) (argY V c) (Cert.Spec.rowIx ⟨n, h⟩ r)) else 0

/-- What a point adds: the sum over the block's 512 rows of the positive term of the two normalised rows' product. -/
theorem block2_apply (t : Fin cfg2.N) (a : Vec Ideal S1x1 .f32) :
    k2_pay2 (F := Ideal) (iblk2 V c 0 t) (iblk2 V c 1 t) a (ix2 (0 : Fin 1) (0 : Fin 1))
      = a (ix2 (0 : Fin 1) (0 : Fin 1)) + pos2 V c t.val := by
  have ht : t.val < 8 := lt_of_lt_of_eq t.isLt (show cfg2.N = 8 from N_2)
  refine (PayRead.k2_pay2_apply (iblk2 V c 0 t) (iblk2 V c 1 t) a).trans ?_
  rw [pos2, dif_pos ht]
  refine congrArg (a (ix2 (0 : Fin 1) (0 : Fin 1)) + ·) (Finset.sum_congr rfl fun r _ => congrArg Cert.Spec.pterm ?_)
  have e0 : ∀ k : Fin 512, iblk2 V c 0 t (ix2 r k) = argX V c (Cert.Spec.rowIx ⟨t.val, ht⟩ r) k := fun k =>
    (iblk2_0_apply V c t r k).trans (congrArg (fun R : Fin 4096 => V c main_arg0 (ix2 R k)) (Fin.ext rfl))
  have e1 : ∀ k : Fin 512, iblk2 V c 1 t (ix2 r k) = argY V c (Cert.Spec.rowIx ⟨t.val, ht⟩ r) k := fun k =>
    (iblk2_1_apply V c t r k).trans (congrArg (fun R : Fin 4096 => V c main_arg1 (ix2 R k)) (Fin.ext rfl))
  unfold Cert.Spec.pv Cert.Spec.z Cert.Spec.ss
  simp only [e0, e1]

/-- The accumulator's entry after point n. -/
def acc2 (n : ℕ) (h : n < cfg2.N) : EReal := (outsAt2 V c n h).2 (ix2 (0 : Fin 1) (0 : Fin 1))

theorem acc2_zero (h : 0 < cfg2.N) : acc2 V c 0 h = 0 + pos2 V c 0 := by
  unfold acc2
  rw [outsAt2_A V c ⟨0, h⟩ rfl (show ¬ (0 : ℕ) % 8 = 7 by decide), sout2_A_0_eq]
  refine (block2_apply V c ⟨0, h⟩ _).trans ?_
  rw [PayRead.k2_pay1_apply]

theorem acc2_succ (n : ℕ) (h : n + 1 < cfg2.N) : acc2 V c (n + 1) h = acc2 V c n (Nat.lt_of_succ_lt h) + pos2 V c (n + 1) := by
  unfold acc2
  have h0 : ¬ (⟨n + 1, h⟩ : Fin cfg2.N).val % 8 = 0 := by
    have := lt_of_lt_of_eq h (show cfg2.N = 8 from N_2); show ¬ (n + 1) % 8 = 0; omega
  by_cases h1 : (⟨n + 1, h⟩ : Fin cfg2.N).val % 8 = 7
  · rw [outsAt2_C V c ⟨n + 1, h⟩ h0 h1, sout2_C_0_eq]
    exact block2_apply V c ⟨n + 1, h⟩ _
  · rw [outsAt2_B V c ⟨n + 1, h⟩ h0 h1, sout2_B_0_eq]
    exact block2_apply V c ⟨n + 1, h⟩ _

/-- (K2) The positive pairs' kernel leaves, in its result, the sum of the 8 blocks' positive terms divided by 4096. -/
theorem k2_value (h : 7 < cfg2.N) :
    (outsAt2 V c 7 h).1 (ix2 (0 : Fin 1) (0 : Fin 1))
      = Ideal.div (∑ t : Fin 8, ∑ r : Fin 512, Cert.Spec.pterm (Cert.Spec.pv (fun r k => V c main_arg0 (ix2 r k))
          (fun r k => V c main_arg1 (ix2 r k)) (Cert.Spec.rowIx t r))) Cert.Spec.c4096 := by
  have hsum : acc2 V c 7 h = ∑ t : Fin 8, ∑ r : Fin 512, Cert.Spec.pterm (Cert.Spec.pv (argX V c) (argY V c) (Cert.Spec.rowIx t r)) := by
    rw [acc_eq_sum (acc2 V c) (pos2 V c) (acc2_zero V c) (acc2_succ V c) 7 h, Finset.sum_range]
    exact Finset.sum_congr rfl fun t _ => by rw [pos2, dif_pos t.isLt]
  have h0 : ¬ (⟨7, h⟩ : Fin cfg2.N).val % 8 = 0 := show ¬ (7 : ℕ) % 8 = 0 by decide
  have h1 : (⟨7, h⟩ : Fin cfg2.N).val % 8 = 7 := rfl
  have hC := outsAt2_C V c ⟨7, h⟩ h0 h1
  rw [out2_C_2_eq, sout2_C_0_eq] at hC
  have hfst : (outsAt2 V c 7 h).1 = k2_pay3 (F := Ideal) (outsAt2 V c 7 h).2 := by
    rw [show outsAt2 V c 7 h = _ from hC]
  rw [hfst, PayRead.k2_pay3_apply]
  exact congrArg (fun s => Ideal.div s Cert.Spec.c4096) hsum

end K2

/-! ## The negative pairs' kernel -/

section K1
variable (V : (c : Dev nD) → (b : Ref sig .tc) → Buf (Elt Ideal) ((c : Thread nD τ).loc b)) (c : Dev nD)
  (X' Y' : Cert.Spec.Mat)

/-- What point n adds: the tile in tile row n / 8 and tile column n % 8 (zero past the grid). -/
def neg1 (n : ℕ) : EReal :=
  if h : n < 64 then Cert.Spec.tile X' Y' ⟨n / 8, by omega⟩ ⟨n % 8, by omega⟩ else 0

/-- The accumulator's entry after point n. -/
def acc1 (n : ℕ) (h : n < cfg1.N) : EReal := (outsAt1 V c n h).2 (ix2 (0 : Fin 1) (0 : Fin 1))

variable (hR : ∀ (a : Fin 8192) (k : Fin 512), V c main_v1 (ix2 a k) = Cert.Spec.reps X' Y' a k)
include hR

/-- An entry of a point's tile of terms is the negative pair's term of its two stacked rows. -/
theorem entry1 (t : Fin cfg1.N) (ht : t.val < 64) (p q : Fin 1024) :
    k1_pay2 (F := Ideal) (iblk1 V c 0 t) (iblk1 V c 1 t) (ix2 p q)
      = Cert.Spec.term X' Y' (Cert.Spec.tileIx ⟨t.val / 8, by omega⟩ p) (Cert.Spec.tileIx ⟨t.val % 8, by omega⟩ q) := by
  have e0 : ∀ k : Fin 512, iblk1 V c 0 t (ix2 p k) = Cert.Spec.reps X' Y' (Cert.Spec.tileIx ⟨t.val / 8, by omega⟩ p) k :=
    fun k => (iblk1_0_apply V c t p k).trans ((hR _ k).trans (congrArg (fun a => Cert.Spec.reps X' Y' a k) (Fin.ext rfl)))
  have e1 : ∀ k : Fin 512, iblk1 V c 1 t (ix2 q k) = Cert.Spec.reps X' Y' (Cert.Spec.tileIx ⟨t.val % 8, by omega⟩ q) k :=
    fun k => (iblk1_1_apply V c t q k).trans ((hR _ k).trans (congrArg (fun a => Cert.Spec.reps X' Y' a k) (Fin.ext rfl)))
  refine (PayRead.k1_pay2_apply _ _ p q).trans ?_
  unfold Cert.Spec.term Cert.Spec.sim
  simp only [e0, e1]

/-- A point's sum of terms is its tile's sum. -/
theorem blockSum1 (t : Fin cfg1.N) (ht : t.val < 64) :
    k1_pay3 (F := Ideal) (iblk1 V c 0 t) (iblk1 V c 1 t) (ix2 (0 : Fin 1) (0 : Fin 1))
      = Cert.Spec.blockSum X' Y' ⟨t.val / 8, by omega⟩ ⟨t.val % 8, by omega⟩ := by
  refine (PayRead.k1_pay3_apply _ _).trans ?_
  unfold Cert.Spec.blockSum
  exact Finset.sum_congr rfl fun p _ => Finset.sum_congr rfl fun q _ => entry1 V c X' Y' hR t ht p q

/-- A point's masked sum is its tile's diagonal sum. -/
theorem diagSum1 (t : Fin cfg1.N) (ht : t.val < 64) :
    (∑ p : Fin 1024, ∑ q : Fin 1024,
        (if p.val = q.val then k1_pay2 (F := Ideal) (iblk1 V c 0 t) (iblk1 V c 1 t) (ix2 p q) else 0))
      = Cert.Spec.diagSum X' Y' ⟨t.val / 8, by omega⟩ ⟨t.val % 8, by omega⟩ := by
  unfold Cert.Spec.diagSum
  refine Finset.sum_congr rfl fun p _ => Finset.sum_congr rfl fun q _ => ?_
  rw [entry1 V c X' Y' hR t ht p q]

/-- A point on the block diagonal adds its tile: the sum less the diagonal's. -/
theorem diag_apply (t : Fin cfg1.N) (hd : t.val / 8 = t.val % 8) (a : Vec Ideal S1x1 .f32) :
    k1_pay4 (F := Ideal) (iblk1 V c 0 t) (iblk1 V c 1 t) a (ix2 (0 : Fin 1) (0 : Fin 1))
      = a (ix2 (0 : Fin 1) (0 : Fin 1)) + neg1 X' Y' t.val := by
  have ht : t.val < 64 := lt_of_lt_of_eq t.isLt (show cfg1.N = 64 from N_1)
  refine (PayRead.k1_pay4_apply _ _ a).trans ?_
  rw [blockSum1 V c X' Y' hR t ht, diagSum1 V c X' Y' hR t ht, neg1, dif_pos ht, Cert.Spec.tile, if_pos hd]

/-- A point off the block diagonal adds its tile: the whole sum. -/
theorem offdiag_apply (t : Fin cfg1.N) (hd : ¬ t.val / 8 = t.val % 8) (a : Vec Ideal S1x1 .f32) :
    k1_pay5 (F := Ideal) (iblk1 V c 0 t) (iblk1 V c 1 t) a (ix2 (0 : Fin 1) (0 : Fin 1))
      = a (ix2 (0 : Fin 1) (0 : Fin 1)) + neg1 X' Y' t.val := by
  have ht : t.val < 64 := lt_of_lt_of_eq t.isLt (show cfg1.N = 64 from N_1)
  refine (PayRead.k1_pay5_apply _ _ a).trans ?_
  rw [blockSum1 V c X' Y' hR t ht, neg1, dif_pos ht, Cert.Spec.tile, if_neg hd]

theorem acc1_zero (h : 0 < cfg1.N) : acc1 V c 0 h = 0 + neg1 X' Y' 0 := by
  unfold acc1
  rw [outsAt1_A V c ⟨0, h⟩ rfl (show (0 : ℕ) / 8 = 0 % 8 from rfl) (show ¬ (0 : ℕ) = 63 by decide), sout1_A_0_eq]
  refine (diag_apply V c X' Y' hR ⟨0, h⟩ (show (0 : ℕ) / 8 = 0 % 8 from rfl) _).trans ?_
  rw [PayRead.k1_pay1_apply]

theorem acc1_succ (n : ℕ) (h : n + 1 < cfg1.N) :
    acc1 V c (n + 1) h = acc1 V c n (Nat.lt_of_succ_lt h) + neg1 X' Y' (n + 1) := by
  unfold acc1
  have hz : ¬ (⟨n + 1, h⟩ : Fin cfg1.N).val = 0 := Nat.succ_ne_zero n
  by_cases hd : (⟨n + 1, h⟩ : Fin cfg1.N).val / 8 = (⟨n + 1, h⟩ : Fin cfg1.N).val % 8
  · by_cases hl : (⟨n + 1, h⟩ : Fin cfg1.N).val = 63
    · rw [outsAt1_D V c ⟨n + 1, h⟩ hz hd hl, sout1_D_0_eq]
      exact diag_apply V c X' Y' hR ⟨n + 1, h⟩ hd _
    · rw [outsAt1_C V c ⟨n + 1, h⟩ hz hd hl, sout1_C_0_eq]
      exact diag_apply V c X' Y' hR ⟨n + 1, h⟩ hd _
  · have hl : ¬ (⟨n + 1, h⟩ : Fin cfg1.N).val = 63 := fun hl => hd (by rw [hl])
    rw [outsAt1_B V c ⟨n + 1, h⟩ hz hd hl, sout1_B_0_eq]
    exact offdiag_apply V c X' Y' hR ⟨n + 1, h⟩ hd _

/-- (K1) The negative pairs' kernel leaves, in its result, the sum of the 64 tiles divided by 49152: point 8 i + j is
    tile (i, j). -/
theorem k1_value (h : 63 < cfg1.N) :
    (outsAt1 V c 63 h).1 (ix2 (0 : Fin 1) (0 : Fin 1))
      = Ideal.div (∑ i : Fin 8, ∑ j : Fin 8, Cert.Spec.tile X' Y' i j) Cert.Spec.c49152 := by
  have hsum : acc1 V c 63 h = ∑ i : Fin 8, ∑ j : Fin 8, Cert.Spec.tile X' Y' i j := by
    rw [acc_eq_sum (acc1 V c) (neg1 X' Y') (acc1_zero V c X' Y' hR) (acc1_succ V c X' Y' hR) 63 h, Finset.sum_range]
    refine (Cert.Spec.sum_blocks (N := 64) (n := 8) (m := 8) rfl (fun t : Fin 64 => neg1 X' Y' t.val)
      (fun i j => ⟨i.val * 8 + j.val, by omega⟩) (fun _ _ => rfl)).symm.trans ?_
    refine Finset.sum_congr rfl fun i _ => Finset.sum_congr rfl fun j _ => ?_
    have hij : i.val * 8 + j.val < 64 := by omega
    show neg1 X' Y' (i.val * 8 + j.val) = _
    rw [neg1, dif_pos hij]
    exact congrArg₂ (Cert.Spec.tile X' Y') (Fin.ext (by show (i.val * 8 + j.val) / 8 = i.val; omega))
      (Fin.ext (by show (i.val * 8 + j.val) % 8 = j.val; omega))
  have hz : ¬ (⟨63, h⟩ : Fin cfg1.N).val = 0 := show ¬ (63 : ℕ) = 0 by decide
  have hd : (⟨63, h⟩ : Fin cfg1.N).val / 8 = (⟨63, h⟩ : Fin cfg1.N).val % 8 := show (63 : ℕ) / 8 = 63 % 8 from rfl
  have hl : (⟨63, h⟩ : Fin cfg1.N).val = 63 := rfl
  have hD := outsAt1_D V c ⟨63, h⟩ hz hd hl
  rw [out1_D_2_eq, sout1_D_0_eq] at hD
  have hfst : (outsAt1 V c 63 h).1 = k1_pay6 (F := Ideal) (outsAt1 V c 63 h).2 := by
    rw [show outsAt1 V c 63 h = _ from hD]
  rw [hfst, PayRead.k1_pay6_apply]
  exact congrArg (fun s => Ideal.div s Cert.Spec.c49152) hsum

end K1

end Cert.KernelIdeal.Hand

end
-- ==== Proof.KernelFinal.lean ====
/-
  The whole program's value. The fold of the buffers' contents through the program ends, at the result's buffer, with the
  sum of two scalars: the positive pairs' region's result and the negative pairs' region's result, each reshaped from a
  1 x 1 array. The first is the blocked sum of the positive terms of the two arguments over 4096; the second is the tiled
  sum of the negative terms over 49152 of the stacked normalised rows, and the stacked array is the concatenation of the
  normalisation region's two results, the first argument's rows on top. Together they are the tiled, blocked form of the
  loss; with the run, every execution ends with the result's buffer at that value and the arguments as launched.
-/
import proofs.«157362_j60473139528480_1_alg».proof.Proof.KernelFrame
import proofs.«157362_j60473139528480_1_alg».proof.Proof.KernelValue
import proofs.«157362_j60473139528480_1_alg».proof.Proof.BlockRead2
import Idealize.ShloMosaic.Lib.StableHlo.Run
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The stacked rows -/

/-- Two arrays of 4096 rows stacked: a row below 4096 is the first array's, another the second's. -/
theorem concat_rows_apply {α : Type} (f g : (⟨2, ![4096, 512]⟩ : Shape).Idx → α)
    (h : Shape.Concatenates [(⟨2, ![4096, 512]⟩ : Shape), ⟨2, ![4096, 512]⟩] ⟨2, ![8192, 512]⟩ 0)
    (a : Fin 8192) (k : Fin 512) :
    concatenate (⟨2, ![8192, 512]⟩ : Shape) 0 [⟨⟨2, ![4096, 512]⟩, f⟩, ⟨⟨2, ![4096, 512]⟩, g⟩] h (ix2 a k)
      = if ha : a.val < 4096 then f (ix2 ⟨a.val, ha⟩ k) else g (ix2 ⟨a.val - 4096, by omega⟩ k) := by
  by_cases ha : a.val < 4096
  · rw [dif_pos ha]
    exact concatenate_pair_apply_left 0 f g h (ix2 a k) rfl (ix2 ⟨a.val, ha⟩ k)
      (fun b => match b with | ⟨0, _⟩ => rfl | ⟨1, _⟩ => rfl)
  · rw [dif_neg ha]
    exact concatenate_pair_apply_right 0 f g h (ix2 a k) rfl rfl (ix2 ⟨a.val - 4096, by omega⟩ k)
      (fun b hb => match b, hb with
        | ⟨0, _⟩, hb => absurd rfl hb
        | ⟨1, _⟩, _ => rfl)
      (by show a.val - 4096 + 4096 = a.val; omega)

section Value

variable (m : (ℓ : Loc nD τ sig) → Buf (Elt Ideal) ℓ) (ρ : Dev nD → PrngReg)

/-- The two arguments on core `c`, as matrices of extended reals. -/
abbrev mainX (c : Dev nD) : Cert.Spec.Mat := fun r k => m ((c : Thread nD τ).loc main_arg0) (ix2 r k)
abbrev mainY (c : Dev nD) : Cert.Spec.Mat := fun r k => m ((c : Thread nD τ).loc main_arg1) (ix2 r k)

/-- At the negatives region's entry the stacked array holds the two arguments' normalised rows, the first argument's on
    top. -/
theorem stacked_eq (c : Dev nD) (a : Fin 8192) (k : Fin 512) :
    Vr2 m ρ c main_v1 (ix2 a k) = Cert.Spec.reps (mainX m c) (mainY m c) a k := by
  have h : Vr2 m ρ c main_v1 = concatenate S8192x512 0
      [⟨S4096x512, W1 m ρ c (Proc.devRef .tc main_v0_0)⟩, ⟨S4096x512, W1 m ρ c (Proc.devRef .tc main_v0_1)⟩]
      concatenates_S4096x512_S4096x512_S8192x512_d0 := by
    show StableHlo.after hostOps1 (W1 m ρ c) (Proc.devRef .tc main_v1) = _
    after_results
  refine (congrFun h (ix2 a k)).trans ?_
  refine (concat_rows_apply _ _ _ a k).trans ?_
  unfold Cert.Spec.reps
  by_cases ha : a.val < 4096
  · rw [dif_pos ha, dif_pos ha]
    refine (congrFun (W1_arr m ρ c 2) (ix2 ⟨a.val, ha⟩ k)).trans ?_
    exact k0_value_X (Vr0 m ρ) c ⟨a.val, ha⟩ k
  · rw [dif_neg ha, dif_neg ha]
    refine (congrFun (W1_arr m ρ c 3) (ix2 ⟨a.val - 4096, by omega⟩ k)).trans ?_
    exact k0_value_Y (Vr0 m ρ) c ⟨a.val - 4096, by omega⟩ k

/-- A `[1, 1]` array cast to a scalar is its one entry. -/
theorem shapeCast_11_scalar_apply {α : Type} (x : S1x1.Idx → α) (h : S1x1.ShapeCasts S_) (i : S_.Idx) :
    shapeCast S_ x h i = x (ix2 (0 : Fin 1) (0 : Fin 1)) :=
  shapeCast_apply x h i _ (by
    have h0 : (S_.rowMajor i).val = 0 := Shape.rowMajorPi_zero _ i
    rw [Shape.rowMajor_val_two, h0]
    rfl)

theorem N2_gt : 7 < cfg2.N := by rw [show cfg2.N = 8 from N_2]; decide
theorem N1_gt : 63 < cfg1.N := by rw [show cfg1.N = 64 from N_1]; decide

/-- THE VALUE: the program's last buffer ends at the tiled, blocked form of the loss of the two arguments. -/
theorem W6_main_v6 (c : Dev nD) :
    W6 m ρ c (Proc.devRef .tc main_v6) = fun _ => Cert.Spec.kernelValue (mainX m c) (mainY m c) := by
  have h6 : W6 m ρ c (Proc.devRef .tc main_v6)
      = addf (F := Ideal) (s := S_) (φ := .f32)
          (fun i => shapeCast S_ (W5 m ρ c (Proc.devRef .tc main_v4)) shapeCasts_S1x1_S_ i)
          (W5 m ρ c (Proc.devRef .tc main_v3)) := by
    show StableHlo.after hostOps3 (W5 m ρ c) (Proc.devRef .tc main_v6) = _
    after_results
    rfl
  have h3 : W5 m ρ c (Proc.devRef .tc main_v3)
      = fun i => shapeCast S_ (W3 m ρ c (Proc.devRef .tc main_v2)) shapeCasts_S1x1_S_ i := by
    refine (W5_of_ne m ρ c main_v3 (by decide)).trans ?_
    show StableHlo.after hostOps2 (W3 m ρ c) (Proc.devRef .tc main_v3) = _
    after_results
    rfl
  have hX : (fun (r : Fin 4096) (k : Fin 512) => Vr4 m ρ c main_arg0 (ix2 r k)) = mainX m c :=
    funext fun r => funext fun k => congrFun (W4_main_arg0 m ρ c) (ix2 r k)
  have hY : (fun (r : Fin 4096) (k : Fin 512) => Vr4 m ρ c main_arg1 (ix2 r k)) = mainY m c :=
    funext fun r => funext fun k => congrFun (W4_main_arg1 m ρ c) (ix2 r k)
  refine h6.trans ?_
  funext i
  refine (addf_apply _ _ i).trans ?_
  unfold Cert.Spec.kernelValue
  refine congrArg₂ (· + ·) ?_ ?_
  · refine (shapeCast_11_scalar_apply _ shapeCasts_S1x1_S_ i).trans ?_
    refine (congrFun (W5_arr m ρ c 2) _).trans ?_
    refine (congrFun (arrAt2_2 (Vr4 m ρ) c N2_gt) _).trans ?_
    refine (k2_value (Vr4 m ρ) c N2_gt).trans ?_
    exact congrArg₂ (fun X Y => Ideal.div (∑ t : Fin 8, ∑ r : Fin 512,
      Cert.Spec.pterm (Cert.Spec.pv X Y (Cert.Spec.rowIx t r))) Cert.Spec.c4096) hX hY
  · refine (congrFun h3 i).trans ?_
    refine (shapeCast_11_scalar_apply _ shapeCasts_S1x1_S_ i).trans ?_
    refine (congrFun (W3_v2 m ρ c) _).trans ?_
    refine (congrFun (arrAt1_2 (Vr2 m ρ) c N1_gt) _).trans ?_
    exact k1_value (Vr2 m ρ) c (mainX m c) (mainY m c) (stacked_eq m ρ c) N1_gt

/-- THE RUN, at the ideal values: every weakly fair execution of the program terminates, nothing faulting, with the result's
    buffer at the tiled, blocked form of the loss of the two arguments, and the arguments as launched. -/
theorem kernel_run : θ_run (Cert.KernelIdeal.defs (F := Ideal)) (onTc (τ := τ) (Cert.KernelIdeal.main (F := Ideal))) ⟨m, fun _ => 0, ρ⟩
    (fun r => ∀ c : Dev nD,
      r.2.mem ((c.tc : Thread nD τ).loc main_v6) = (fun _ => Cert.Spec.kernelValue (mainX m c) (mainY m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v6 (by decide))).trans (W6_main_v6 m ρ c),
     (h c _ (mem_uc main_arg0 (by decide))).trans (W6_main_arg0 m ρ c),
     (h c _ (mem_uc main_arg1 (by decide))).trans (W6_main_arg1 m ρ c)⟩) (run_all m ρ)

end Value

end Cert.KernelIdeal.Hand

end
-- ==== Proof.RefValue.lean ====
/-
  The reference program's value. Its result, a function of the two argument arrays, is read stage by stage at an
  index — the row norms and the normalised rows, their stack, the similarity matrix as the stack's product with its
  transpose, the two diagonals at offsets 4096 and -4096 read through a point gather whose start indices are row
  numbers that never wrap, the positive pairs' terms and their sum, the mask one less the identity, the negative
  pairs' terms and their double sum, the two quotients and their sum — and is the whole-matrix form of the
  contrastive similarity loss stated in the specification.
-/
import proofs.«157362_j60473139528480_1_alg».proof.Proof.RefReadP
import proofs.«157362_j60473139528480_1_alg».proof.Proof.Spec

noncomputable section

open scoped BigOperators

namespace Cert.RefValue

open Cert.ReferenceIdeal Cert.ReferenceIdeal.Gen Cert.ReferenceIdeal.ReadP Idealize.ShloMosaic Idealize.ShloMosaic.ValueIdx
  Idealize.ShloMosaic.TcCoe Idealize.SL.Sem

/-! ## Words: small naturals as signed 32-bit words -/

theorem toNat_small (n : Nat) (h : n < 4294967296) : (BitVec.ofNat 32 n).toNat = n := by
  rw [BitVec.toNat_ofNat]; exact Nat.mod_eq_of_lt h

theorem toInt_small (n : Nat) (h : n < 2147483648) : (BitVec.ofNat 32 n).toInt = (n : Int) := by
  rw [BitVec.toInt_eq_toNat_cond, toNat_small n (by omega), if_pos (by omega)]

/-- A natural below 2^31 is not negative as a signed word. -/
theorem slt_zero_small (n : Nat) (h : n < 2147483648) : IntOp.cmpi .slt (BitVec.ofNat 32 n) 0#32 = 0#1 := by
  have h0 : (BitVec.ofNat 32 n).slt 0#32 = false := by
    rw [BitVec.slt, toInt_small n h]
    simp
  show BitVec.ofBool ((BitVec.ofNat 32 n).slt 0#32) = 0#1
  rw [h0]; rfl

/-- … and reads back as itself. -/
theorem toIntNat_small (n : Nat) (h : n < 2147483648) : (BitVec.ofNat 32 n).toInt.toNat = n := by
  rw [toInt_small n h]; rfl

/-- Naturals below 2^32 are equal as words exactly when they are equal. -/
theorem ofNat_beq_small (a b : Nat) (ha : a < 4294967296) (hb : b < 4294967296) :
    (BitVec.ofNat 32 a == BitVec.ofNat 32 b) = decide (a = b) := by
  by_cases h : a = b
  · subst h; simp
  · rw [decide_eq_false h]
    have : BitVec.ofNat 32 a ≠ BitVec.ofNat 32 b := fun e => h (by
      have := congrArg BitVec.toNat e
      rwa [toNat_small a ha, toNat_small b hb] at this)
    simpa using this

/-- The identity matrix's entry: the comparison of the two coordinates' words, converted to a float. -/
theorem eye_entry (a b : Nat) (ha : a < 4294967296) (hb : b < 4294967296) :
    FloatOps.uitofp (F := Ideal) .f32 (IntOp.cmpi .eq (IntOp.addi (BitVec.ofNat 32 a) 0#32) (BitVec.ofNat 32 b))
      = if a = b then (1 : EReal) else 0 := by
  show (((BitVec.ofBool (BitVec.ofNat 32 a + 0#32 == BitVec.ofNat 32 b)).toNat : ℝ) : EReal) = _
  rw [BitVec.add_zero, ofNat_beq_small a b ha hb]
  by_cases h : a = b
  · rw [decide_eq_true h, if_pos h]; simp
  · rw [decide_eq_false h, if_neg h]; simp

/-! ## Sums over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Concatenations read at an index -/

/-- Two arrays of 4096 rows stacked: a row below 4096 is the first array's, another the second's. -/
theorem concat_rows {α : Type} (f g : (⟨2, ![4096, 512]⟩ : Shape).Idx → α)
    (h : Shape.Concatenates [(⟨2, ![4096, 512]⟩ : Shape), ⟨2, ![4096, 512]⟩] ⟨2, ![8192, 512]⟩ 0)
    (a : Fin 8192) (k : Fin 512) :
    concatenate (⟨2, ![8192, 512]⟩ : Shape) 0 [⟨⟨2, ![4096, 512]⟩, f⟩, ⟨⟨2, ![4096, 512]⟩, g⟩] h (ix2 a k)
      = if ha : a.val < 4096 then f (ix2 ⟨a.val, ha⟩ k) else g (ix2 ⟨a.val - 4096, by omega⟩ k) := by
  by_cases ha : a.val < 4096
  · rw [dif_pos ha]
    exact concatenate_pair_apply_left 0 f g h (ix2 a k) rfl (ix2 ⟨a.val, ha⟩ k)
      (fun b => match b with | ⟨0, _⟩ => rfl | ⟨1, _⟩ => rfl)
  · rw [dif_neg ha]
    exact concatenate_pair_apply_right 0 f g h (ix2 a k) rfl rfl (ix2 ⟨a.val - 4096, by omega⟩ k)
      (fun b hb => match b, hb with
        | ⟨0, _⟩, hb => absurd rfl hb
        | ⟨1, _⟩, _ => rfl)
      (by show a.val - 4096 + 4096 = a.val; omega)

/-- Two vectors of 4096 entries laid end to end. -/
theorem concat_vec {α : Type} (f g : (⟨1, ![4096]⟩ : Shape).Idx → α)
    (h : Shape.Concatenates [(⟨1, ![4096]⟩ : Shape), ⟨1, ![4096]⟩] ⟨1, ![8192]⟩ 0)
    (a : Fin 8192) :
    concatenate (⟨1, ![8192]⟩ : Shape) 0 [⟨⟨1, ![4096]⟩, f⟩, ⟨⟨1, ![4096]⟩, g⟩] h (ix1 a)
      = if ha : a.val < 4096 then f (ix1 ⟨a.val, ha⟩) else g (ix1 ⟨a.val - 4096, by omega⟩) := by
  by_cases ha : a.val < 4096
  · rw [dif_pos ha]
    exact concatenate_pair_apply_left 0 f g h (ix1 a) rfl (ix1 ⟨a.val, ha⟩)
      (fun b => match b with | ⟨0, _⟩ => rfl)
  · rw [dif_neg ha]
    exact concatenate_pair_apply_right 0 f g h (ix1 a) rfl rfl (ix1 ⟨a.val - 4096, by omega⟩)
      (fun b hb => match b, hb with
        | ⟨0, _⟩, hb => absurd rfl hb)
      (by show a.val - 4096 + 4096 = a.val; omega)

/-- Two columns side by side: column 0 is the first … -/
theorem concat_cols0 {α : Type} (f g : (⟨2, ![4096, 1]⟩ : Shape).Idx → α)
    (h : Shape.Concatenates [(⟨2, ![4096, 1]⟩ : Shape), ⟨2, ![4096, 1]⟩] ⟨2, ![4096, 2]⟩ 1)
    (k : Fin 4096) :
    concatenate (⟨2, ![4096, 2]⟩ : Shape) 1 [⟨⟨2, ![4096, 1]⟩, f⟩, ⟨⟨2, ![4096, 1]⟩, g⟩] h (ix2 k (0 : Fin 2))
      = f (ix2 k (0 : Fin 1)) :=
  concatenate_pair_apply_left 1 f g h (ix2 k (0 : Fin 2)) rfl (ix2 k (0 : Fin 1))
    (fun b => match b with | ⟨0, _⟩ => rfl | ⟨1, _⟩ => rfl)

/-- … and column 1 the second. -/
theorem concat_cols1 {α : Type} (f g : (⟨2, ![4096, 1]⟩ : Shape).Idx → α)
    (h : Shape.Concatenates [(⟨2, ![4096, 1]⟩ : Shape), ⟨2, ![4096, 1]⟩] ⟨2, ![4096, 2]⟩ 1)
    (k : Fin 4096) :
    concatenate (⟨2, ![4096, 2]⟩ : Shape) 1 [⟨⟨2, ![4096, 1]⟩, f⟩, ⟨⟨2, ![4096, 1]⟩, g⟩] h (ix2 k (1 : Fin 2))
      = g (ix2 k (0 : Fin 1)) :=
  concatenate_pair_apply_right 1 f g h (ix2 k (1 : Fin 2)) rfl rfl (ix2 k (0 : Fin 1))
    (fun b hb => match b, hb with
      | ⟨0, _⟩, _ => rfl
      | ⟨1, _⟩, hb => absurd rfl hb)
    rfl

/-! ## The point gather read at an index -/

/-- The dimension numbers of a point gather out of a square matrix: both axes collapsed, the start index a pair. -/
abbrev pointDims (wf : GatherDims.WF ⟨2, ![8192, 8192]⟩ ⟨2, ![4096, 2]⟩ ⟨1, ![4096]⟩ [] [0, 1] [] [0, 1] [] 1 ![1, 1]) :
    GatherDims ⟨2, ![8192, 8192]⟩ ⟨2, ![4096, 2]⟩ ⟨1, ![4096]⟩ where
  offsetDims := []
  collapsedSliceDims := [0, 1]
  operandBatchingDims := []
  startIndicesBatchingDims := []
  startIndexMap := [0, 1]
  indexVectorDim := 1
  sliceSizes := ![1, 1]
  wf := wf

/-- The point gather read at k: the matrix at the pair of start indices in row k, each read signed and clamped. -/
theorem gather_point {α : Type}
    (wf : GatherDims.WF ⟨2, ![8192, 8192]⟩ ⟨2, ![4096, 2]⟩ ⟨1, ![4096]⟩ [] [0, 1] [] [0, 1] [] 1 ![1, 1])
    (x : (⟨2, ![8192, 8192]⟩ : Shape).Idx → α) (idx : IVec ⟨2, ![4096, 2]⟩ 32) (k : Fin 4096) :
    Host.gather (pointDims wf) x idx (ix1 k)
      = x (ix2 (⟨min (idx (ix2 k (0 : Fin 2))).toInt.toNat 8191, by omega⟩ : Fin 8192)
               (⟨min (idx (ix2 k (1 : Fin 2))).toInt.toNat 8191, by omega⟩ : Fin 8192)) := by
  unfold Host.gather
  congr 1
  funext a
  refine Fin.ext ?_
  match a with
  | ⟨0, _⟩ =>
    show (pointDims wf).start (ix1 k) idx 0 + (pointDims wf).batchCoord (ix1 k) 0 + (pointDims wf).offCoord (ix1 k) 0 = _
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (0 : Fin 2) ∈ (pointDims wf).startIndexMap from List.mem_cons_self)]
    have hsi : (pointDims wf).siIdx (ix1 k) ⟨List.idxOf (0 : Fin 2) (pointDims wf).startIndexMap,
        List.idxOf_lt_length_iff.2 List.mem_cons_self⟩ = ix2 k (0 : Fin 2) := by
      funext b; refine Fin.ext ?_
      match b with
      | ⟨0, _⟩ => rfl
      | ⟨1, _⟩ => rfl
    rw [hsi]
    rfl
  | ⟨1, _⟩ =>
    show (pointDims wf).start (ix1 k) idx 1 + (pointDims wf).batchCoord (ix1 k) 1 + (pointDims wf).offCoord (ix1 k) 1 = _
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos (show (1 : Fin 2) ∈ (pointDims wf).startIndexMap from List.mem_cons_of_mem _ List.mem_cons_self)]
    have hsi : (pointDims wf).siIdx (ix1 k) ⟨List.idxOf (1 : Fin 2) (pointDims wf).startIndexMap,
        List.idxOf_lt_length_iff.2 (List.mem_cons_of_mem _ List.mem_cons_self)⟩ = ix2 k (1 : Fin 2) := by
      funext b; refine Fin.ext ?_
      match b with
      | ⟨0, _⟩ => rfl
      | ⟨1, _⟩ => rfl
    rw [hsi]
    rfl

/-- The program's gather record is that one. -/
theorem gather_dims_eq :
    gather_S8192x8192_S4096x2_S4096_n_01_n_n_01_1_11 = pointDims Gen.gather_S8192x8192_S4096x2_S4096_n_01_n_n_01_1_11_wf := rfl

/-! ## The normalised rows -/

/-- The matrix of an argument array. -/
abbrev mat (x : FVec Ideal S4096x512 .f32) : Cert.Spec.Mat := fun r k => x (ix2 r k)

theorem idx_c0v1 (r : Fin 4096) (k : Fin 512) : idx_main_call0_v1 (ix1 r) k = ix2 r k :=
  funext fun a => Fin.ext (by match a with | ⟨0, _⟩ => rfl | ⟨1, _⟩ => rfl)
theorem idx_c0v2 (r : Fin 4096) (c : Fin 1) : idx_main_call0_v2 (ix2 r c) = ix1 r :=
  funext fun a => Fin.ext (by match a with | ⟨0, _⟩ => rfl)
theorem idx_v1 (r : Fin 4096) (k : Fin 512) : idx_main_v1 (ix2 r k) = ix2 r (0 : Fin 1) :=
  funext fun a => Fin.ext (by match a with | ⟨0, _⟩ => rfl | ⟨1, _⟩ => rfl)
theorem idx_c1v1 (r : Fin 4096) (k : Fin 512) : idx_main_call1_v1 (ix1 r) k = ix2 r k :=
  funext fun a => Fin.ext (by match a with | ⟨0, _⟩ => rfl | ⟨1, _⟩ => rfl)
theorem idx_c1v2 (r : Fin 4096) (c : Fin 1) : idx_main_call1_v2 (ix2 r c) = ix1 r :=
  funext fun a => Fin.ext (by match a with | ⟨0, _⟩ => rfl)
theorem idx_v4 (r : Fin 4096) (k : Fin 512) : idx_main_v4 (ix2 r k) = ix2 r (0 : Fin 1) :=
  funext fun a => Fin.ext (by match a with | ⟨0, _⟩ => rfl | ⟨1, _⟩ => rfl)

/-- The first argument's row norm: the square root of the row's sum of squares. -/
theorem norm0 (x : FVec Ideal S4096x512 .f32) (r : Fin 4096) (c : Fin 1) :
    val_main_v0 (F := Ideal) x (ix2 r c) = Ideal.sqrt (Cert.Spec.ss (mat x) r) := by
  rw [val_main_v0_apply, val_main_call0_v2_apply, idx_c0v2, val_main_call0_v1_apply, val_main_call0_cst_apply]
  simp only [Ideal.hostUnary_sqrt_def, Ideal.ofBits_def, Ideal.ofBits_zero_f32, zero_add, idx_c0v1,
    val_main_call0_v0_apply, Ideal.mulf_def]
  rfl

/-- The first argument's normalised entry. -/
theorem z0 (x : FVec Ideal S4096x512 .f32) (r : Fin 4096) (k : Fin 512) :
    val_main_v2 (F := Ideal) x (ix2 r k) = Cert.Spec.z (mat x) r k := by
  rw [val_main_v2_apply, val_main_v1_apply, idx_v1, norm0, Ideal.hostDivf_def]
  rfl

/-- The second argument's row norm. -/
theorem norm1 (y : FVec Ideal S4096x512 .f32) (r : Fin 4096) (c : Fin 1) :
    val_main_v3 (F := Ideal) y (ix2 r c) = Ideal.sqrt (Cert.Spec.ss (mat y) r) := by
  rw [val_main_v3_apply, val_main_call1_v2_apply, idx_c1v2, val_main_call1_v1_apply, val_main_call1_cst_apply]
  simp only [Ideal.hostUnary_sqrt_def, Ideal.ofBits_def, Ideal.ofBits_zero_f32, zero_add, idx_c1v1,
    val_main_call1_v0_apply, Ideal.mulf_def]
  rfl

/-- The second argument's normalised entry. -/
theorem z1 (y : FVec Ideal S4096x512 .f32) (r : Fin 4096) (k : Fin 512) :
    val_main_v5 (F := Ideal) y (ix2 r k) = Cert.Spec.z (mat y) r k := by
  rw [val_main_v5_apply, val_main_v4_apply, idx_v4, norm1, Ideal.hostDivf_def]
  rfl

/-- The stacked normalised rows. -/
theorem reps6 (x y : FVec Ideal S4096x512 .f32) (a : Fin 8192) (k : Fin 512) :
    val_main_v6 (F := Ideal) x y (ix2 a k) = Cert.Spec.reps (mat x) (mat y) a k := by
  unfold val_main_v6 Cert.Spec.reps
  rw [concat_rows]
  by_cases h : a.val < 4096
  · rw [dif_pos h, dif_pos h]; exact z0 x ⟨a.val, h⟩ k
  · rw [dif_neg h, dif_neg h]; exact z1 y ⟨a.val - 4096, by omega⟩ k

/-! ## The similarity matrix -/

theorem lidx8 (a b : Fin 8192) (k : Fin 512) : lidx_main_v8 (ix2 a b) k = ix2 a k :=
  funext fun c => Fin.ext (by match c with | ⟨0, _⟩ => rfl | ⟨1, _⟩ => rfl)
theorem ridx8 (a b : Fin 8192) (k : Fin 512) : ridx_main_v8 (ix2 a b) k = ix2 k b :=
  funext fun c => Fin.ext (by match c with | ⟨0, _⟩ => rfl | ⟨1, _⟩ => rfl)
theorem idx7 (k : Fin 512) (b : Fin 8192) : idx_main_v7 (ix2 k b) = ix2 b k :=
  funext fun c => Fin.ext (by match c with | ⟨0, _⟩ => rfl | ⟨1, _⟩ => rfl)

/-- The product of the stacked rows with their transpose is the similarity matrix. -/
theorem sim8 (x y : FVec Ideal S4096x512 .f32) (a b : Fin 8192) :
    val_main_v8 (F := Ideal) x y (ix2 a b) = Cert.Spec.sim (mat x) (mat y) a b := by
  rw [val_main_v8_apply]
  unfold Cert.Spec.sim
  refine Finset.sum_congr rfl fun k _ => ?_
  rw [val_main_v7_apply, lidx8, ridx8, idx7, reps6, reps6]

/-! ## The gathered diagonals -/

theorem idx22 (k : Fin 4096) (c : Fin 1) : idx_main_v22 (ix2 k c) = ix1 k :=
  funext fun a => Fin.ext (by match a with | ⟨0, _⟩ => rfl)
theorem idx23 (k : Fin 4096) (c : Fin 1) : idx_main_v23 (ix2 k c) = ix1 k :=
  funext fun a => Fin.ext (by match a with | ⟨0, _⟩ => rfl)
theorem idx38 (k : Fin 4096) (c : Fin 1) : idx_main_v38 (ix2 k c) = ix1 k :=
  funext fun a => Fin.ext (by match a with | ⟨0, _⟩ => rfl)
theorem idx39 (k : Fin 4096) (c : Fin 1) : idx_main_v39 (ix2 k c) = ix1 k :=
  funext fun a => Fin.ext (by match a with | ⟨0, _⟩ => rfl)

/-- The row numbers, wrapped as a negative index would be: never negative, so unchanged. -/
theorem col16 (k : Fin 4096) : val_main_v16 (F := Ideal) (ix1 k) = BitVec.ofNat 32 k.val := by
  have hk := k.isLt
  rw [val_main_v16_apply, val_main_v13_apply, val_main_v12_apply, val_main_c_0_apply, val_main_v9_apply]
  show Scalar.select (IntOp.cmpi .slt (BitVec.ofNat 32 k.val) 0#32) _ (BitVec.ofNat 32 k.val) = _
  rw [slt_zero_small k.val (by omega), select_zero]

/-- The row numbers plus 4096, wrapped likewise. -/
theorem col21 (k : Fin 4096) : val_main_v21 (F := Ideal) (ix1 k) = BitVec.ofNat 32 (k.val + 4096) := by
  have hk := k.isLt
  rw [val_main_v21_apply, val_main_v18_apply, val_main_v17_apply, val_main_c_2_apply, val_main_v11_apply,
    val_main_v10_apply, val_main_c_apply, val_main_v9_apply]
  show Scalar.select (IntOp.cmpi .slt (BitVec.ofNat 32 k.val + BitVec.ofNat 32 4096) 0#32) _
    (BitVec.ofNat 32 k.val + BitVec.ofNat 32 4096) = _
  rw [← BitVec.ofNat_add, slt_zero_small (k.val + 4096) (by omega), select_zero]

theorem col32 (k : Fin 4096) : val_main_v32 (F := Ideal) (ix1 k) = BitVec.ofNat 32 (k.val + 4096) := by
  have hk := k.isLt
  rw [val_main_v32_apply, val_main_v29_apply, val_main_v28_apply, val_main_c_5_apply, val_main_v27_apply,
    val_main_v26_apply, val_main_c_4_apply, val_main_v9_apply]
  show Scalar.select (IntOp.cmpi .slt (BitVec.ofNat 32 k.val + BitVec.ofNat 32 4096) 0#32) _
    (BitVec.ofNat 32 k.val + BitVec.ofNat 32 4096) = _
  rw [← BitVec.ofNat_add, slt_zero_small (k.val + 4096) (by omega), select_zero]

theorem col37 (k : Fin 4096) : val_main_v37 (F := Ideal) (ix1 k) = BitVec.ofNat 32 k.val := by
  have hk := k.isLt
  rw [val_main_v37_apply, val_main_v34_apply, val_main_v33_apply, val_main_c_7_apply, val_main_v9_apply]
  show Scalar.select (IntOp.cmpi .slt (BitVec.ofNat 32 k.val) 0#32) _ (BitVec.ofNat 32 k.val) = _
  rw [slt_zero_small k.val (by omega), select_zero]

/-- The first gather's start indices: (k, k + 4096). -/
theorem start24_0 (k : Fin 4096) : val_main_v24 (F := Ideal) (ix2 k (0 : Fin 2)) = BitVec.ofNat 32 k.val := by
  unfold val_main_v24
  rw [concat_cols0, val_main_v22_apply, idx22, col16]
theorem start24_1 (k : Fin 4096) : val_main_v24 (F := Ideal) (ix2 k (1 : Fin 2)) = BitVec.ofNat 32 (k.val + 4096) := by
  unfold val_main_v24
  rw [concat_cols1, val_main_v23_apply, idx23, col21]

/-- The second gather's start indices: (k + 4096, k). -/
theorem start40_0 (k : Fin 4096) : val_main_v40 (F := Ideal) (ix2 k (0 : Fin 2)) = BitVec.ofNat 32 (k.val + 4096) := by
  unfold val_main_v40
  rw [concat_cols0, val_main_v38_apply, idx38, col32]
theorem start40_1 (k : Fin 4096) : val_main_v40 (F := Ideal) (ix2 k (1 : Fin 2)) = BitVec.ofNat 32 k.val := by
  unfold val_main_v40
  rw [concat_cols1, val_main_v39_apply, idx39, col37]

/-- The first gather reads the similarity matrix at (n, n + 4096). -/
theorem gath25 (x y : FVec Ideal S4096x512 .f32) (n : Nat) (h : n < 4096) :
    val_main_v25 (F := Ideal) x y (ix1 ⟨n, h⟩)
      = val_main_v8 (F := Ideal) x y (ix2 (⟨n, by omega⟩ : Fin 8192) (⟨n + 4096, by omega⟩ : Fin 8192)) := by
  unfold val_main_v25
  generalize val_main_v8 (F := Ideal) x y = S
  rw [gather_dims_eq]
  refine (gather_point _ S _ ⟨n, h⟩).trans (congrArg S (congrArg₂ ix2 (Fin.ext ?_) (Fin.ext ?_)))
  · show min (val_main_v24 (F := Ideal) (ix2 (⟨n, h⟩ : Fin 4096) (0 : Fin 2))).toInt.toNat 8191 = n
    rw [start24_0, toIntNat_small _ (by show n < 2147483648; omega)]
    show min n 8191 = n
    omega
  · show min (val_main_v24 (F := Ideal) (ix2 (⟨n, h⟩ : Fin 4096) (1 : Fin 2))).toInt.toNat 8191 = n + 4096
    rw [start24_1, toIntNat_small _ (by show n + 4096 < 2147483648; omega)]
    show min (n + 4096) 8191 = n + 4096
    omega

/-- The second gather reads it at (n + 4096, n). -/
theorem gath41 (x y : FVec Ideal S4096x512 .f32) (n : Nat) (h : n < 4096) :
    val_main_v41 (F := Ideal) x y (ix1 ⟨n, h⟩)
      = val_main_v8 (F := Ideal) x y (ix2 (⟨n + 4096, by omega⟩ : Fin 8192) (⟨n, by omega⟩ : Fin 8192)) := by
  unfold val_main_v41
  generalize val_main_v8 (F := Ideal) x y = S
  rw [gather_dims_eq]
  refine (gather_point _ S _ ⟨n, h⟩).trans (congrArg S (congrArg₂ ix2 (Fin.ext ?_) (Fin.ext ?_)))
  · show min (val_main_v40 (F := Ideal) (ix2 (⟨n, h⟩ : Fin 4096) (0 : Fin 2))).toInt.toNat 8191 = n + 4096
    rw [start40_0, toIntNat_small _ (by show n + 4096 < 2147483648; omega)]
    show min (n + 4096) 8191 = n + 4096
    omega
  · show min (val_main_v40 (F := Ideal) (ix2 (⟨n, h⟩ : Fin 4096) (1 : Fin 2))).toInt.toNat 8191 = n
    rw [start40_1, toIntNat_small _ (by show n < 2147483648; omega)]
    show min n 8191 = n
    omega

/-- The two gathered diagonals laid end to end are the positive pairs' similarities. -/
theorem gathered42 (x y : FVec Ideal S4096x512 .f32) (k : Fin 8192) :
    val_main_v42 (F := Ideal) x y (ix1 k) = Cert.Spec.gathered (mat x) (mat y) k := by
  unfold val_main_v42 Cert.Spec.gathered
  rw [concat_vec]
  by_cases h : k.val < 4096
  · rw [dif_pos h, dif_pos h, gath25 x y k.val h, sim8]
  · rw [dif_neg h, dif_neg h, gath41 x y (k.val - 4096) (by omega), sim8]
    exact congrArg (fun a => Cert.Spec.sim (mat x) (mat y) a _) (Fin.ext (by show k.val - 4096 + 4096 = k.val; omega))

/-! ## The positive pairs' sum -/

theorem pos47 (x y : FVec Ideal S4096x512 .f32) (k : Fin 8192) :
    val_main_v47 (F := Ideal) x y (ix1 k) = Cert.Spec.pterm (Cert.Spec.gathered (mat x) (mat y) k) := by
  rw [val_main_v47_apply, val_main_v46_apply, val_main_v45_apply, val_main_v44_apply, val_main_cst_apply,
    val_main_v43_apply, gathered42]
  simp only [Ideal.hostUnary_log1p_def, Ideal.hostUnary_exp_def, Ideal.hostNegf_def, Ideal.negf_def, Ideal.addf_def,
    Ideal.ofBits_def]
  rfl

theorem sum61 (x y : FVec Ideal S4096x512 .f32) (i : S_.Idx) :
    val_main_v61 (F := Ideal) x y i = ∑ k : Fin 8192, Cert.Spec.pterm (Cert.Spec.gathered (mat x) (mat y) k) := by
  rw [val_main_v61_apply, val_main_cst_12_apply, Ideal.ofBits_def, Ideal.ofBits_zero_f32, zero_add, sum_idx1]
  exact Finset.sum_congr rfl fun k _ => pos47 x y k

/-! ## The mask and the negative pairs' sum -/

/-- One less the identity matrix. -/
theorem mask55 (a b : Fin 8192) : val_main_v55 (F := Ideal) (ix2 a b) = Cert.Spec.mask a b := by
  have ha := a.isLt
  have hb := b.isLt
  rw [val_main_v55_apply, val_main_v54_apply, val_main_cst_10_apply, val_main_v53_apply, val_main_v52_apply,
    val_main_v51_apply, val_main_v50_apply, val_main_c_9_apply, val_main_v48_apply, val_main_v49_apply]
  show FloatOps.subf (FloatOps.ofBits (F := Ideal) .f32 0x3F800000#32)
    (FloatOps.uitofp (F := Ideal) .f32 (IntOp.cmpi .eq (IntOp.addi (BitVec.ofNat 32 a.val) 0#32) (BitVec.ofNat 32 b.val))) = _
  rw [eye_entry a.val b.val (by omega) (by omega)]
  rfl

theorem neg60 (x y : FVec Ideal S4096x512 .f32) (a b : Fin 8192) :
    val_main_v60 (F := Ideal) x y (ix2 a b)
      = Ideal.log1p (Cert.Spec.mask a b * Ideal.exp (Cert.Spec.sim (mat x) (mat y) a b - Cert.Spec.half)) := by
  rw [val_main_v60_apply, val_main_v59_apply, val_main_v58_apply, val_main_v57_apply, val_main_v56_apply,
    val_main_cst_11_apply, mask55, sim8]
  simp only [Ideal.hostUnary_log1p_def, Ideal.hostUnary_exp_def, Ideal.mulf_def, Ideal.subf_def, Ideal.ofBits_def]
  rfl

theorem sum63 (x y : FVec Ideal S4096x512 .f32) (i : S_.Idx) :
    val_main_v63 (F := Ideal) x y i
      = ∑ a : Fin 8192, ∑ b : Fin 8192,
          Ideal.log1p (Cert.Spec.mask a b * Ideal.exp (Cert.Spec.sim (mat x) (mat y) a b - Cert.Spec.half)) := by
  rw [val_main_v63_apply, val_main_cst_14_apply, Ideal.ofBits_def, Ideal.ofBits_zero_f32, zero_add, sum_idx2]
  exact Finset.sum_congr rfl fun a _ => Finset.sum_congr rfl fun b _ => neg60 x y a b

/-! ## The result -/

/-- The reference's result, as a function of the two argument arrays, is the whole-matrix form of the loss. -/
theorem result_eq (x y : FVec Ideal S4096x512 .f32) :
    val_main_v65 (F := Ideal) x y
      = fun _ => Cert.Spec.referenceValue (fun r k => x (ix2 r k)) (fun r k => y (ix2 r k)) := by
  funext i
  rw [val_main_v65_apply, val_main_v62_apply, val_main_v64_apply, sum61, sum63, val_main_cst_13_apply,
    val_main_cst_15_apply]
  simp only [Ideal.addf_def, Ideal.hostDivf_def, Ideal.ofBits_def]
  rfl

end Cert.RefValue

end
-- ==== Proof.RefRun.lean ====
/-
  The reference program's run, read back a few operations at a time. Its 92 host operations are cut into 12 consecutive
  lines; each line is read back over ARBITRARY buffer contents that hold the earlier stages where the line reads them
  (the fold of a line over contents W is a function of W at the line's inputs, and leaves alone every buffer the line
  does not write), so no step ever sees more than one line's operations. Chained from the launch contents, the last
  buffer holds the last stage of the two arguments, which is the whole-matrix form of the loss, and the arguments are
  as launched.
-/
import proofs.«157362_j60473139528480_1_alg».proof.Proof.RefOpsP
import proofs.«157362_j60473139528480_1_alg».proof.Proof.RefReadP
import proofs.«157362_j60473139528480_1_alg».proof.Proof.RefValue

noncomputable section

namespace Cert.RefValue

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- The fold over two lines run one after the other is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The lines -/

/-- Operations 1 … 14 of the 92. -/
abbrev L1 : List (HloOp τ sig (Elt F)) :=
  [ TRef.binary (TRef.of (T := ⟨S4096x512, .f32⟩) main_arg0) (TRef.of (T := ⟨S4096x512, .f32⟩) main_arg0) (TRef.of (T := ⟨S4096x512, .f32⟩) main_call0_v0) mulf,
    TRef.nullary (TRef.of (T := ⟨S_, .f32⟩) main_call0_cst) (constant S_ .f32 0x00000000#32),
    TRef.binary (TRef.of (T := ⟨S4096x512, .f32⟩) main_call0_v0) (TRef.of (T := ⟨S_, .f32⟩) main_call0_cst) (TRef.of (T := ⟨S4096, .f32⟩) main_call0_v1) (fun x v => Host.reduceAdd x v reducesTo_S4096x512_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    unary main_v0 main_v1 (broadcastInDim S4096x512 ![0, 1] bcast_S4096x1_S4096x512_0_1 : (⟨S4096x1, .f32⟩ : BufTy).Contents (Elt F) → (⟨S4096x512, .f32⟩ : BufTy).Contents (Elt F)),
    binary main_arg0 main_v1 main_v2 (Host.divf : (⟨S4096x512, .f32⟩ : BufTy).Contents (Elt F) → (⟨S4096x512, .f32⟩ : BufTy).Contents (Elt F) → (⟨S4096x512, .f32⟩ : BufTy).Contents (Elt F)),
    TRef.binary (TRef.of (T := ⟨S4096x512, .f32⟩) main_arg1) (TRef.of (T := ⟨S4096x512, .f32⟩) main_arg1) (TRef.of (T := ⟨S4096x512, .f32⟩) main_call1_v0) mulf,
    TRef.nullary (TRef.of (T := ⟨S_, .f32⟩) main_call1_cst) (constant S_ .f32 0x00000000#32),
    TRef.binary (TRef.of (T := ⟨S4096x512, .f32⟩) main_call1_v0) (TRef.of (T := ⟨S_, .f32⟩) main_call1_cst) (TRef.of (T := ⟨S4096, .f32⟩) main_call1_v1) (fun x v => Host.reduceAdd x v reducesTo_S4096x512_S4096_d1 h_S_),
    TRef.unary (TRef.of (T := ⟨S4096, .f32⟩) main_call1_v1) (TRef.of (T := ⟨S4096x1, .f32⟩) main_call1_v2) (broadcastInDim S4096x1 ![0] bcast_S4096_S4096x1_0),
    TRef.unary (TRef.of (T := ⟨S4096x1, .f32⟩) main_call1_v2) (TRef.of (T := ⟨S4096x1, .f32⟩) main_v3) Host.sqrt,
    unary main_v3 main_v4 (broadcastInDim S4096x512 ![0, 1] bcast_S4096x1_S4096x512_0_1 : (⟨S4096x1, .f32⟩ : BufTy).Contents (Elt F) → (⟨S4096x512, .f32⟩ : BufTy).Contents (Elt F)),
    binary main_arg1 main_v4 main_v5 (Host.divf : (⟨S4096x512, .f32⟩ : BufTy).Contents (Elt F) → (⟨S4096x512, .f32⟩ : BufTy).Contents (Elt F) → (⟨S4096x512, .f32⟩ : BufTy).Contents (Elt F)) ]

/-- Operations 15 … 17 of the 92. -/
abbrev L2 : List (HloOp τ sig (Elt F)) :=
  [ binary main_v2 main_v5 main_v6 ((fun a b => concatenate S8192x512 0 [⟨S4096x512, a⟩, ⟨S4096x512, b⟩] concatenates_S4096x512_S4096x512_S8192x512_d0) : (⟨S4096x512, .f32⟩ : BufTy).Contents (Elt F) → (⟨S4096x512, .f32⟩ : BufTy).Contents (Elt F) → (⟨S8192x512, .f32⟩ : BufTy).Contents (Elt F)),
    unary main_v6 main_v7 ((transpose S512x8192 [1, 0] · transposes_S8192x512_S512x8192_1_0) : (⟨S8192x512, .f32⟩ : BufTy).Contents (Elt F) → (⟨S512x8192, .f32⟩ : BufTy).Contents (Elt F)),
    binary main_v6 main_v7 main_v8 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)) ]

/-- Operations 18 … 28 of the 92. -/
abbrev L3 : List (HloOp τ sig (Elt F)) :=
  [ nullary main_v9 (iotaInDim S4096 32 0),
    nullary main_c (constantI S_ 32 4096#32),
    unary main_c main_v10 (broadcastInDim S4096 ![] bcast_S_S4096 : (⟨S_, .i32⟩ : BufTy).Contents (Elt F) → (⟨S4096, .i32⟩ : BufTy).Contents (Elt F)),
    binary main_v9 main_v10 main_v11 (addi : (⟨S4096, .i32⟩ : BufTy).Contents (Elt F) → (⟨S4096, .i32⟩ : BufTy).Contents (Elt F) → (⟨S4096, .i32⟩ : BufTy).Contents (Elt F)),
    nullary main_c_0 (constantI S_ 32 0#32),
    unary main_c_0 main_v12 (broadcastInDim S4096 ![] bcast_S_S4096 : (⟨S_, .i32⟩ : BufTy).Contents (Elt F) → (⟨S4096, .i32⟩ : BufTy).Contents (Elt F)),
    binary main_v9 main_v12 main_v13 (cmpi .slt : (⟨S4096, .i32⟩ : BufTy).Contents (Elt F) → (⟨S4096, .i32⟩ : BufTy).Contents (Elt F) → (⟨S4096, .i1⟩ : BufTy).Contents (Elt F)),
    nullary main_c_1 (constantI S_ 32 8192#32),
    unary main_c_1 main_v14 (broadcastInDim S4096 ![] bcast_S_S4096 : (⟨S_, .i32⟩ : BufTy).Contents (Elt F) → (⟨S4096, .i32⟩ : BufTy).Contents (Elt F)),
    binary main_v9 main_v14 main_v15 (addi : (⟨S4096, .i32⟩ : BufTy).Contents (Elt F) → (⟨S4096, .i32⟩ : BufTy).Contents (Elt F) → (⟨S4096, .i32⟩ : BufTy).Contents (Elt F)),
    ternary main_v13 main_v15 main_v9 main_v16 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

/-- Operations 29 … 37 of the 92. -/
abbrev L4 : List (HloOp τ sig (Elt F)) :=
  [ nullary main_c_2 (constantI S_ 32 0#32),
    unary main_c_2 main_v17 (broadcastInDim S4096 ![] bcast_S_S4096 : (⟨S_, .i32⟩ : BufTy).Contents (Elt F) → (⟨S4096, .i32⟩ : BufTy).Contents (Elt F)),
    binary main_v11 main_v17 main_v18 (cmpi .slt : (⟨S4096, .i32⟩ : BufTy).Contents (Elt F) → (⟨S4096, .i32⟩ : BufTy).Contents (Elt F) → (⟨S4096, .i1⟩ : BufTy).Contents (Elt F)),
    nullary main_c_3 (constantI S_ 32 8192#32),
    unary main_c_3 main_v19 (broadcastInDim S4096 ![] bcast_S_S4096 : (⟨S_, .i32⟩ : BufTy).Contents (Elt F) → (⟨S4096, .i32⟩ : BufTy).Contents (Elt F)),
    binary main_v11 main_v19 main_v20 (addi : (⟨S4096, .i32⟩ : BufTy).Contents (Elt F) → (⟨S4096, .i32⟩ : BufTy).Contents (Elt F) → (⟨S4096, .i32⟩ : BufTy).Contents (Elt F)),
    ternary main_v18 main_v20 main_v11 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v16 main_v22 (broadcastInDim S4096x1 ![0] bcast_S4096_S4096x1_0 : (⟨S4096, .i32⟩ : BufTy).Contents (Elt F) → (⟨S4096x1, .i32⟩ : BufTy).Contents (Elt F)),
    unary main_v21 main_v23 (broadcastInDim S4096x1 ![0] bcast_S4096_S4096x1_0 : (⟨S4096, .i32⟩ : BufTy).Contents (Elt F) → (⟨S4096x1, .i32⟩ : BufTy).Contents (Elt F)) ]

/-- Operations 38 … 39 of the 92. -/
abbrev L5 : List (HloOp τ sig (Elt F)) :=
  [ binary main_v22 main_v23 main_v24 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v8 main_v24 main_v25 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- Operations 40 … 49 of the 92. -/
abbrev L6 : List (HloOp τ sig (Elt F)) :=
  [ nullary main_c_4 (constantI S_ 32 4096#32),
    unary main_c_4 main_v26 (broadcastInDim S4096 ![] bcast_S_S4096 : (⟨S_, .i32⟩ : BufTy).Contents (Elt F) → (⟨S4096, .i32⟩ : BufTy).Contents (Elt F)),
    binary main_v9 main_v26 main_v27 (addi : (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v28 (broadcastInDim S4096 ![] bcast_S_S4096 : (⟨S_, .i32⟩ : BufTy).Contents (Elt F) → (⟨S4096, .i32⟩ : BufTy).Contents (Elt F)),
    binary main_v27 main_v28 main_v29 (cmpi .slt : (⟨S4096, .i32⟩ : BufTy).Contents (Elt F) → (⟨S4096, .i32⟩ : BufTy).Contents (Elt F) → (⟨S4096, .i1⟩ : BufTy).Contents (Elt F)),
    nullary main_c_6 (constantI S_ 32 8192#32),
    unary main_c_6 main_v30 (broadcastInDim S4096 ![] bcast_S_S4096 : (⟨S_, .i32⟩ : BufTy).Contents (Elt F) → (⟨S4096, .i32⟩ : BufTy).Contents (Elt F)),
    binary main_v27 main_v30 main_v31 (addi : (⟨S4096, .i32⟩ : BufTy).Contents (Elt F) → (⟨S4096, .i32⟩ : BufTy).Contents (Elt F) → (⟨S4096, .i32⟩ : BufTy).Contents (Elt F)),
    ternary main_v29 main_v31 main_v27 main_v32 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

/-- Operations 50 … 58 of the 92. -/
abbrev L7 : List (HloOp τ sig (Elt F)) :=
  [ nullary main_c_7 (constantI S_ 32 0#32),
    unary main_c_7 main_v33 (broadcastInDim S4096 ![] bcast_S_S4096 : (⟨S_, .i32⟩ : BufTy).Contents (Elt F) → (⟨S4096, .i32⟩ : BufTy).Contents (Elt F)),
    binary main_v9 main_v33 main_v34 (cmpi .slt : (⟨S4096, .i32⟩ : BufTy).Contents (Elt F) → (⟨S4096, .i32⟩ : BufTy).Contents (Elt F) → (⟨S4096, .i1⟩ : BufTy).Contents (Elt F)),
    nullary main_c_8 (constantI S_ 32 8192#32),
    unary main_c_8 main_v35 (broadcastInDim S4096 ![] bcast_S_S4096 : (⟨S_, .i32⟩ : BufTy).Contents (Elt F) → (⟨S4096, .i32⟩ : BufTy).Contents (Elt F)),
    binary main_v9 main_v35 main_v36 (addi : (⟨S4096, .i32⟩ : BufTy).Contents (Elt F) → (⟨S4096, .i32⟩ : BufTy).Contents (Elt F) → (⟨S4096, .i32⟩ : BufTy).Contents (Elt F)),
    ternary main_v34 main_v36 main_v9 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v32 main_v38 (broadcastInDim S4096x1 ![0] bcast_S4096_S4096x1_0 : (⟨S4096, .i32⟩ : BufTy).Contents (Elt F) → (⟨S4096x1, .i32⟩ : BufTy).Contents (Elt F)),
    unary main_v37 main_v39 (broadcastInDim S4096x1 ![0] bcast_S4096_S4096x1_0 : (⟨S4096, .i32⟩ : BufTy).Contents (Elt F) → (⟨S4096x1, .i32⟩ : BufTy).Contents (Elt F)) ]

/-- Operations 59 … 60 of the 92. -/
abbrev L8 : List (HloOp τ sig (Elt F)) :=
  [ binary main_v38 main_v39 main_v40 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v8 main_v40 main_v41 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- Operations 61 … 67 of the 92. -/
abbrev L9 : List (HloOp τ sig (Elt F)) :=
  [ binary main_v25 main_v41 main_v42 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    unary main_v42 main_v43 (Host.negf : (⟨S8192, .f32⟩ : BufTy).Contents (Elt F) → (⟨S8192, .f32⟩ : BufTy).Contents (Elt F)),
    nullary main_cst (constant S_ .f32 0x3F000000#32),
    unary main_cst main_v44 (broadcastInDim S8192 ![] bcast_S_S8192 : (⟨S_, .f32⟩ : BufTy).Contents (Elt F) → (⟨S8192, .f32⟩ : BufTy).Contents (Elt F)),
    binary main_v43 main_v44 main_v45 (addf : (⟨S8192, .f32⟩ : BufTy).Contents (Elt F) → (⟨S8192, .f32⟩ : BufTy).Contents (Elt F) → (⟨S8192, .f32⟩ : BufTy).Contents (Elt F)),
    unary main_v45 main_v46 (Host.exp : (⟨S8192, .f32⟩ : BufTy).Contents (Elt F) → (⟨S8192, .f32⟩ : BufTy).Contents (Elt F)),
    unary main_v46 main_v47 (Host.log1p : (⟨S8192, .f32⟩ : BufTy).Contents (Elt F) → (⟨S8192, .f32⟩ : BufTy).Contents (Elt F)) ]

/-- Operations 68 … 77 of the 92. -/
abbrev L10 : List (HloOp τ sig (Elt F)) :=
  [ nullary main_v48 (iotaInDim S8192x8192 32 0),
    nullary main_v49 (iotaInDim S8192x8192 32 1),
    nullary main_c_9 (constantI S_ 32 0#32),
    unary main_c_9 main_v50 (broadcastInDim S8192x8192 ![] bcast_S_S8192x8192 : (⟨S_, .i32⟩ : BufTy).Contents (Elt F) → (⟨S8192x8192, .i32⟩ : BufTy).Contents (Elt F)),
    binary main_v48 main_v50 main_v51 (addi : (⟨S8192x8192, .i32⟩ : BufTy).Contents (Elt F) → (⟨S8192x8192, .i32⟩ : BufTy).Contents (Elt F) → (⟨S8192x8192, .i32⟩ : BufTy).Contents (Elt F)),
    binary main_v51 main_v49 main_v52 (cmpi .eq : (⟨S8192x8192, .i32⟩ : BufTy).Contents (Elt F) → (⟨S8192x8192, .i32⟩ : BufTy).Contents (Elt F) → (⟨S8192x8192, .i1⟩ : BufTy).Contents (Elt F)),
    unary main_v52 main_v53 (uitofp .f32 : (⟨S8192x8192, .i1⟩ : BufTy).Contents (Elt F) → (⟨S8192x8192, .f32⟩ : BufTy).Contents (Elt F)),
    nullary main_cst_10 (constant S_ .f32 0x3F800000#32),
    unary main_cst_10 main_v54 (broadcastInDim S8192x8192 ![] bcast_S_S8192x8192 : (⟨S_, .f32⟩ : BufTy).Contents (Elt F) → (⟨S8192x8192, .f32⟩ : BufTy).Contents (Elt F)),
    binary main_v54 main_v53 main_v55 (subf : (⟨S8192x8192, .f32⟩ : BufTy).Contents (Elt F) → (⟨S8192x8192, .f32⟩ : BufTy).Contents (Elt F) → (⟨S8192x8192, .f32⟩ : BufTy).Contents (Elt F)) ]

/-- Operations 78 … 83 of the 92. -/
abbrev L11 : List (HloOp τ sig (Elt F)) :=
  [ nullary main_cst_11 (constant S_ .f32 0x3F000000#32),
    unary main_cst_11 main_v56 (broadcastInDim S8192x8192 ![] bcast_S_S8192x8192 : (⟨S_, .f32⟩ : BufTy).Contents (Elt F) → (⟨S8192x8192, .f32⟩ : BufTy).Contents (Elt F)),
    binary main_v8 main_v56 main_v57 (subf : (⟨S8192x8192, .f32⟩ : BufTy).Contents (Elt F) → (⟨S8192x8192, .f32⟩ : BufTy).Contents (Elt F) → (⟨S8192x8192, .f32⟩ : BufTy).Contents (Elt F)),
    unary main_v57 main_v58 (Host.exp : (⟨S8192x8192, .f32⟩ : BufTy).Contents (Elt F) → (⟨S8192x8192, .f32⟩ : BufTy).Contents (Elt F)),
    binary main_v55 main_v58 main_v59 (mulf : (⟨S8192x8192, .f32⟩ : BufTy).Contents (Elt F) → (⟨S8192x8192, .f32⟩ : BufTy).Contents (Elt F) → (⟨S8192x8192, .f32⟩ : BufTy).Contents (Elt F)),
    unary main_v59 main_v60 (Host.log1p : (⟨S8192x8192, .f32⟩ : BufTy).Contents (Elt F) → (⟨S8192x8192, .f32⟩ : BufTy).Contents (Elt F)) ]

/-- Operations 84 … 92 of the 92. -/
abbrev L12 : List (HloOp τ sig (Elt F)) :=
  [ nullary main_cst_12 (constant S_ .f32 0x00000000#32),
    binary main_v47 main_cst_12 main_v61 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_13 (constant S_ .f32 0x46000000#32),
    binary main_v61 main_cst_13 main_v62 (Host.divf : (⟨S_, .f32⟩ : BufTy).Contents (Elt F) → (⟨S_, .f32⟩ : BufTy).Contents (Elt F) → (⟨S_, .f32⟩ : BufTy).Contents (Elt F)),
    nullary main_cst_14 (constant S_ .f32 0x00000000#32),
    binary main_v60 main_cst_14 main_v63 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_15 (constant S_ .f32 0x47400000#32),
    binary main_v63 main_cst_15 main_v64 (Host.divf : (⟨S_, .f32⟩ : BufTy).Contents (Elt F) → (⟨S_, .f32⟩ : BufTy).Contents (Elt F) → (⟨S_, .f32⟩ : BufTy).Contents (Elt F)),
    binary main_v62 main_v64 main_v65 (addf : (⟨S_, .f32⟩ : BufTy).Contents (Elt F) → (⟨S_, .f32⟩ : BufTy).Contents (Elt F) → (⟨S_, .f32⟩ : BufTy).Contents (Elt F)) ]

/-- The operations are those 12 lines, in order. -/
theorem ops_eq : (Cert.ReferenceIdeal.ValueP.ops : List (HloOp τ sig (Elt F))) = L1 ++ (L2 ++ (L3 ++ (L4 ++ (L5 ++ (L6 ++ (L7 ++ (L8 ++ (L9 ++ (L10 ++ (L11 ++ (L12))))))))))) := rfl

/-- The references line 1 writes. -/
abbrev L1_W : List (Ref sig .tc) := [main_call0_v0, main_call0_cst, main_call0_v1, main_call0_v2, main_v0, main_v1, main_v2, main_call1_v0, main_call1_cst, main_call1_v1, main_call1_v2, main_v3, main_v4, main_v5]
theorem L1_writes : (L1 : List (HloOp τ sig (Elt F))).Forall fun op => op.writes ⊆ (L1_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

/-- The references line 2 writes. -/
abbrev L2_W : List (Ref sig .tc) := [main_v6, main_v7, main_v8]
theorem L2_writes : (L2 : List (HloOp τ sig (Elt F))).Forall fun op => op.writes ⊆ (L2_W.map (Proc.devRef (τ := τ) .tc)).toFinset := by
  simp only [List.Forall]
  refine ⟨?_, ?_, ?_⟩ <;>
    (simp only [StableHlo.nullary_writes, StableHlo.unary_writes, StableHlo.binary_writes, StableHlo.ternary_writes, Finset.singleton_subset_iff, List.mem_toFinset]; exact List.mem_map_of_mem (by decide))

/-- The references line 3 writes. -/
abbrev L3_W : List (Ref sig .tc) := [main_v9, main_c, main_v10, main_v11, main_c_0, main_v12, main_v13, main_c_1, main_v14, main_v15, main_v16]
theorem L3_writes : (L3 : List (HloOp τ sig (Elt F))).Forall fun op => op.writes ⊆ (L3_W.map (Proc.devRef (τ := τ) .tc)).toFinset := by
  simp only [List.Forall]
  refine ⟨?_, ?_, ?_, ?_, ?_, ?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

/-- The references line 4 writes. -/
abbrev L4_W : List (Ref sig .tc) := [main_c_2, main_v17, main_v18, main_c_3, main_v19, main_v20, main_v21, main_v22, main_v23]
theorem L4_writes : (L4 : List (HloOp τ sig (Elt F))).Forall fun op => op.writes ⊆ (L4_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

/-- The references line 5 writes. -/
abbrev L5_W : List (Ref sig .tc) := [main_v24, main_v25]
theorem L5_writes : (L5 : List (HloOp τ sig (Elt F))).Forall fun op => op.writes ⊆ (L5_W.map (Proc.devRef (τ := τ) .tc)).toFinset := by
  simp only [List.Forall]
  refine ⟨?_, ?_⟩ <;>
    (simp only [StableHlo.nullary_writes, StableHlo.unary_writes, StableHlo.binary_writes, StableHlo.ternary_writes, Finset.singleton_subset_iff, List.mem_toFinset]; exact List.mem_map_of_mem (by decide))

/-- The references line 6 writes. -/
abbrev L6_W : List (Ref sig .tc) := [main_c_4, main_v26, main_v27, main_c_5, main_v28, main_v29, main_c_6, main_v30, main_v31, main_v32]
theorem L6_writes : (L6 : List (HloOp τ sig (Elt F))).Forall fun op => op.writes ⊆ (L6_W.map (Proc.devRef (τ := τ) .tc)).toFinset := by
  simp only [List.Forall]
  refine ⟨?_, ?_, ?_, ?_, ?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

/-- The references line 7 writes. -/
abbrev L7_W : List (Ref sig .tc) := [main_c_7, main_v33, main_v34, main_c_8, main_v35, main_v36, main_v37, main_v38, main_v39]
theorem L7_writes : (L7 : List (HloOp τ sig (Elt F))).Forall fun op => op.writes ⊆ (L7_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

/-- The references line 8 writes. -/
abbrev L8_W : List (Ref sig .tc) := [main_v40, main_v41]
theorem L8_writes : (L8 : List (HloOp τ sig (Elt F))).Forall fun op => op.writes ⊆ (L8_W.map (Proc.devRef (τ := τ) .tc)).toFinset := by
  simp only [List.Forall]
  refine ⟨?_, ?_⟩ <;>
    (simp only [StableHlo.nullary_writes, StableHlo.unary_writes, StableHlo.binary_writes, StableHlo.ternary_writes, Finset.singleton_subset_iff, List.mem_toFinset]; exact List.mem_map_of_mem (by decide))

/-- The references line 9 writes. -/
abbrev L9_W : List (Ref sig .tc) := [main_v42, main_v43, main_cst, main_v44, main_v45, main_v46, main_v47]
theorem L9_writes : (L9 : List (HloOp τ sig (Elt F))).Forall fun op => op.writes ⊆ (L9_W.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

/-- The references line 10 writes. -/
abbrev L10_W : List (Ref sig .tc) := [main_v48, main_v49, main_c_9, main_v50, main_v51, main_v52, main_v53, main_cst_10, main_v54, main_v55]
theorem L10_writes : (L10 : List (HloOp τ sig (Elt F))).Forall fun op => op.writes ⊆ (L10_W.map (Proc.devRef (τ := τ) .tc)).toFinset := by
  simp only [List.Forall]
  refine ⟨?_, ?_, ?_, ?_, ?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

/-- The references line 11 writes. -/
abbrev L11_W : List (Ref sig .tc) := [main_cst_11, main_v56, main_v57, main_v58, main_v59, main_v60]
theorem L11_writes : (L11 : List (HloOp τ sig (Elt F))).Forall fun op => op.writes ⊆ (L11_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

/-- The references line 12 writes. -/
abbrev L12_W : List (Ref sig .tc) := [main_cst_12, main_v61, main_cst_13, main_v62, main_cst_14, main_v63, main_cst_15, main_v64, main_v65]
theorem L12_writes : (L12 : List (HloOp τ sig (Elt F))).Forall fun op => op.writes ⊆ (L12_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

/-- Line 1 read back over any contents that hold the earlier stages where it reads them. -/
theorem step1 (W : Valuation τ sig (Elt F)) (x y : (⟨S4096x512, .f32⟩ : BufTy).Contents (Elt F))
    (h_arg0 : W (Proc.devRef .tc main_arg0) = x)
    (h_arg1 : W (Proc.devRef .tc main_arg1) = y) :
    after L1 W (Proc.devRef .tc main_arg0) = x
      ∧ after L1 W (Proc.devRef .tc main_arg1) = y
      ∧ after L1 W (Proc.devRef .tc main_v2) = val_main_v2 (F := F) x
      ∧ after L1 W (Proc.devRef .tc main_v5) = val_main_v5 (F := F) y := by
  refine ⟨?_, ?_, ?_, ?_⟩
  · exact (after_of_writes_sub L1 W L1_writes (by decide)).trans h_arg0
  · exact (after_of_writes_sub L1 W L1_writes (by decide)).trans h_arg1
  · unfold L1
    after_results_simp
    rw [h_arg0]
    rfl
  · unfold L1
    after_results_simp
    rw [h_arg1]
    rfl

/-- Line 2 read back over any contents that hold the earlier stages where it reads them. -/
theorem step2 (W : Valuation τ sig (Elt F)) (x y : (⟨S4096x512, .f32⟩ : BufTy).Contents (Elt F))
    (h_arg0 : W (Proc.devRef .tc main_arg0) = x)
    (h_arg1 : W (Proc.devRef .tc main_arg1) = y)
    (h_v2 : W (Proc.devRef .tc main_v2) = val_main_v2 (F := F) x)
    (h_v5 : W (Proc.devRef .tc main_v5) = val_main_v5 (F := F) y) :
    after L2 W (Proc.devRef .tc main_arg0) = x
      ∧ after L2 W (Proc.devRef .tc main_arg1) = y
      ∧ after L2 W (Proc.devRef .tc main_v8) = val_main_v8 (F := F) x y := by
  refine ⟨?_, ?_, ?_⟩
  · exact (after_of_writes_sub L2 W L2_writes (by decide)).trans h_arg0
  · exact (after_of_writes_sub L2 W L2_writes (by decide)).trans h_arg1
  · unfold L2
    after_results_simp
    rw [h_v2, h_v5]
    rfl

/-- Line 3 read back over any contents that hold the earlier stages where it reads them. -/
theorem step3 (W : Valuation τ sig (Elt F)) (x y : (⟨S4096x512, .f32⟩ : BufTy).Contents (Elt F))
    (h_arg0 : W (Proc.devRef .tc main_arg0) = x)
    (h_arg1 : W (Proc.devRef .tc main_arg1) = y)
    (h_v8 : W (Proc.devRef .tc main_v8) = val_main_v8 (F := F) x y) :
    after L3 W (Proc.devRef .tc main_arg0) = x
      ∧ after L3 W (Proc.devRef .tc main_arg1) = y
      ∧ after L3 W (Proc.devRef .tc main_v11) = val_main_v11 (F := F)
      ∧ after L3 W (Proc.devRef .tc main_v16) = val_main_v16 (F := F)
      ∧ after L3 W (Proc.devRef .tc main_v8) = val_main_v8 (F := F) x y
      ∧ after L3 W (Proc.devRef .tc main_v9) = val_main_v9 (F := F) := by
  refine ⟨?_, ?_, ?_, ?_, ?_, ?_⟩
  · exact (after_of_writes_sub L3 W L3_writes (by decide)).trans h_arg0
  · exact (after_of_writes_sub L3 W L3_writes (by decide)).trans h_arg1
  · unfold L3
    after_results_simp
    rfl
  · unfold L3
    after_results_simp
    rfl
  · exact (after_of_writes_sub L3 W L3_writes (by decide)).trans h_v8
  · unfold L3
    after_results_simp
    rfl

/-- Line 4 read back over any contents that hold the earlier stages where it reads them. -/
theorem step4 (W : Valuation τ sig (Elt F)) (x y : (⟨S4096x512, .f32⟩ : BufTy).Contents (Elt F))
    (h_arg0 : W (Proc.devRef .tc main_arg0) = x)
    (h_arg1 : W (Proc.devRef .tc main_arg1) = y)
    (h_v11 : W (Proc.devRef .tc main_v11) = val_main_v11 (F := F))
    (h_v16 : W (Proc.devRef .tc main_v16) = val_main_v16 (F := F))
    (h_v8 : W (Proc.devRef .tc main_v8) = val_main_v8 (F := F) x y)
    (h_v9 : W (Proc.devRef .tc main_v9) = val_main_v9 (F := F)) :
    after L4 W (Proc.devRef .tc main_arg0) = x
      ∧ after L4 W (Proc.devRef .tc main_arg1) = y
      ∧ after L4 W (Proc.devRef .tc main_v22) = val_main_v22 (F := F)
      ∧ after L4 W (Proc.devRef .tc main_v23) = val_main_v23 (F := F)
      ∧ after L4 W (Proc.devRef .tc main_v8) = val_main_v8 (F := F) x y
      ∧ after L4 W (Proc.devRef .tc main_v9) = val_main_v9 (F := F) := by
  refine ⟨?_, ?_, ?_, ?_, ?_, ?_⟩
  · exact (after_of_writes_sub L4 W L4_writes (by decide)).trans h_arg0
  · exact (after_of_writes_sub L4 W L4_writes (by decide)).trans h_arg1
  · unfold L4
    after_results_simp
    rw [h_v16]
    rfl
  · unfold L4
    after_results_simp
    rw [h_v11]
    rfl
  · exact (after_of_writes_sub L4 W L4_writes (by decide)).trans h_v8
  · exact (after_of_writes_sub L4 W L4_writes (by decide)).trans h_v9

/-- Line 5 read back over any contents that hold the earlier stages where it reads them. -/
theorem step5 (W : Valuation τ sig (Elt F)) (x y : (⟨S4096x512, .f32⟩ : BufTy).Contents (Elt F))
    (h_arg0 : W (Proc.devRef .tc main_arg0) = x)
    (h_arg1 : W (Proc.devRef .tc main_arg1) = y)
    (h_v22 : W (Proc.devRef .tc main_v22) = val_main_v22 (F := F))
    (h_v23 : W (Proc.devRef .tc main_v23) = val_main_v23 (F := F))
    (h_v8 : W (Proc.devRef .tc main_v8) = val_main_v8 (F := F) x y)
    (h_v9 : W (Proc.devRef .tc main_v9) = val_main_v9 (F := F)) :
    after L5 W (Proc.devRef .tc main_arg0) = x
      ∧ after L5 W (Proc.devRef .tc main_arg1) = y
      ∧ after L5 W (Proc.devRef .tc main_v9) = val_main_v9 (F := F)
      ∧ after L5 W (Proc.devRef .tc main_v8) = val_main_v8 (F := F) x y
      ∧ after L5 W (Proc.devRef .tc main_v25) = val_main_v25 (F := F) x y := by
  refine ⟨?_, ?_, ?_, ?_, ?_⟩
  · exact (after_of_writes_sub L5 W L5_writes (by decide)).trans h_arg0
  · exact (after_of_writes_sub L5 W L5_writes (by decide)).trans h_arg1
  · exact (after_of_writes_sub L5 W L5_writes (by decide)).trans h_v9
  · exact (after_of_writes_sub L5 W L5_writes (by decide)).trans h_v8
  · unfold L5
    after_results_simp
    rw [h_v8, h_v22, h_v23]
    rfl

/-- Line 6 read back over any contents that hold the earlier stages where it reads them. -/
theorem step6 (W : Valuation τ sig (Elt F)) (x y : (⟨S4096x512, .f32⟩ : BufTy).Contents (Elt F))
    (h_arg0 : W (Proc.devRef .tc main_arg0) = x)
    (h_arg1 : W (Proc.devRef .tc main_arg1) = y)
    (h_v9 : W (Proc.devRef .tc main_v9) = val_main_v9 (F := F))
    (h_v8 : W (Proc.devRef .tc main_v8) = val_main_v8 (F := F) x y)
    (h_v25 : W (Proc.devRef .tc main_v25) = val_main_v25 (F := F) x y) :
    after L6 W (Proc.devRef .tc main_arg0) = x
      ∧ after L6 W (Proc.devRef .tc main_arg1) = y
      ∧ after L6 W (Proc.devRef .tc main_v9) = val_main_v9 (F := F)
      ∧ after L6 W (Proc.devRef .tc main_v32) = val_main_v32 (F := F)
      ∧ after L6 W (Proc.devRef .tc main_v8) = val_main_v8 (F := F) x y
      ∧ after L6 W (Proc.devRef .tc main_v25) = val_main_v25 (F := F) x y := by
  refine ⟨?_, ?_, ?_, ?_, ?_, ?_⟩
  · exact (after_of_writes_sub L6 W L6_writes (by decide)).trans h_arg0
  · exact (after_of_writes_sub L6 W L6_writes (by decide)).trans h_arg1
  · exact (after_of_writes_sub L6 W L6_writes (by decide)).trans h_v9
  · unfold L6
    after_results_simp
    rw [h_v9]
    rfl
  · exact (after_of_writes_sub L6 W L6_writes (by decide)).trans h_v8
  · exact (after_of_writes_sub L6 W L6_writes (by decide)).trans h_v25

/-- Line 7 read back over any contents that hold the earlier stages where it reads them. -/
theorem step7 (W : Valuation τ sig (Elt F)) (x y : (⟨S4096x512, .f32⟩ : BufTy).Contents (Elt F))
    (h_arg0 : W (Proc.devRef .tc main_arg0) = x)
    (h_arg1 : W (Proc.devRef .tc main_arg1) = y)
    (h_v9 : W (Proc.devRef .tc main_v9) = val_main_v9 (F := F))
    (h_v32 : W (Proc.devRef .tc main_v32) = val_main_v32 (F := F))
    (h_v8 : W (Proc.devRef .tc main_v8) = val_main_v8 (F := F) x y)
    (h_v25 : W (Proc.devRef .tc main_v25) = val_main_v25 (F := F) x y) :
    after L7 W (Proc.devRef .tc main_arg0) = x
      ∧ after L7 W (Proc.devRef .tc main_arg1) = y
      ∧ after L7 W (Proc.devRef .tc main_v38) = val_main_v38 (F := F)
      ∧ after L7 W (Proc.devRef .tc main_v39) = val_main_v39 (F := F)
      ∧ after L7 W (Proc.devRef .tc main_v8) = val_main_v8 (F := F) x y
      ∧ after L7 W (Proc.devRef .tc main_v25) = val_main_v25 (F := F) x y := by
  refine ⟨?_, ?_, ?_, ?_, ?_, ?_⟩
  · exact (after_of_writes_sub L7 W L7_writes (by decide)).trans h_arg0
  · exact (after_of_writes_sub L7 W L7_writes (by decide)).trans h_arg1
  · unfold L7
    after_results_simp
    rw [h_v32]
    rfl
  · unfold L7
    after_results_simp
    rw [h_v9]
    rfl
  · exact (after_of_writes_sub L7 W L7_writes (by decide)).trans h_v8
  · exact (after_of_writes_sub L7 W L7_writes (by decide)).trans h_v25

/-- Line 8 read back over any contents that hold the earlier stages where it reads them. -/
theorem step8 (W : Valuation τ sig (Elt F)) (x y : (⟨S4096x512, .f32⟩ : BufTy).Contents (Elt F))
    (h_arg0 : W (Proc.devRef .tc main_arg0) = x)
    (h_arg1 : W (Proc.devRef .tc main_arg1) = y)
    (h_v38 : W (Proc.devRef .tc main_v38) = val_main_v38 (F := F))
    (h_v39 : W (Proc.devRef .tc main_v39) = val_main_v39 (F := F))
    (h_v8 : W (Proc.devRef .tc main_v8) = val_main_v8 (F := F) x y)
    (h_v25 : W (Proc.devRef .tc main_v25) = val_main_v25 (F := F) x y) :
    after L8 W (Proc.devRef .tc main_arg0) = x
      ∧ after L8 W (Proc.devRef .tc main_arg1) = y
      ∧ after L8 W (Proc.devRef .tc main_v25) = val_main_v25 (F := F) x y
      ∧ after L8 W (Proc.devRef .tc main_v41) = val_main_v41 (F := F) x y
      ∧ after L8 W (Proc.devRef .tc main_v8) = val_main_v8 (F := F) x y := by
  refine ⟨?_, ?_, ?_, ?_, ?_⟩
  · exact (after_of_writes_sub L8 W L8_writes (by decide)).trans h_arg0
  · exact (after_of_writes_sub L8 W L8_writes (by decide)).trans h_arg1
  · exact (after_of_writes_sub L8 W L8_writes (by decide)).trans h_v25
  · unfold L8
    after_results_simp
    rw [h_v8, h_v38, h_v39]
    rfl
  · exact (after_of_writes_sub L8 W L8_writes (by decide)).trans h_v8

/-- Line 9 read back over any contents that hold the earlier stages where it reads them. -/
theorem step9 (W : Valuation τ sig (Elt F)) (x y : (⟨S4096x512, .f32⟩ : BufTy).Contents (Elt F))
    (h_arg0 : W (Proc.devRef .tc main_arg0) = x)
    (h_arg1 : W (Proc.devRef .tc main_arg1) = y)
    (h_v25 : W (Proc.devRef .tc main_v25) = val_main_v25 (F := F) x y)
    (h_v41 : W (Proc.devRef .tc main_v41) = val_main_v41 (F := F) x y)
    (h_v8 : W (Proc.devRef .tc main_v8) = val_main_v8 (F := F) x y) :
    after L9 W (Proc.devRef .tc main_arg0) = x
      ∧ after L9 W (Proc.devRef .tc main_arg1) = y
      ∧ after L9 W (Proc.devRef .tc main_v8) = val_main_v8 (F := F) x y
      ∧ after L9 W (Proc.devRef .tc main_v47) = val_main_v47 (F := F) x y := by
  refine ⟨?_, ?_, ?_, ?_⟩
  · exact (after_of_writes_sub L9 W L9_writes (by decide)).trans h_arg0
  · exact (after_of_writes_sub L9 W L9_writes (by decide)).trans h_arg1
  · exact (after_of_writes_sub L9 W L9_writes (by decide)).trans h_v8
  · unfold L9
    after_results_simp
    rw [h_v25, h_v41]
    rfl

/-- Line 10 read back over any contents that hold the earlier stages where it reads them. -/
theorem step10 (W : Valuation τ sig (Elt F)) (x y : (⟨S4096x512, .f32⟩ : BufTy).Contents (Elt F))
    (h_arg0 : W (Proc.devRef .tc main_arg0) = x)
    (h_arg1 : W (Proc.devRef .tc main_arg1) = y)
    (h_v8 : W (Proc.devRef .tc main_v8) = val_main_v8 (F := F) x y)
    (h_v47 : W (Proc.devRef .tc main_v47) = val_main_v47 (F := F) x y) :
    after L10 W (Proc.devRef .tc main_arg0) = x
      ∧ after L10 W (Proc.devRef .tc main_arg1) = y
      ∧ after L10 W (Proc.devRef .tc main_v8) = val_main_v8 (F := F) x y
      ∧ after L10 W (Proc.devRef .tc main_v55) = val_main_v55 (F := F)
      ∧ after L10 W (Proc.devRef .tc main_v47) = val_main_v47 (F := F) x y := by
  refine ⟨?_, ?_, ?_, ?_, ?_⟩
  · exact (after_of_writes_sub L10 W L10_writes (by decide)).trans h_arg0
  · exact (after_of_writes_sub L10 W L10_writes (by decide)).trans h_arg1
  · exact (after_of_writes_sub L10 W L10_writes (by decide)).trans h_v8
  · unfold L10
    after_results_simp
    rfl
  · exact (after_of_writes_sub L10 W L10_writes (by decide)).trans h_v47

/-- Line 11 read back over any contents that hold the earlier stages where it reads them. -/
theorem step11 (W : Valuation τ sig (Elt F)) (x y : (⟨S4096x512, .f32⟩ : BufTy).Contents (Elt F))
    (h_arg0 : W (Proc.devRef .tc main_arg0) = x)
    (h_arg1 : W (Proc.devRef .tc main_arg1) = y)
    (h_v8 : W (Proc.devRef .tc main_v8) = val_main_v8 (F := F) x y)
    (h_v55 : W (Proc.devRef .tc main_v55) = val_main_v55 (F := F))
    (h_v47 : W (Proc.devRef .tc main_v47) = val_main_v47 (F := F) x y) :
    after L11 W (Proc.devRef .tc main_arg0) = x
      ∧ after L11 W (Proc.devRef .tc main_arg1) = y
      ∧ after L11 W (Proc.devRef .tc main_v47) = val_main_v47 (F := F) x y
      ∧ after L11 W (Proc.devRef .tc main_v60) = val_main_v60 (F := F) x y := by
  refine ⟨?_, ?_, ?_, ?_⟩
  · exact (after_of_writes_sub L11 W L11_writes (by decide)).trans h_arg0
  · exact (after_of_writes_sub L11 W L11_writes (by decide)).trans h_arg1
  · exact (after_of_writes_sub L11 W L11_writes (by decide)).trans h_v47
  · unfold L11
    after_results_simp
    rw [h_v55, h_v8]
    rfl

/-- Line 12 read back over any contents that hold the earlier stages where it reads them. -/
theorem step12 (W : Valuation τ sig (Elt F)) (x y : (⟨S4096x512, .f32⟩ : BufTy).Contents (Elt F))
    (h_arg0 : W (Proc.devRef .tc main_arg0) = x)
    (h_arg1 : W (Proc.devRef .tc main_arg1) = y)
    (h_v47 : W (Proc.devRef .tc main_v47) = val_main_v47 (F := F) x y)
    (h_v60 : W (Proc.devRef .tc main_v60) = val_main_v60 (F := F) x y) :
    after L12 W (Proc.devRef .tc main_arg0) = x
      ∧ after L12 W (Proc.devRef .tc main_arg1) = y
      ∧ after L12 W (Proc.devRef .tc main_v65) = val_main_v65 (F := F) x y := by
  refine ⟨?_, ?_, ?_⟩
  · exact (after_of_writes_sub L12 W L12_writes (by decide)).trans h_arg0
  · exact (after_of_writes_sub L12 W L12_writes (by decide)).trans h_arg1
  · unfold L12
    after_results_simp
    rw [h_v47, h_v60]
    rfl

/-! ## The lines chained -/

/-- From any contents: after all the operations the last buffer holds the last stage of the two arguments' contents,
    and the arguments' buffers are unchanged. -/
theorem after_ops (V : Valuation τ sig (Elt F)) :
    after (Cert.ReferenceIdeal.ValueP.ops (F := F)) V (Proc.devRef .tc main_v65) = val_main_v65 (F := F) (V (Proc.devRef .tc main_arg0)) (V (Proc.devRef .tc main_arg1))
      ∧ after (Cert.ReferenceIdeal.ValueP.ops (F := F)) V (Proc.devRef .tc main_arg0) = V (Proc.devRef .tc main_arg0)
      ∧ after (Cert.ReferenceIdeal.ValueP.ops (F := F)) V (Proc.devRef .tc main_arg1) = V (Proc.devRef .tc main_arg1) := by
  obtain ⟨h1_arg0, h1_arg1, h1_v2, h1_v5⟩ := step1 (V) (V (Proc.devRef .tc main_arg0)) (V (Proc.devRef .tc main_arg1)) rfl rfl
  obtain ⟨h2_arg0, h2_arg1, h2_v8⟩ := step2 (after L1 (V)) (V (Proc.devRef .tc main_arg0)) (V (Proc.devRef .tc main_arg1)) h1_arg0 h1_arg1 h1_v2 h1_v5
  obtain ⟨h3_arg0, h3_arg1, h3_v11, h3_v16, h3_v8, h3_v9⟩ := step3 (after L2 (after L1 (V))) (V (Proc.devRef .tc main_arg0)) (V (Proc.devRef .tc main_arg1)) h2_arg0 h2_arg1 h2_v8
  obtain ⟨h4_arg0, h4_arg1, h4_v22, h4_v23, h4_v8, h4_v9⟩ := step4 (after L3 (after L2 (after L1 (V)))) (V (Proc.devRef .tc main_arg0)) (V (Proc.devRef .tc main_arg1)) h3_arg0 h3_arg1 h3_v11 h3_v16 h3_v8 h3_v9
  obtain ⟨h5_arg0, h5_arg1, h5_v9, h5_v8, h5_v25⟩ := step5 (after L4 (after L3 (after L2 (after L1 (V))))) (V (Proc.devRef .tc main_arg0)) (V (Proc.devRef .tc main_arg1)) h4_arg0 h4_arg1 h4_v22 h4_v23 h4_v8 h4_v9
  obtain ⟨h6_arg0, h6_arg1, h6_v9, h6_v32, h6_v8, h6_v25⟩ := step6 (after L5 (after L4 (after L3 (after L2 (after L1 (V)))))) (V (Proc.devRef .tc main_arg0)) (V (Proc.devRef .tc main_arg1)) h5_arg0 h5_arg1 h5_v9 h5_v8 h5_v25
  obtain ⟨h7_arg0, h7_arg1, h7_v38, h7_v39, h7_v8, h7_v25⟩ := step7 (after L6 (after L5 (after L4 (after L3 (after L2 (after L1 (V))))))) (V (Proc.devRef .tc main_arg0)) (V (Proc.devRef .tc main_arg1)) h6_arg0 h6_arg1 h6_v9 h6_v32 h6_v8 h6_v25
  obtain ⟨h8_arg0, h8_arg1, h8_v25, h8_v41, h8_v8⟩ := step8 (after L7 (after L6 (after L5 (after L4 (after L3 (after L2 (after L1 (V)))))))) (V (Proc.devRef .tc main_arg0)) (V (Proc.devRef .tc main_arg1)) h7_arg0 h7_arg1 h7_v38 h7_v39 h7_v8 h7_v25
  obtain ⟨h9_arg0, h9_arg1, h9_v8, h9_v47⟩ := step9 (after L8 (after L7 (after L6 (after L5 (after L4 (after L3 (after L2 (after L1 (V))))))))) (V (Proc.devRef .tc main_arg0)) (V (Proc.devRef .tc main_arg1)) h8_arg0 h8_arg1 h8_v25 h8_v41 h8_v8
  obtain ⟨h10_arg0, h10_arg1, h10_v8, h10_v55, h10_v47⟩ := step10 (after L9 (after L8 (after L7 (after L6 (after L5 (after L4 (after L3 (after L2 (after L1 (V)))))))))) (V (Proc.devRef .tc main_arg0)) (V (Proc.devRef .tc main_arg1)) h9_arg0 h9_arg1 h9_v8 h9_v47
  obtain ⟨h11_arg0, h11_arg1, h11_v47, h11_v60⟩ := step11 (after L10 (after L9 (after L8 (after L7 (after L6 (after L5 (after L4 (after L3 (after L2 (after L1 (V))))))))))) (V (Proc.devRef .tc main_arg0)) (V (Proc.devRef .tc main_arg1)) h10_arg0 h10_arg1 h10_v8 h10_v55 h10_v47
  obtain ⟨h12_arg0, h12_arg1, h12_v65⟩ := step12 (after L11 (after L10 (after L9 (after L8 (after L7 (after L6 (after L5 (after L4 (after L3 (after L2 (after L1 (V)))))))))))) (V (Proc.devRef .tc main_arg0)) (V (Proc.devRef .tc main_arg1)) h11_arg0 h11_arg1 h11_v47 h11_v60
  rw [ops_eq]
  simp only [after_append]
  exact ⟨h12_v65, h12_arg0, h12_arg1⟩

/-! ## The run -/

/-- Every weakly fair execution of the reference ends with its result at the whole-matrix form of the loss of the
    arguments' launch contents, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread _ _).loc Cert.ReferenceIdeal.main_v65)
          = (fun _ => Cert.Spec.referenceValue
              (fun r k => m ((c.tc : Thread _ _).loc Cert.ReferenceIdeal.main_arg0) (ValueIdx.ix2 r k))
              (fun r k => m ((c.tc : Thread _ _).loc Cert.ReferenceIdeal.main_arg1) (ValueIdx.ix2 r k)))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run _ _ _).mono (fun _ h c =>
      ⟨((h c main_v65).trans (after_ops (launchContents m c)).1).trans (result_eq _ _),
        (h c main_arg0).trans (after_ops (launchContents m c)).2.1,
        (h c main_arg1).trans (after_ops (launchContents m c)).2.2⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

/-- Every weakly fair execution of the reference ends with the arguments unchanged. -/
theorem frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run _ _ _).mono (fun _ h c => (h c).2) (run m ρ)

end Cert.RefValue

end
-- ==== Proof.PreFacts.lean ====
/-
  The precondition read back. The printed predicate is, as one i1 scalar, the conjunction
      all (|x| < +inf)  and  all (|y| < +inf)  and  all (sum (x * x, axis 1) > 0)  and  all (sum (y * y, axis 1) > 0).
  When it is 1, each "all" gives its comparison at every index (an "and"-reduction that came out 1 met only 1s);
  at the extended reals |a| = max a (-a) is below +inf exactly when a is a real number, and the row sum of the squares
  is the initial value 0 plus the sum over the 512 entries of the row, so "row sum > 0" is the positivity of the sum of
  squares of the row.
-/
import proofs.«157362_j60473139528480_1_alg».proof.Pre_finite_inputs
import proofs.«157362_j60473139528480_1_alg».proof.Proof.Spec
import Idealize.ShloMosaic.Lib.ValueIdx
import Idealize.ShloMosaic.Lib.ReduceAll
import Idealize.ShloMosaic.PureOps.Ideal.Laws

noncomputable section

namespace Cert.PreFacts

open Idealize.ShloMosaic Idealize.ShloMosaic.ValueIdx
open Cert.Pre_finite_inputs

/-- The scalar shape has one index. -/
instance : Subsingleton S_.Idx := ⟨fun a b => funext fun d => d.elim0⟩

/-- The f32 pattern 0x7F800000 denotes +inf. -/
theorem ofBits_inf_f32 : Ideal.ofBits .f32 0x7F800000#32 = ⊤ := by simp [Ideal.ofBits, Ideal.ieee]

/-- An extended real whose absolute value max a (-a) is below +inf is a real number. -/
theorem real_of_abs_lt_inf (a : EReal)
    (h : Ideal.cmp .olt (max a (-a)) (Ideal.ofBits .f32 0x7F800000#32) = 1#1) : ∃ u : ℝ, a = (u : EReal) := by
  rw [ofBits_inf_f32] at h
  induction a using EReal.rec with
  | bot => simp [Ideal.cmp] at h
  | top => simp [Ideal.cmp] at h
  | coe r => exact ⟨r, rfl⟩

/-- A comparison "0 < v" that came out 1 holds. -/
theorem pos_of_ogt_zero (v : EReal) (h : Ideal.cmp .ogt v (Ideal.ofBits .f32 0x00000000#32) = 1#1) : 0 < v := by
  rw [Ideal.ofBits_zero_f32] at h
  unfold Ideal.cmp at h
  by_contra hn
  simp [hn] at h

/-- all (|x| < +inf) = 1 makes every entry of x a real number. -/
theorem finite_of_all (bc : S_.BroadcastsInDim S4096x512 (![] : Fin 0 → Fin S4096x512.rank))
    (hr : S4096x512.ReducesTo [0, 1] S_) (hu : 0 < S_.numel) (x : FVec Ideal S4096x512 .f32)
    (h : Host.reduce IntOp.andi
        (cmpf .olt (Host.absf x) (broadcastInDim S4096x512 ![] bc (constant (F := Ideal) S_ .f32 0x7F800000#32)))
        (constantI S_ 1 1#1) hr hu ix0 = 1#1)
    (i : S4096x512.Idx) : ∃ u : ℝ, x i = (u : EReal) :=
  real_of_abs_lt_inf (x i) (Host.reduce_andi_all _ _ hr hu ix0 h i)

/-- The host's row sum at the extended reals, read at row r: the initial value plus the sum over the row's 512 entries. -/
theorem rowsum_apply (hr1 : S4096x512.ReducesTo [1] S4096) (y : S4096x512.Idx → EReal) (init : EReal) (r : Fin 4096) :
    Ideal.hostReduceAdd hr1 y init (ix1 r) = init + ∑ k : Fin 512, y (ix2 r k) := by
  rw [Ideal.hostReduceAdd_single hr1 (by decide)]
  refine congrArg (_ + ·) (Finset.sum_congr rfl fun k _ => ?_)
  exact congrArg y (funext fun a => Fin.ext (by match a with | ⟨0, _⟩ => rfl | ⟨1, _⟩ => rfl))

/-- all (sum (x * x, axis 1) > 0) = 1 makes every row's sum of squares positive. -/
theorem pos_of_all (bc : S_.BroadcastsInDim S4096 (![] : Fin 0 → Fin S4096.rank))
    (hr1 : S4096x512.ReducesTo [1] S4096) (hr0 : S4096.ReducesTo [0] S_) (hu : 0 < S_.numel)
    (x : FVec Ideal S4096x512 .f32)
    (h : Host.reduce IntOp.andi
        (cmpf .ogt (Host.reduceAdd (mulf x x) (constant (F := Ideal) S_ .f32 0x00000000#32) hr1 hu)
          (broadcastInDim S4096 ![] bc (constant (F := Ideal) S_ .f32 0x00000000#32)))
        (constantI S_ 1 1#1) hr0 hu ix0 = 1#1)
    (r : Fin 4096) : 0 < Cert.Spec.ss (fun r k => x (ix2 r k)) r := by
  have e : Ideal.cmp .ogt (Ideal.hostReduceAdd hr1 (mulf x x) (Ideal.ofBits .f32 0x00000000#32) (ix1 r))
      (Ideal.ofBits .f32 0x00000000#32) = 1#1 := Host.reduce_andi_all _ _ hr0 hu ix0 h (ix1 r)
  have p := pos_of_ogt_zero _ e
  rw [rowsum_apply, Ideal.ofBits_zero_f32, zero_add] at p
  show 0 < ∑ k : Fin 512, x (ix2 r k) * x (ix2 r k)
  exact p

/-- THE PRECONDITION DECODED: every entry of both arrays is a real number and every row of each has a positive sum of
    squares. -/
theorem of_pre [Cert.Pre_finite_inputs.Facts]
    (x y : FVec Ideal Cert.Pre_finite_inputs.S4096x512 .f32)
    (h : Cert.Pre_finite_inputs.fn (F := Ideal) x y = fun _ => 1#1) :
    (∀ (r : Fin 4096) (k : Fin 512), ∃ u : ℝ, x (ValueIdx.ix2 r k) = (u : EReal))
    ∧ (∀ (r : Fin 4096) (k : Fin 512), ∃ u : ℝ, y (ValueIdx.ix2 r k) = (u : EReal))
    ∧ (∀ r : Fin 4096, 0 < Cert.Spec.ss (fun r k => x (ValueIdx.ix2 r k)) r)
    ∧ (∀ r : Fin 4096, 0 < Cert.Spec.ss (fun r k => y (ValueIdx.ix2 r k)) r) := by
  have e := congrFun h ix0
  unfold Cert.Pre_finite_inputs.fn Cert.Pre_finite_inputs.fn_part1 at e
  dsimp only at e
  simp only [andi, IntOp.andi_eq_one] at e
  obtain ⟨⟨⟨hx, hy⟩, hsx⟩, hsy⟩ := e
  exact ⟨fun r k => finite_of_all _ _ _ x hx (ix2 r k), fun r k => finite_of_all _ _ _ y hy (ix2 r k),
    fun r => pos_of_all _ _ _ _ x hsx r, fun r => pos_of_all _ _ _ _ y hsy r⟩

end Cert.PreFacts

end
-- ==== Proof.lean ====
/-
  The certificate of the contrastive similarity loss kernel against its reference.

  Both programs compute, from two 4096 x 512 matrices of embeddings, the loss
      (1/N') * sum over positive pairs of log1p (exp (-sim + 1/2)) + (1/49152) * sum over pairs a ≠ b of log1p (exp (sim a b - 1/2)),
  sim the inner products of the 8192 row-normalised embeddings. The kernel does it in three passes over blocks (normalise;
  the negatives over 8 x 8 tiles of the similarity matrix, a diagonal tile's sum less its diagonal's; the positives as row
  products in 8 blocks), the reference as whole-matrix operations with a mask and two gathers. At exact arithmetic on the
  extended reals the two values are `Cert.Spec.kernelValue` and `Cert.Spec.referenceValue` of the arguments (the kernel's by
  running its three regions point by point, the reference's by reading its operations one by one), and these agree when
  every entry is finite and no row is zero (`Cert.Spec.value_eq`) — which is what the precondition says (`Cert.PreFacts.of_pre`).
  The three frames: each kernel program terminates with its arguments unchanged (the run of its regions, at either float
  instance); the reference's frame is its run with the result dropped. The idealised kernel is the kernel's own text read at
  exact arithmetic: nothing was rewritten, so `preserves` states nothing.
-/
import proofs.«157362_j60473139528480_1_alg».proof.Defs
import proofs.«157362_j60473139528480_1_alg».proof.Proof.Gen.Kernel
import proofs.«157362_j60473139528480_1_alg».proof.Proof.Gen.KernelIdeal
import proofs.«157362_j60473139528480_1_alg».proof.Proof.Gen.ReferenceIdeal
import proofs.«157362_j60473139528480_1_alg».proof.Proof.Gen.Pre_finite_inputs
import proofs.«157362_j60473139528480_1_alg».proof.Proof.BitsKernelFrame
import proofs.«157362_j60473139528480_1_alg».proof.Proof.KernelFinal
import proofs.«157362_j60473139528480_1_alg».proof.Proof.RefValue
import proofs.«157362_j60473139528480_1_alg».proof.Proof.RefRun
import proofs.«157362_j60473139528480_1_alg».proof.Proof.PreFacts
import proofs.«157362_j60473139528480_1_alg».proof.Proof.SpecLaw
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.RefValue.frame m ρ

theorem preserves : Cert.preserves_Kernel_KernelIdeal := trivial

/-- From memories agreeing on the arguments the kernel ends at the tiled value and the reference at the whole-matrix value of
    the same matrices; under the precondition (every entry finite, no row zero) those are one extended real. -/
theorem algebraic : Cert.algebraic_KernelIdeal_ReferenceIdeal := by
  intro m ρ m' ρ' hpre hagree
  refine ⟨_, Cert.KernelIdeal.Hand.kernel_run m ρ, ?_⟩
  refine (θ_run Cert.ReferenceIdeal.defs _ _).mono (fun _ h c => ⟨(h c).1.trans ?_, (h c).2⟩) (Cert.RefValue.run m' ρ')
  obtain ⟨hX, hY, hpX, hpY⟩ := Cert.PreFacts.of_pre _ _ (hpre c)
  rw [(hagree c).1, (hagree c).2]
  exact funext fun _ => (Cert.Spec.value_eq _ _ hX hY hpX hpY).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
